-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x4096 .f32) (main_arg8 : FVec F S4096 .f32) (main_arg9 : FVec F S4096x1024 .f32) (main_arg10 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096 .f32) (main_arg5 : FVec F S4096x1024 .f32) (main_arg6 : FVec F S1024 .f32) (main_arg7 : FVec F S1024x4096 .f32) (main_arg8 : FVec F S4096 .f32) (main_arg9 : FVec F S4096x1024 .f32) (main_arg10 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x1024 .f32) (main_arg1 : FVec F S32768x1024 .f32) (main_arg2 : FVec F S32768x1024 .f32) (main_arg3 : FVec F S1024x4096 .f32) (main_arg4 : FVec F S4096 .f32) (main_arg5 : FVec F S4096x1024 .f32) (main_arg6 : FVec F S1024 .f32) (main_arg7 : FVec F S1024x4096 .f32) (main_arg8 : FVec F S4096 .f32) (main_arg9 : FVec F S4096x1024 .f32) (main_arg10 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_arg8 main_arg9 main_arg10 main_v13 main_v16
-- ==== Kernel.lean ====
abbrev S32768x1024 : Shape := ⟨2, ![32768, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1024x1 : Shape := ⟨2, ![1024, 1]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 24
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S2x1024x1024, .f32⟩
  | .hbm, ⟨12, _⟩ => ⟨S1024x1024, .bf16⟩
  | .hbm, ⟨13, _⟩ => ⟨S32768x1024, .bf16⟩
  | .hbm, ⟨14, _⟩ => ⟨S1x4096, .f32⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S32768x1024, .f32⟩
  | .hbm, ⟨19, _⟩ => ⟨S1x4096, .f32⟩
  | .hbm, ⟨20, _⟩ => ⟨S1x1024, .f32⟩
  | .hbm, ⟨21, _⟩ => ⟨S1024x4096, .bf16⟩
  | .hbm, ⟨22, _⟩ => ⟨S4096x1024, .bf16⟩
  | .hbm, ⟨23, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .vmem, ⟨7, _⟩ => ⟨S2x1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1024x4096, .bf16⟩
  | .local _ .vmem, ⟨25, _⟩ => ⟨S1x4096, .f32⟩
  | .local _ .vmem, ⟨26, _⟩ => ⟨S4096x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg5_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem3_0 : DmaSem sig := 17
abbrev cc3_sem4_0 : DmaSem sig := 18
abbrev cc3_sem5_0 : DmaSem sig := 19
abbrev cc3_sem5_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem5_1 : DmaSem sig := 28

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4096x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4096x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S2x1024x1024_S1x1024x1024_0_0_0 : ∀ a, (![0, 0, 0] : Fin 3 → Nat) a + S1x1024x1024.size a ≤ S2x1024x1024.size a
  inb_S2x1024x1024_S1x1024x1024_1_0_0 : ∀ a, (![1, 0, 0] : Fin 3 → Nat) a + S1x1024x1024.size a ≤ S2x1024x1024.size a
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  shapeCasts_S1024_S1024x1 : S1024.ShapeCasts S1024x1
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S1024x1024_S1024x1024_S1024x1024_0_0_1_1_n_n_wf : DotDims.WF S1024x1024 S1024x1024 S1024x1024 [0] [0] [1] [1] [] []
  dot_S1024x1024_S1024x1024_S1024x1024_1_1_0_0_n_n_wf : DotDims.WF S1024x1024 S1024x1024 S1024x1024 [1] [1] [0] [0] [] []
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .f32 = 32 ∨ (Rect.block (s := S2x1024x1024) S1x1024x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1024x1024.size a ≤ S2x1024x1024.size a
  hwx1_0 : ∀ i : grid1.Coords, EltTy.bits .f32 = 32 ∨ (Rect.block (s := S2x1024x1024) S2x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S32768x1024.size a
  hwx2_2 : ∀ i : grid2.Coords, EltTy.bits .bf16 = 32 ∨ (Rect.block (s := S32768x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S32768x1024.size a
  hwx3_0 : ∀ i : grid3.Coords, EltTy.bits .bf16 = 32 ∨ (Rect.block (s := S32768x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x1024.size a ≤ S4096x1024.size a
  hwx3_3 : ∀ i : grid3.Coords, EltTy.bits .bf16 = 32 ∨ (Rect.block (s := S4096x1024) S4096x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S32768x1024.size a
  hwx3_5 : ∀ i : grid3.Coords, EltTy.bits .f32 = 32 ∨ (Rect.block (s := S32768x1024) S512x1024.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S32768x1024.size a
  hwx4_0 : ∀ i : grid4.Coords, EltTy.bits .bf16 = 32 ∨ (Rect.block (s := S32768x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x4096.size a ≤ S1024x4096.size a
  hwx4_1 : ∀ i : grid4.Coords, EltTy.bits .bf16 = 32 ∨ (Rect.block (s := S1024x4096) S1024x4096.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4096.size a ≤ S1x4096.size a
  hwx4_2 : ∀ i : grid4.Coords, EltTy.bits .f32 = 32 ∨ (Rect.block (s := S1x4096) S1x4096.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x1024.size a ≤ S4096x1024.size a
  hwx4_3 : ∀ i : grid4.Coords, EltTy.bits .bf16 = 32 ∨ (Rect.block (s := S4096x1024) S4096x1024.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x1024.size a ≤ S32768x1024.size a
  hwx4_5 : ∀ i : grid4.Coords, EltTy.bits .f32 = 32 ∨ (Rect.block (s := S32768x1024) S512x1024.size (cc4_transform_5 i) (hinb4_5 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S2x1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1024x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S4096x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v2) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S1024x4096.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x4096.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S4096x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v12) S512x1024.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S32768x1024 : Shape := ⟨2, ![32768, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S1024x32768 : Shape := ⟨2, ![1024, 32768]⟩
abbrev S1024x1024 : Shape := ⟨2, ![1024, 1024]⟩
abbrev S_ : Shape := ⟨0, ![]⟩
abbrev S1024x1 : Shape := ⟨2, ![1024, 1]⟩
abbrev S32768x4096 : Shape := ⟨2, ![32768, 4096]⟩
abbrev S1x4096 : Shape := ⟨2, ![1, 4096]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S1024x32768, .f32⟩
  | .hbm, ⟨12, _⟩ => ⟨S1024x1024, .f32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024x1, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S1024x1024, .f32⟩
  | .hbm, ⟨39, _⟩ => ⟨S1024x1024, .f32⟩
  | .hbm, ⟨40, _⟩ => ⟨S1024x32768, .f32⟩
  | .hbm, ⟨41, _⟩ => ⟨S1024x32768, .f32⟩
  | .hbm, ⟨42, _⟩ => ⟨S32768x1024, .f32⟩
  | .hbm, ⟨43, _⟩ => ⟨S32768x4096, .f32⟩
  | .hbm, ⟨44, _⟩ => ⟨S1x4096, .f32⟩
  | .hbm, ⟨45, _⟩ => ⟨S32768x4096, .f32⟩
  | .hbm, ⟨46, _⟩ => ⟨S32768x4096, .f32⟩
  | .hbm, ⟨47, _⟩ => ⟨S_, .f32⟩
  | .hbm, ⟨48, _⟩ => ⟨S32768x4096, .f32⟩
  | .hbm, ⟨49, _⟩ => ⟨S32768x4096, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x4096, .f32⟩
  | .hbm, ⟨55, _⟩ => ⟨S1x4096, .f32⟩
  | .hbm, ⟨56, _⟩ => ⟨S32768x4096, .f32⟩
  | .hbm, ⟨57, _⟩ => ⟨S32768x4096, .f32⟩
  | .hbm, ⟨58, _⟩ => ⟨S_, .f32⟩
  | .hbm, ⟨59, _⟩ => ⟨S32768x4096, .f32⟩
  | .hbm, ⟨60, _⟩ => ⟨S32768x4096, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x32768_S32768x1024_1_0 : S1024x32768.Transposes [1, 0] S32768x1024
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  bcast_S_S32768x4096 : S_.BroadcastsInDim S32768x4096 (![] : Fin 0 → Fin S32768x4096.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  dot_S1024x32768_S32768x1024_S1024x1024_1_0_0_1_n_n_wf : DotDims.WF S1024x32768 S32768x1024 S1024x1024 [1] [0] [0] [1] [] []
  dot_S1024x1024_S1024x32768_S1024x32768_1_0_0_1_n_n_wf : DotDims.WF S1024x1024 S1024x32768 S1024x32768 [1] [0] [0] [1] [] []
  dot_S32768x1024_S1024x4096_S32768x4096_1_0_0_1_n_n_wf : DotDims.WF S32768x1024 S1024x4096 S32768x4096 [1] [0] [0] [1] [] []
  dot_S32768x4096_S4096x1024_S32768x1024_1_0_0_1_n_n_wf : DotDims.WF S32768x4096 S4096x1024 S32768x1024 [1] [0] [0] [1] [] []

variable [Facts₀]

def dot_S1024x32768_S32768x1024_S1024x1024_1_0_0_1_n_n : DotDims S1024x32768 S32768x1024 S1024x1024 where
  lhsContracting := [1]
  rhsContracting := [0]
  lhsNonContracting := [0]
  rhsNonContracting := [1]
  lhsBatch := []
  rhsBatch := []
  wf := dot_S1024x32768_S32768x1024_S1024x1024_1_0_0_1_n_n_wf
def dot_S1024x1024_S1024x32768_S1024x32768_1_0_0_1_n_n : DotDims S1024x1024 S1024x32768 S1024x32768 where
  lhsContracting := [1]
  rhsContracting := [0]
  lhsNonContracting := [0]
  rhsNonContracting := [1]
  lhsBatch := []
  rhsBatch := []
  wf := dot_S1024x1024_S1024x32768_S1024x32768_1_0_0_1_n_n_wf
def dot_S32768x1024_S1024x4096_S32768x4096_1_0_0_1_n_n : DotDims S32768x1024 S1024x4096 S32768x4096 where
  lhsContracting := [1]
  rhsContracting := [0]
  lhsNonContracting := [0]
  rhsNonContracting := [1]
  lhsBatch := []
  rhsBatch := []
  wf := dot_S32768x1024_S1024x4096_S32768x4096_1_0_0_1_n_n_wf
def dot_S32768x4096_S4096x1024_S32768x1024_1_0_0_1_n_n : DotDims S32768x4096 S4096x1024 S32768x1024 where
  lhsContracting := [1]
  rhsContracting := [0]
  lhsNonContracting := [0]
  rhsNonContracting := [1]
  lhsBatch := []
  rhsBatch := []
  wf := dot_S32768x4096_S4096x1024_S32768x1024_1_0_0_1_n_n_wf

class Facts : Prop extends Facts₀ where

variable [Facts]
-- ==== Proof.K.R0Runs.lean ====
/- Region 0 of the kernel program (Qᵀ·K accumulated over sixteen row tiles per half, in a scratch carried between
   grid points): the body's run in each of its three control cases — the first tile of a half (the scratch is
   cleared, then added to), an inner tile (added to), the last tile (added to, then copied to the output block). -/
import proofs.«154929_j24000277250146_2_alg».proof.Proof.Gen.Kernel.Launch
import proofs.«154929_j24000277250146_2_alg».proof.Proof.Gen.Kernel.Skeleton
import proofs.«154929_j24000277250146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first conditional of the body: the tile index within the half is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional: the tile index within the half is the last, fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_2 : View sig .tc .vmem S1x1024x1024 .f32 := (Memref.whole cc0_stg2_0 : Memref sig .tc .vmem S1x1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's scoped buffers other than this region's staging buffers and its accumulator, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc4_stg0_0), ((c : Thread nD τ).loc cc4_stg0_0) ↦{fullShare} f) ∗ (∃ f : Buf (Elt F) ((c : Thread nD τ).loc cc4_stg0_1), ((c : Thread nD τ).loc cc4_stg0_1) ↦{fullShare} f) ∗ (∃ f : Buf (Elt F) ((c : Thread nD τ).loc cc4_stg1_0), ((c : Thread nD τ).loc cc4_stg1_0) ↦{fullShare} f) ∗ (∃ f : Buf (Elt F) ((c : Thread nD τ).loc cc4_stg2_0), ((c : Thread nD τ).loc cc4_stg2_0) ↦{fullShare} f) ∗ (∃ f : Buf (Elt F) ((c : Thread nD τ).loc cc4_stg3_0), ((c : Thread nD τ).loc cc4_stg3_0) ↦{fullShare} f) ∗ (∃ f : Buf (Elt F) ((c : Thread nD τ).loc cc4_stg4_0), ((c : Thread nD τ).loc cc4_stg4_0) ↦{fullShare} f) ∗ (∃ f : Buf (Elt F) ((c : Thread nD τ).loc cc4_stg5_0), ((c : Thread nD τ).loc cc4_stg5_0) ↦{fullShare} f) ∗ (∃ f : Buf (Elt F) ((c : Thread nD τ).loc cc4_stg5_1), ((c : Thread nD τ).loc cc4_stg5_1) ↦{fullShare} f))

/-- The class invariant of the region with the accumulator split off as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; unfold restS0; simp only [scM0_0, owns_whole]; try rfl

/-! ## The body's run, case by case: the pieces each buffer ends with are what the run finds -/

set_option maxHeartbeats 4000000 in
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨[], ?_, fun xi2 E K => ?run⟩
  case run =>
    simp only [cc0_partial_kernel_eq_skeleton]; unfold cc0_partial_kernel_skel
    unfold owns
    iintro ⟨⟨%f0, %hf0, H0⟩, ⟨%f1, %hf1, H1⟩, ⟨%f2, %hf2, H2⟩, ⟨%dS, %fS, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨[], ?_, fun xi2 E K => ?run⟩
  case run =>
    simp only [cc0_partial_kernel_eq_skeleton]; unfold cc0_partial_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) :
    Σ' (L2 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨?_, ?_, fun E K => ?run⟩
  case run =>
    simp only [cc0_partial_kernel_eq_skeleton]; unfold cc0_partial_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.K.R0.lean ====
/- Region 0 of the kernel program: what its output block and its accumulator hold after each grid point (by
   recursion on the point), the pipeline's proof data with the accumulator's contents in the invariant, and the body
   obligation — for any contents the region is entered with. -/
import proofs.«154929_j24000277250146_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the found pieces read back -/

/-- The output block's staging buffer after a point of case A (nothing is stored into it there: a placeholder nothing reads). -/
def out0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) : Vec F S1x1024x1024 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) (y : S1024x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1024.size (by sl_kernel_rfl) y

/-- The accumulator after a point of case A. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) : Vec F S1024x1024 .f32 :=
  VS0_0.read (Elt F) (VS0_0.writes (Elt F) VS0_0.junk (kernelRun0_A c i arg2 harg2 arg3 harg3 arg4 harg4 arg5 harg5 hc0 hc1 x0 x1).2.1)

/-- The output block's staging buffer after a point of case B (nothing is stored into it there: a placeholder nothing reads). -/
def out0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) : Vec F S1x1024x1024 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) (y : S1024x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1024.size (by sl_kernel_rfl) y

/-- The accumulator after a point of case B. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) (y : S1x1024x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x1024.size (by sl_kernel_rfl) y

/-- The output block's staging buffer after a point of case C. -/
def out0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) : Vec F S1x1024x1024 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) (y : S1024x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1024.size (by sl_kernel_rfl) y

/-- The accumulator after a point of case C. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- After the body at position `n`: the output block's staging buffer and the accumulator, by the case the position is
    in (first tile of a half, inner tile, last tile), the accumulator of an inner or last tile taken from the position before. -/
def outsAt0 (c : Dev nD) : (n : ℕ) → n < cfg0.N → Vec F S1x1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, beside the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' staging buffers hold their blocks; the point's case is decided by its position
    modulo sixteen; the invariant hands the body the accumulator at what the point before left (at anything before the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end

end Cert.Kernel.Hand

end
-- ==== Proof.K.R1.lean ====
/- Region 1 of the kernel program (the two partial score matrices summed, the diagonal rescaled, exponentiated and
   row-normalised): the body's triple and the pipeline's proof data, for any contents the region is entered with. -/
import proofs.«154929_j24000277250146_2_alg».proof.Proof.Gen.Kernel.Launch
import proofs.«154929_j24000277250146_2_alg».proof.Proof.Gen.Kernel.Skeleton
import proofs.«154929_j24000277250146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2x1024x1024 := Rect.unit (s := S2x1024x1024) ![0, 0, 0] S1x1024x1024.size inb_S2x1024x1024_S1x1024x1024_0_0_0
abbrev r1_1 : Rect S2x1024x1024 := Rect.unit (s := S2x1024x1024) ![1, 0, 0] S1x1024x1024.size inb_S2x1024x1024_S1x1024x1024_1_0_0
abbrev r1_2 : Rect S1024x1024 := Rect.unit (s := S1024x1024) ![0, 0] S1024x1024.size inb_S1024x1024_S1024x1024_0_0

/-- What the body leaves in the output window's staging buffer: its one whole-block store, of the payload of the loaded input blocks. -/
def out1_1 (x0 : Vec F S2x1024x1024 .f32) : Vec F S1024x1024 .bf16 :=
  View.canon [⟨r1_2, k1_pay1 (View.ld x0 r1_0) (View.ld x0 r1_1)⟩]

theorem cover1_1 (p0 : Vec F S1024x1024 .bf16) (y : S1024x1024.Idx) :
    ∃ pc ∈ ([⟨r1_2, p0⟩] : List (View.Piece (Elt F) S1024x1024 .bf16)), y ∈ pc.1.set :=
  View.cover_of_tiled [⟨r1_2, p0⟩] S1024x1024.size (by rfl) y

set_option maxHeartbeats 4000000 in
/-- The body on whole staging memrefs: the inputs at their contents and the output at anything; it ends with the inputs as they were and the output at `out1_1`. -/
theorem sound_kernel1 (c : Dev nD) (E : Set ℕ) (i : grid1.Coords) (arg1 : Memref sig .tc .vmem S2x1024x1024 .f32) (harg1 : arg1.IsWhole) (arg2 : Memref sig .tc .vmem S1024x1024 .bf16) (harg2 : arg2.IsWhole)
    (x0 : Vec F S2x1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_epilogue_kernel i arg1 harg1 arg2 harg2) K := by
  simp only [cc1_epilogue_kernel_eq_skeleton]; unfold cc1_epilogue_kernel_skel
  unfold owns
  iintro ⟨⟨%f0, %hf0, H0⟩, ⟨%dO, %fO, -, HO⟩, Hk⟩
  subst hf0
  sl_exec
  sl_step
  iapply Hk
  isplitl [H0]
  · iexists f0; isplitr; · ipureintro; rfl
    iexact H0
  iexists _; isplitr
  swap; · iexact HO
  ipureintro
  exact View.read_writes_eq_canon _ _ _ (cover1_1 _)

/-- The region's proof data on core `c`: the arrays as the region finds them; after the body each input's buffer at its block, the output's at `out1_1` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any grid point: the inputs' staging buffers hold their blocks, so the triple applies; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.R2.lean ====
/- Region 2 of the kernel program (value tile times the score matrix transposed): the body's triple and the
   pipeline's proof data, for any contents the region is entered with. -/
import proofs.«154929_j24000277250146_2_alg».proof.Proof.Gen.Kernel.Launch
import proofs.«154929_j24000277250146_2_alg».proof.Proof.Gen.Kernel.Skeleton
import proofs.«154929_j24000277250146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0

/-- What the body leaves in the output window's staging buffer: its one whole-block store, of the payload of the loaded input blocks. -/
def out2_2 (x0 : Vec F S1024x1024 .f32) (x1 : Vec F S1024x1024 .bf16) : Vec F S1024x1024 .bf16 :=
  View.canon [⟨r2_0, k2_pay1 (View.ld x0 r2_0) (View.ld x1 r2_0)⟩]

theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 4000000 in
/-- The body on whole staging memrefs: the inputs at their contents and the output at anything; it ends with the inputs as they were and the output at `out2_2`. -/
theorem sound_kernel2 (c : Dev nD) (E : Set ℕ) (i : grid2.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2_2 _)

/-- The region's proof data on core `c`: the arrays as the region finds them; after the body each input's buffer at its block, the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' staging buffers hold their blocks, so the triple applies; the invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.R3.lean ====
/- Region 3 of the kernel program (the first two-layer perceptron on a tile of rows): the body's triple and the
   pipeline's proof data, for any contents the region is entered with. -/
import proofs.«154929_j24000277250146_2_alg».proof.Proof.Gen.Kernel.Launch
import proofs.«154929_j24000277250146_2_alg».proof.Proof.Gen.Kernel.Skeleton
import proofs.«154929_j24000277250146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x1024 := Rect.unit (s := S512x1024) ![0, 0] S512x1024.size inb_S512x1024_S512x1024_0_0
abbrev r3_1 : Rect S1024x4096 := Rect.unit (s := S1024x4096) ![0, 0] S1024x4096.size inb_S1024x4096_S1024x4096_0_0
abbrev r3_2 : Rect S1x4096 := Rect.unit (s := S1x4096) ![0, 0] S1x4096.size inb_S1x4096_S1x4096_0_0
abbrev r3_3 : Rect S4096x1024 := Rect.unit (s := S4096x1024) ![0, 0] S4096x1024.size inb_S4096x1024_S4096x1024_0_0
abbrev r3_4 : Rect S1x1024 := Rect.unit (s := S1x1024) ![0, 0] S1x1024.size inb_S1x1024_S1x1024_0_0
abbrev r3_5 : Rect S512x1024 := Rect.unit (s := S512x1024) ![0, 0] S512x1024.size inb_S512x1024_S512x1024_0_0

/-- What the body leaves in the output window's staging buffer: its one whole-block store, of the payload of the loaded input blocks. -/
def out3_5 (x0 : Vec F S512x1024 .bf16) (x1 : Vec F S1024x4096 .bf16) (x2 : Vec F S1x4096 .f32) (x3 : Vec F S4096x1024 .bf16) (x4 : Vec F S1x1024 .f32) : Vec F S512x1024 .f32 :=
  View.canon [⟨r3_5, k3_pay1 (View.ld x0 r3_0) (View.ld x1 r3_1) (View.ld x2 r3_2) (View.ld x3 r3_3) (View.ld x4 r3_4)⟩]

theorem cover3_5 (p0 : Vec F S512x1024 .f32) (y : S512x1024.Idx) :
    ∃ pc ∈ ([⟨r3_5, p0⟩] : List (View.Piece (Elt F) S512x1024 .f32)), y ∈ pc.1.set :=
  View.cover_of_tiled [⟨r3_5, p0⟩] S512x1024.size (by rfl) y

set_option maxHeartbeats 4000000 in
/-- The body on whole staging memrefs: the inputs at their contents and the output at anything; it ends with the inputs as they were and the output at `out3_5`. -/
theorem sound_kernel3 (c : Dev nD) (E : Set ℕ) (i : grid3.Coords) (arg1 : Memref sig .tc .vmem S512x1024 .bf16) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole)
    (x0 : Vec F S512x1024 .bf16) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The region's proof data on core `c`: the arrays as the region finds them; after the body each input's buffer at its block, the output's at `out3_5` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' staging buffers hold their blocks, so the triple applies; the invariant and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.K.R4.lean ====
/- Region 4 of the kernel program (the second two-layer perceptron on a tile of rows): the body's triple and the
   pipeline's proof data, for any contents the region is entered with. -/
import proofs.«154929_j24000277250146_2_alg».proof.Proof.Gen.Kernel.Launch
import proofs.«154929_j24000277250146_2_alg».proof.Proof.Gen.Kernel.Skeleton
import proofs.«154929_j24000277250146_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the pipeline fetched it there or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S512x1024 := Rect.unit (s := S512x1024) ![0, 0] S512x1024.size inb_S512x1024_S512x1024_0_0
abbrev r4_1 : Rect S1024x4096 := Rect.unit (s := S1024x4096) ![0, 0] S1024x4096.size inb_S1024x4096_S1024x4096_0_0
abbrev r4_2 : Rect S1x4096 := Rect.unit (s := S1x4096) ![0, 0] S1x4096.size inb_S1x4096_S1x4096_0_0
abbrev r4_3 : Rect S4096x1024 := Rect.unit (s := S4096x1024) ![0, 0] S4096x1024.size inb_S4096x1024_S4096x1024_0_0
abbrev r4_4 : Rect S1x1024 := Rect.unit (s := S1x1024) ![0, 0] S1x1024.size inb_S1x1024_S1x1024_0_0
abbrev r4_5 : Rect S512x1024 := Rect.unit (s := S512x1024) ![0, 0] S512x1024.size inb_S512x1024_S512x1024_0_0

/-- What the body leaves in the output window's staging buffer: its one whole-block store, of the payload of the loaded input blocks. -/
def out4_5 (x0 : Vec F S512x1024 .bf16) (x1 : Vec F S1024x4096 .bf16) (x2 : Vec F S1x4096 .f32) (x3 : Vec F S4096x1024 .bf16) (x4 : Vec F S1x1024 .f32) : Vec F S512x1024 .f32 :=
  View.canon [⟨r4_5, k4_pay1 (View.ld x0 r4_0) (View.ld x1 r4_1) (View.ld x2 r4_2) (View.ld x3 r4_3) (View.ld x4 r4_4)⟩]

theorem cover4_5 (p0 : Vec F S512x1024 .f32) (y : S512x1024.Idx) :
    ∃ pc ∈ ([⟨r4_5, p0⟩] : List (View.Piece (Elt F) S512x1024 .f32)), y ∈ pc.1.set :=
  View.cover_of_tiled [⟨r4_5, p0⟩] S512x1024.size (by rfl) y

set_option maxHeartbeats 4000000 in
/-- The body on whole staging memrefs: the inputs at their contents and the output at anything; it ends with the inputs as they were and the output at `out4_5`. -/
theorem sound_kernel4 (c : Dev nD) (E : Set ℕ) (i : grid4.Coords) (arg1 : Memref sig .tc .vmem S512x1024 .bf16) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole)
    (x0 : Vec F S512x1024 .bf16) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover4_5 _)

/-- The region's proof data on core `c`: the arrays as the region finds them; after the body each input's buffer at its block, the output's at `out4_5` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the inputs' staging buffers hold their blocks, so the triple applies; the invariant and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.K.Run.lean ====
/- The kernel program's whole run: its five kernel regions and two stretches of host operations as segments, the
   buffers' contents at every segment boundary folded from the launch memory, and the launch — every weakly fair
   execution terminates with every unscoped buffer at the last boundary's contents. -/
import proofs.«154929_j24000277250146_2_alg».proof.Proof.K.R0
import proofs.«154929_j24000277250146_2_alg».proof.Proof.K.R1
import proofs.«154929_j24000277250146_2_alg».proof.Proof.K.R2
import proofs.«154929_j24000277250146_2_alg».proof.Proof.K.R3
import proofs.«154929_j24000277250146_2_alg».proof.Proof.K.R4
import proofs.«154929_j24000277250146_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev Wd0 : Dev nD → Valuation τ sig (Elt F) := fun c b => (s₀ m ρ).mem ((c : Dev nD), b)
abbrev Ve0 : (c : Dev nD) → (b : Ref sig .tc) → Buf (Elt F) ((c : Thread nD τ).loc b) := fun c b => Wd0 m ρ c b

/-- At region 0's exit: its arrays at what its write-backs leave, every other buffer as entered. -/
def Wd1 (c : Dev nD) : Valuation τ sig (Elt F) :=
  Pipeline.withArrays spec0 c (Wd0 m ρ c) fun w => (dat0 (Ve0 m ρ) c).arrAt w cfg0.N
theorem Wd1_arr (c : Dev nD) (w : Fin cfg0.W) :
    Wd1 m ρ c (Proc.devRef .tc (Pipeline.arrRef spec0 w)) = (dat0 (Ve0 m ρ) c).arrAt w cfg0.N := by
  unfold Wd1; exact Pipeline.withArrays_arr spec0 launch0.win.arr_inj c _ _ w
theorem Wd1_of_ne (c : Dev nD) (b : Ref sig .tc) (hb : ∀ w, Pipeline.arrRef spec0 w ≠ b) :
    Wd1 m ρ c (Proc.devRef .tc b) = Wd0 m ρ c (Proc.devRef .tc b) := by
  unfold Wd1; exact Pipeline.withArrays_of_ne spec0 c _ _ b hb
abbrev Ve1 : (c : Dev nD) → (b : Ref sig .tc) → Buf (Elt F) ((c : Thread nD τ).loc b) := fun c b => Wd1 m ρ c b
theorem hF0 (c : Dev nD) (w : Fin cfg0.W) : (dat0 (Ve0 m ρ) c).arrAt w cfg0.N = Ve1 m ρ c (Pipeline.arrRef spec0 w) :=
  (Wd1_arr m ρ c w).symm
theorem hrest0 (c : Dev nD) : ∀ b, b ∉ Finset.univ.image (Pipeline.arrRef spec0) → Ve1 m ρ c b = Ve0 m ρ c b :=
  fun b hb => Wd1_of_ne m ρ c b fun w e => hb (Finset.mem_image.mpr ⟨w, Finset.mem_univ _, e⟩)

/-- At region 1's exit: its arrays at what its write-backs leave, every other buffer as entered. -/
def Wd2 (c : Dev nD) : Valuation τ sig (Elt F) :=
  Pipeline.withArrays spec1 c (Wd1 m ρ c) fun w => (dat1 (Ve1 m ρ) c).arrAt w cfg1.N
theorem Wd2_arr (c : Dev nD) (w : Fin cfg1.W) :
    Wd2 m ρ c (Proc.devRef .tc (Pipeline.arrRef spec1 w)) = (dat1 (Ve1 m ρ) c).arrAt w cfg1.N := by
  unfold Wd2; exact Pipeline.withArrays_arr spec1 launch1.win.arr_inj c _ _ w
theorem Wd2_of_ne (c : Dev nD) (b : Ref sig .tc) (hb : ∀ w, Pipeline.arrRef spec1 w ≠ b) :
    Wd2 m ρ c (Proc.devRef .tc b) = Wd1 m ρ c (Proc.devRef .tc b) := by
  unfold Wd2; exact Pipeline.withArrays_of_ne spec1 c _ _ b hb
abbrev Ve2 : (c : Dev nD) → (b : Ref sig .tc) → Buf (Elt F) ((c : Thread nD τ).loc b) := fun c b => Wd2 m ρ c b
theorem hF1 (c : Dev nD) (w : Fin cfg1.W) : (dat1 (Ve1 m ρ) c).arrAt w cfg1.N = Ve2 m ρ c (Pipeline.arrRef spec1 w) :=
  (Wd2_arr m ρ c w).symm
theorem hrest1 (c : Dev nD) : ∀ b, b ∉ Finset.univ.image (Pipeline.arrRef spec1) → Ve2 m ρ c b = Ve1 m ρ c b :=
  fun b hb => Wd2_of_ne m ρ c b fun w e => hb (Finset.mem_image.mpr ⟨w, Finset.mem_univ _, e⟩)

/-- At region 2's exit: its arrays at what its write-backs leave, every other buffer as entered. -/
def Wd3 (c : Dev nD) : Valuation τ sig (Elt F) :=
  Pipeline.withArrays spec2 c (Wd2 m ρ c) fun w => (dat2 (Ve2 m ρ) c).arrAt w cfg2.N
theorem Wd3_arr (c : Dev nD) (w : Fin cfg2.W) :
    Wd3 m ρ c (Proc.devRef .tc (Pipeline.arrRef spec2 w)) = (dat2 (Ve2 m ρ) c).arrAt w cfg2.N := by
  unfold Wd3; exact Pipeline.withArrays_arr spec2 launch2.win.arr_inj c _ _ w
theorem Wd3_of_ne (c : Dev nD) (b : Ref sig .tc) (hb : ∀ w, Pipeline.arrRef spec2 w ≠ b) :
    Wd3 m ρ c (Proc.devRef .tc b) = Wd2 m ρ c (Proc.devRef .tc b) := by
  unfold Wd3; exact Pipeline.withArrays_of_ne spec2 c _ _ b hb
abbrev Ve3 : (c : Dev nD) → (b : Ref sig .tc) → Buf (Elt F) ((c : Thread nD τ).loc b) := fun c b => Wd3 m ρ c b
theorem hF2 (c : Dev nD) (w : Fin cfg2.W) : (dat2 (Ve2 m ρ) c).arrAt w cfg2.N = Ve3 m ρ c (Pipeline.arrRef spec2 w) :=
  (Wd3_arr m ρ c w).symm
theorem hrest2 (c : Dev nD) : ∀ b, b ∉ Finset.univ.image (Pipeline.arrRef spec2) → Ve3 m ρ c b = Ve2 m ρ c b :=
  fun b hb => Wd3_of_ne m ρ c b fun w e => hb (Finset.mem_image.mpr ⟨w, Finset.mem_univ _, e⟩)

/-- After the host stretch before region 3 (the biases reshaped to rows, the weights' format changed). -/
abbrev Wd4 : Dev nD → Valuation τ sig (Elt F) := fun c => StableHlo.after hostOps3 (Wd3 m ρ c)
abbrev Ve4 : (c : Dev nD) → (b : Ref sig .tc) → Buf (Elt F) ((c : Thread nD τ).loc b) := fun c b => Wd4 m ρ c b

/-- At region 3's exit: its arrays at what its write-backs leave, every other buffer as entered. -/
def Wd5 (c : Dev nD) : Valuation τ sig (Elt F) :=
  Pipeline.withArrays spec3 c (Wd4 m ρ c) fun w => (dat3 (Ve4 m ρ) c).arrAt w cfg3.N
theorem Wd5_arr (c : Dev nD) (w : Fin cfg3.W) :
    Wd5 m ρ c (Proc.devRef .tc (Pipeline.arrRef spec3 w)) = (dat3 (Ve4 m ρ) c).arrAt w cfg3.N := by
  unfold Wd5; exact Pipeline.withArrays_arr spec3 launch3.win.arr_inj c _ _ w
theorem Wd5_of_ne (c : Dev nD) (b : Ref sig .tc) (hb : ∀ w, Pipeline.arrRef spec3 w ≠ b) :
    Wd5 m ρ c (Proc.devRef .tc b) = Wd4 m ρ c (Proc.devRef .tc b) := by
  unfold Wd5; exact Pipeline.withArrays_of_ne spec3 c _ _ b hb
abbrev Ve5 : (c : Dev nD) → (b : Ref sig .tc) → Buf (Elt F) ((c : Thread nD τ).loc b) := fun c b => Wd5 m ρ c b
theorem hF3 (c : Dev nD) (w : Fin cfg3.W) : (dat3 (Ve4 m ρ) c).arrAt w cfg3.N = Ve5 m ρ c (Pipeline.arrRef spec3 w) :=
  (Wd5_arr m ρ c w).symm
theorem hrest3 (c : Dev nD) : ∀ b, b ∉ Finset.univ.image (Pipeline.arrRef spec3) → Ve5 m ρ c b = Ve4 m ρ c b :=
  fun b hb => Wd5_of_ne m ρ c b fun w e => hb (Finset.mem_image.mpr ⟨w, Finset.mem_univ _, e⟩)

/-- After the host stretch before region 4. -/
abbrev Wd6 : Dev nD → Valuation τ sig (Elt F) := fun c => StableHlo.after hostOps4 (Wd5 m ρ c)
abbrev Ve6 : (c : Dev nD) → (b : Ref sig .tc) → Buf (Elt F) ((c : Thread nD τ).loc b) := fun c b => Wd6 m ρ c b

/-- At region 4's exit: its arrays at what its write-backs leave, every other buffer as entered. -/
def Wd7 (c : Dev nD) : Valuation τ sig (Elt F) :=
  Pipeline.withArrays spec4 c (Wd6 m ρ c) fun w => (dat4 (Ve6 m ρ) c).arrAt w cfg4.N
theorem Wd7_arr (c : Dev nD) (w : Fin cfg4.W) :
    Wd7 m ρ c (Proc.devRef .tc (Pipeline.arrRef spec4 w)) = (dat4 (Ve6 m ρ) c).arrAt w cfg4.N := by
  unfold Wd7; exact Pipeline.withArrays_arr spec4 launch4.win.arr_inj c _ _ w
theorem Wd7_of_ne (c : Dev nD) (b : Ref sig .tc) (hb : ∀ w, Pipeline.arrRef spec4 w ≠ b) :
    Wd7 m ρ c (Proc.devRef .tc b) = Wd6 m ρ c (Proc.devRef .tc b) := by
  unfold Wd7; exact Pipeline.withArrays_of_ne spec4 c _ _ b hb
abbrev Ve7 : (c : Dev nD) → (b : Ref sig .tc) → Buf (Elt F) ((c : Thread nD τ).loc b) := fun c b => Wd7 m ρ c b
theorem hF4 (c : Dev nD) (w : Fin cfg4.W) : (dat4 (Ve6 m ρ) c).arrAt w cfg4.N = Ve7 m ρ c (Pipeline.arrRef spec4 w) :=
  (Wd7_arr m ρ c w).symm
theorem hrest4 (c : Dev nD) : ∀ b, b ∉ Finset.univ.image (Pipeline.arrRef spec4) → Ve7 m ρ c b = Ve6 m ρ c b :=
  fun b hb => Wd7_of_ne m ρ c b fun w e => hb (Finset.mem_image.mpr ⟨w, Finset.mem_univ _, e⟩)

/-! ## The proof data family and the thread state -/

abbrev admH : (p : Fin 5) → (pcfgs (F := F) p).Adm := fun p => (cfgs p).toPCfg_adm
/-- Every region's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve4 m ρ) c
  | ⟨4, _⟩ => fun c => dat4 (Ve6 m ρ) c
abbrev VarH : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wd7 m ρ c) ∗ ∃ r, prngReg c r)

/-! ## The regions as segments -/

set_option backward.isDefEq.respectTransparency.types false in
/-- Region 0 over the thread state: entered from every unscoped buffer at the boundary before it, left at the one after. -/
def regH0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ LH lvH 0 fun _ _ => rfl
  pre c := iprop(StableHlo.held (c : Thread nD τ) (Pipeline.ucRefs τ sig) (Wd0 m ρ c) ∗ RH c)
  post c := iprop(StableHlo.held (c : Thread nD τ) (Pipeline.ucRefs τ sig) (Wd1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (Ve0 m ρ) c)
    unfold Pipeline.ΦA
    iintro ⟨Hp, -, Hr⟩
    isplitl [Hr]; · iexact Hr
    iexact Hp
  hout c := by
    rw [Pipeline.ownSems0_none]
    refine (hout0 (Ve0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Ve0 m ρ c) (Ve1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def regH1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ LH lvH 1 fun _ _ => rfl
  pre c := iprop(StableHlo.held (c : Thread nD τ) (Pipeline.ucRefs τ sig) (Wd1 m ρ c) ∗ RH c)
  post c := iprop(StableHlo.held (c : Thread nD τ) (Pipeline.ucRefs τ sig) (Wd2 m ρ c) ∗ RH c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Ve1 m ρ c) (Ve2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def regH2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ LH lvH 2 fun _ _ => rfl
  pre c := iprop(StableHlo.held (c : Thread nD τ) (Pipeline.ucRefs τ sig) (Wd2 m ρ c) ∗ RH c)
  post c := iprop(StableHlo.held (c : Thread nD τ) (Pipeline.ucRefs τ sig) (Wd3 m ρ c) ∗ RH c)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Ve2 m ρ c) (Ve3 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def regH3 : Pipeline.RegionSeg (pcfgs (F := F)) admH (pdatsH m ρ) () defs₀ VarH LH lvH 3 where
  win := launch3.win.to₀
  block_pos := launch3.block_pos
  stage_whole := launch3.stage_whole
  K := PEmpty
  osem k := k.elim
  ho := Pipeline.OwnSemFacts.none _
  hbody c := (body_obligation3 (Ve4 m ρ) c).loose
  hwaits := Pipeline.hwaits_of_owed_zero _ _ _ _ LH lvH 3 fun _ _ => rfl
  pre c := iprop(StableHlo.held (c : Thread nD τ) (Pipeline.ucRefs τ sig) (Wd4 m ρ c) ∗ RH c)
  post c := iprop(StableHlo.held (c : Thread nD τ) (Pipeline.ucRefs τ sig) (Wd5 m ρ c) ∗ RH c)
  X c := iprop(∃ r, prngReg c r)
  Y c := iprop(∃ r, prngReg c r)
  Z c := Pipeline.unscopedRest (Ix := Unit) (Name := ℕ) (U := UR sig nD τ) (Lvl := ℕ) spec3 c (Ve4 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Ve4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Ve4 m ρ c) (Ve5 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def regH4 : Pipeline.RegionSeg (pcfgs (F := F)) admH (pdatsH m ρ) () defs₀ VarH LH lvH 4 where
  win := launch4.win.to₀
  block_pos := launch4.block_pos
  stage_whole := launch4.stage_whole
  K := PEmpty
  osem k := k.elim
  ho := Pipeline.OwnSemFacts.none _
  hbody c := (body_obligation4 (Ve6 m ρ) c).loose
  hwaits := Pipeline.hwaits_of_owed_zero _ _ _ _ LH lvH 4 fun _ _ => rfl
  pre c := iprop(StableHlo.held (c : Thread nD τ) (Pipeline.ucRefs τ sig) (Wd6 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Ve6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Ve6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Ve6 m ρ c) (Ve7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ VarH LH lvH) :=
  [ .region (regH0 m ρ),
    .region (regH1 m ρ),
    .region (regH2 m ρ),
    .host (hsegH hostOps3 hostOps3_sub hostOps3_fresh (Wd3 m ρ)),
    .region (regH3 m ρ),
    .host (hsegH hostOps4 hostOps4_sub hostOps4_fresh (Wd5 m ρ)),
    .region (regH4 m ρ) ]
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd7 m ρ c b) :=
  Pipeline.θ_run_regions_kit (pcfgs (F := F)) admH (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ RH c)) (Tₙ := TnH m ρ)
    (hch := ⟨fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd7 m ρ c) s')
      isplitl [Hh] <;> iassumption)
    (hQ := fun s h c => h c)

end Cert.Kernel.Hand

end
-- ==== Proof.K.Frame.lean ====
/- The kernel program's frame: every argument array is read back through the boundaries' contents to what the
   launch memory held (no host operation writes an argument, and a region either stages it through an input window,
   which is handed back as found, or bypasses it); and the run restated at the two result arrays. -/
import proofs.«154929_j24000277250146_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wd7_main_arg0 (c : Dev nD) : Wd7 m ρ c (Proc.devRef .tc main_arg0) = m ((c : Thread nD τ).loc main_arg0) :=
  calc Wd7 m ρ c (Proc.devRef .tc main_arg0)
    _ = Wd6 m ρ c (Proc.devRef .tc main_arg0) := Wd7_of_ne m ρ c main_arg0 (by decide)
    _ = Wd5 m ρ c (Proc.devRef .tc main_arg0) := StableHlo.after_of_writes_sub hostOps4 _ hostOps4_writes (by decide : main_arg0 ∉ hostOps4_W)
    _ = Wd4 m ρ c (Proc.devRef .tc main_arg0) := Wd5_of_ne m ρ c main_arg0 (by decide)
    _ = Wd3 m ρ c (Proc.devRef .tc main_arg0) := StableHlo.after_of_writes_sub hostOps3 _ hostOps3_writes (by decide : main_arg0 ∉ hostOps3_W)
    _ = Wd2 m ρ c (Proc.devRef .tc main_arg0) := Wd3_of_ne m ρ c main_arg0 (by decide)
    _ = Wd1 m ρ c (Proc.devRef .tc main_arg0) := Wd2_of_ne m ρ c main_arg0 (by decide)
    _ = Wd0 m ρ c (Proc.devRef .tc main_arg0) := (Wd1_arr m ρ c 0).trans (((dat0 (Ve0 m ρ) c).arrAt_in 0 rfl _).trans (A_eq0 (Ve0 m ρ) c 0))
    _ = m ((c : Thread nD τ).loc main_arg0) := rfl

theorem Wd7_main_arg1 (c : Dev nD) : Wd7 m ρ c (Proc.devRef .tc main_arg1) = m ((c : Thread nD τ).loc main_arg1) :=
  calc Wd7 m ρ c (Proc.devRef .tc main_arg1)
    _ = Wd6 m ρ c (Proc.devRef .tc main_arg1) := Wd7_of_ne m ρ c main_arg1 (by decide)
    _ = Wd5 m ρ c (Proc.devRef .tc main_arg1) := StableHlo.after_of_writes_sub hostOps4 _ hostOps4_writes (by decide : main_arg1 ∉ hostOps4_W)
    _ = Wd4 m ρ c (Proc.devRef .tc main_arg1) := Wd5_of_ne m ρ c main_arg1 (by decide)
    _ = Wd3 m ρ c (Proc.devRef .tc main_arg1) := StableHlo.after_of_writes_sub hostOps3 _ hostOps3_writes (by decide : main_arg1 ∉ hostOps3_W)
    _ = Wd2 m ρ c (Proc.devRef .tc main_arg1) := Wd3_of_ne m ρ c main_arg1 (by decide)
    _ = Wd1 m ρ c (Proc.devRef .tc main_arg1) := Wd2_of_ne m ρ c main_arg1 (by decide)
    _ = Wd0 m ρ c (Proc.devRef .tc main_arg1) := (Wd1_arr m ρ c 1).trans (((dat0 (Ve0 m ρ) c).arrAt_in 1 rfl _).trans (A_eq0 (Ve0 m ρ) c 1))
    _ = m ((c : Thread nD τ).loc main_arg1) := rfl

theorem Wd7_main_arg2 (c : Dev nD) : Wd7 m ρ c (Proc.devRef .tc main_arg2) = m ((c : Thread nD τ).loc main_arg2) :=
  calc Wd7 m ρ c (Proc.devRef .tc main_arg2)
    _ = Wd6 m ρ c (Proc.devRef .tc main_arg2) := Wd7_of_ne m ρ c main_arg2 (by decide)
    _ = Wd5 m ρ c (Proc.devRef .tc main_arg2) := StableHlo.after_of_writes_sub hostOps4 _ hostOps4_writes (by decide : main_arg2 ∉ hostOps4_W)
    _ = Wd4 m ρ c (Proc.devRef .tc main_arg2) := Wd5_of_ne m ρ c main_arg2 (by decide)
    _ = Wd3 m ρ c (Proc.devRef .tc main_arg2) := StableHlo.after_of_writes_sub hostOps3 _ hostOps3_writes (by decide : main_arg2 ∉ hostOps3_W)
    _ = Wd2 m ρ c (Proc.devRef .tc main_arg2) := (Wd3_arr m ρ c 0).trans (((dat2 (Ve2 m ρ) c).arrAt_in 0 rfl _).trans (A_eq2 (Ve2 m ρ) c 0))
    _ = Wd1 m ρ c (Proc.devRef .tc main_arg2) := Wd2_of_ne m ρ c main_arg2 (by decide)
    _ = Wd0 m ρ c (Proc.devRef .tc main_arg2) := Wd1_of_ne m ρ c main_arg2 (by decide)
    _ = m ((c : Thread nD τ).loc main_arg2) := rfl

theorem Wd7_main_arg3 (c : Dev nD) : Wd7 m ρ c (Proc.devRef .tc main_arg3) = m ((c : Thread nD τ).loc main_arg3) :=
  calc Wd7 m ρ c (Proc.devRef .tc main_arg3)
    _ = Wd6 m ρ c (Proc.devRef .tc main_arg3) := Wd7_of_ne m ρ c main_arg3 (by decide)
    _ = Wd5 m ρ c (Proc.devRef .tc main_arg3) := StableHlo.after_of_writes_sub hostOps4 _ hostOps4_writes (by decide : main_arg3 ∉ hostOps4_W)
    _ = Wd4 m ρ c (Proc.devRef .tc main_arg3) := Wd5_of_ne m ρ c main_arg3 (by decide)
    _ = Wd3 m ρ c (Proc.devRef .tc main_arg3) := StableHlo.after_of_writes_sub hostOps3 _ hostOps3_writes (by decide : main_arg3 ∉ hostOps3_W)
    _ = Wd2 m ρ c (Proc.devRef .tc main_arg3) := Wd3_of_ne m ρ c main_arg3 (by decide)
    _ = Wd1 m ρ c (Proc.devRef .tc main_arg3) := Wd2_of_ne m ρ c main_arg3 (by decide)
    _ = Wd0 m ρ c (Proc.devRef .tc main_arg3) := Wd1_of_ne m ρ c main_arg3 (by decide)
    _ = m ((c : Thread nD τ).loc main_arg3) := rfl

theorem Wd7_main_arg4 (c : Dev nD) : Wd7 m ρ c (Proc.devRef .tc main_arg4) = m ((c : Thread nD τ).loc main_arg4) :=
  calc Wd7 m ρ c (Proc.devRef .tc main_arg4)
    _ = Wd6 m ρ c (Proc.devRef .tc main_arg4) := Wd7_of_ne m ρ c main_arg4 (by decide)
    _ = Wd5 m ρ c (Proc.devRef .tc main_arg4) := StableHlo.after_of_writes_sub hostOps4 _ hostOps4_writes (by decide : main_arg4 ∉ hostOps4_W)
    _ = Wd4 m ρ c (Proc.devRef .tc main_arg4) := Wd5_of_ne m ρ c main_arg4 (by decide)
    _ = Wd3 m ρ c (Proc.devRef .tc main_arg4) := StableHlo.after_of_writes_sub hostOps3 _ hostOps3_writes (by decide : main_arg4 ∉ hostOps3_W)
    _ = Wd2 m ρ c (Proc.devRef .tc main_arg4) := Wd3_of_ne m ρ c main_arg4 (by decide)
    _ = Wd1 m ρ c (Proc.devRef .tc main_arg4) := Wd2_of_ne m ρ c main_arg4 (by decide)
    _ = Wd0 m ρ c (Proc.devRef .tc main_arg4) := Wd1_of_ne m ρ c main_arg4 (by decide)
    _ = m ((c : Thread nD τ).loc main_arg4) := rfl

theorem Wd7_main_arg5 (c : Dev nD) : Wd7 m ρ c (Proc.devRef .tc main_arg5) = m ((c : Thread nD τ).loc main_arg5) :=
  calc Wd7 m ρ c (Proc.devRef .tc main_arg5)
    _ = Wd6 m ρ c (Proc.devRef .tc main_arg5) := Wd7_of_ne m ρ c main_arg5 (by decide)
    _ = Wd5 m ρ c (Proc.devRef .tc main_arg5) := StableHlo.after_of_writes_sub hostOps4 _ hostOps4_writes (by decide : main_arg5 ∉ hostOps4_W)
    _ = Wd4 m ρ c (Proc.devRef .tc main_arg5) := Wd5_of_ne m ρ c main_arg5 (by decide)
    _ = Wd3 m ρ c (Proc.devRef .tc main_arg5) := StableHlo.after_of_writes_sub hostOps3 _ hostOps3_writes (by decide : main_arg5 ∉ hostOps3_W)
    _ = Wd2 m ρ c (Proc.devRef .tc main_arg5) := Wd3_of_ne m ρ c main_arg5 (by decide)
    _ = Wd1 m ρ c (Proc.devRef .tc main_arg5) := Wd2_of_ne m ρ c main_arg5 (by decide)
    _ = Wd0 m ρ c (Proc.devRef .tc main_arg5) := Wd1_of_ne m ρ c main_arg5 (by decide)
    _ = m ((c : Thread nD τ).loc main_arg5) := rfl

theorem Wd7_main_arg6 (c : Dev nD) : Wd7 m ρ c (Proc.devRef .tc main_arg6) = m ((c : Thread nD τ).loc main_arg6) :=
  calc Wd7 m ρ c (Proc.devRef .tc main_arg6)
    _ = Wd6 m ρ c (Proc.devRef .tc main_arg6) := Wd7_of_ne m ρ c main_arg6 (by decide)
    _ = Wd5 m ρ c (Proc.devRef .tc main_arg6) := StableHlo.after_of_writes_sub hostOps4 _ hostOps4_writes (by decide : main_arg6 ∉ hostOps4_W)
    _ = Wd4 m ρ c (Proc.devRef .tc main_arg6) := Wd5_of_ne m ρ c main_arg6 (by decide)
    _ = Wd3 m ρ c (Proc.devRef .tc main_arg6) := StableHlo.after_of_writes_sub hostOps3 _ hostOps3_writes (by decide : main_arg6 ∉ hostOps3_W)
    _ = Wd2 m ρ c (Proc.devRef .tc main_arg6) := Wd3_of_ne m ρ c main_arg6 (by decide)
    _ = Wd1 m ρ c (Proc.devRef .tc main_arg6) := Wd2_of_ne m ρ c main_arg6 (by decide)
    _ = Wd0 m ρ c (Proc.devRef .tc main_arg6) := Wd1_of_ne m ρ c main_arg6 (by decide)
    _ = m ((c : Thread nD τ).loc main_arg6) := rfl

theorem Wd7_main_arg7 (c : Dev nD) : Wd7 m ρ c (Proc.devRef .tc main_arg7) = m ((c : Thread nD τ).loc main_arg7) :=
  calc Wd7 m ρ c (Proc.devRef .tc main_arg7)
    _ = Wd6 m ρ c (Proc.devRef .tc main_arg7) := Wd7_of_ne m ρ c main_arg7 (by decide)
    _ = Wd5 m ρ c (Proc.devRef .tc main_arg7) := StableHlo.after_of_writes_sub hostOps4 _ hostOps4_writes (by decide : main_arg7 ∉ hostOps4_W)
    _ = Wd4 m ρ c (Proc.devRef .tc main_arg7) := Wd5_of_ne m ρ c main_arg7 (by decide)
    _ = Wd3 m ρ c (Proc.devRef .tc main_arg7) := StableHlo.after_of_writes_sub hostOps3 _ hostOps3_writes (by decide : main_arg7 ∉ hostOps3_W)
    _ = Wd2 m ρ c (Proc.devRef .tc main_arg7) := Wd3_of_ne m ρ c main_arg7 (by decide)
    _ = Wd1 m ρ c (Proc.devRef .tc main_arg7) := Wd2_of_ne m ρ c main_arg7 (by decide)
    _ = Wd0 m ρ c (Proc.devRef .tc main_arg7) := Wd1_of_ne m ρ c main_arg7 (by decide)
    _ = m ((c : Thread nD τ).loc main_arg7) := rfl

theorem Wd7_main_arg8 (c : Dev nD) : Wd7 m ρ c (Proc.devRef .tc main_arg8) = m ((c : Thread nD τ).loc main_arg8) :=
  calc Wd7 m ρ c (Proc.devRef .tc main_arg8)
    _ = Wd6 m ρ c (Proc.devRef .tc main_arg8) := Wd7_of_ne m ρ c main_arg8 (by decide)
    _ = Wd5 m ρ c (Proc.devRef .tc main_arg8) := StableHlo.after_of_writes_sub hostOps4 _ hostOps4_writes (by decide : main_arg8 ∉ hostOps4_W)
    _ = Wd4 m ρ c (Proc.devRef .tc main_arg8) := Wd5_of_ne m ρ c main_arg8 (by decide)
    _ = Wd3 m ρ c (Proc.devRef .tc main_arg8) := StableHlo.after_of_writes_sub hostOps3 _ hostOps3_writes (by decide : main_arg8 ∉ hostOps3_W)
    _ = Wd2 m ρ c (Proc.devRef .tc main_arg8) := Wd3_of_ne m ρ c main_arg8 (by decide)
    _ = Wd1 m ρ c (Proc.devRef .tc main_arg8) := Wd2_of_ne m ρ c main_arg8 (by decide)
    _ = Wd0 m ρ c (Proc.devRef .tc main_arg8) := Wd1_of_ne m ρ c main_arg8 (by decide)
    _ = m ((c : Thread nD τ).loc main_arg8) := rfl

theorem Wd7_main_arg9 (c : Dev nD) : Wd7 m ρ c (Proc.devRef .tc main_arg9) = m ((c : Thread nD τ).loc main_arg9) :=
  calc Wd7 m ρ c (Proc.devRef .tc main_arg9)
    _ = Wd6 m ρ c (Proc.devRef .tc main_arg9) := Wd7_of_ne m ρ c main_arg9 (by decide)
    _ = Wd5 m ρ c (Proc.devRef .tc main_arg9) := StableHlo.after_of_writes_sub hostOps4 _ hostOps4_writes (by decide : main_arg9 ∉ hostOps4_W)
    _ = Wd4 m ρ c (Proc.devRef .tc main_arg9) := Wd5_of_ne m ρ c main_arg9 (by decide)
    _ = Wd3 m ρ c (Proc.devRef .tc main_arg9) := StableHlo.after_of_writes_sub hostOps3 _ hostOps3_writes (by decide : main_arg9 ∉ hostOps3_W)
    _ = Wd2 m ρ c (Proc.devRef .tc main_arg9) := Wd3_of_ne m ρ c main_arg9 (by decide)
    _ = Wd1 m ρ c (Proc.devRef .tc main_arg9) := Wd2_of_ne m ρ c main_arg9 (by decide)
    _ = Wd0 m ρ c (Proc.devRef .tc main_arg9) := Wd1_of_ne m ρ c main_arg9 (by decide)
    _ = m ((c : Thread nD τ).loc main_arg9) := rfl

theorem Wd7_main_arg10 (c : Dev nD) : Wd7 m ρ c (Proc.devRef .tc main_arg10) = m ((c : Thread nD τ).loc main_arg10) :=
  calc Wd7 m ρ c (Proc.devRef .tc main_arg10)
    _ = Wd6 m ρ c (Proc.devRef .tc main_arg10) := Wd7_of_ne m ρ c main_arg10 (by decide)
    _ = Wd5 m ρ c (Proc.devRef .tc main_arg10) := StableHlo.after_of_writes_sub hostOps4 _ hostOps4_writes (by decide : main_arg10 ∉ hostOps4_W)
    _ = Wd4 m ρ c (Proc.devRef .tc main_arg10) := Wd5_of_ne m ρ c main_arg10 (by decide)
    _ = Wd3 m ρ c (Proc.devRef .tc main_arg10) := StableHlo.after_of_writes_sub hostOps3 _ hostOps3_writes (by decide : main_arg10 ∉ hostOps3_W)
    _ = Wd2 m ρ c (Proc.devRef .tc main_arg10) := Wd3_of_ne m ρ c main_arg10 (by decide)
    _ = Wd1 m ρ c (Proc.devRef .tc main_arg10) := Wd2_of_ne m ρ c main_arg10 (by decide)
    _ = Wd0 m ρ c (Proc.devRef .tc main_arg10) := Wd1_of_ne m ρ c main_arg10 (by decide)
    _ = m ((c : Thread nD τ).loc main_arg10) := rfl

/-- THE FRAME: every weakly fair execution of @main terminates, nothing faulting, and every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_ucH main_arg0 (by decide))).trans (Wd7_main_arg0 m ρ c),
    (h c _ (mem_ucH main_arg1 (by decide))).trans (Wd7_main_arg1 m ρ c),
    (h c _ (mem_ucH main_arg2 (by decide))).trans (Wd7_main_arg2 m ρ c),
    (h c _ (mem_ucH main_arg3 (by decide))).trans (Wd7_main_arg3 m ρ c),
    (h c _ (mem_ucH main_arg4 (by decide))).trans (Wd7_main_arg4 m ρ c),
    (h c _ (mem_ucH main_arg5 (by decide))).trans (Wd7_main_arg5 m ρ c),
    (h c _ (mem_ucH main_arg6 (by decide))).trans (Wd7_main_arg6 m ρ c),
    (h c _ (mem_ucH main_arg7 (by decide))).trans (Wd7_main_arg7 m ρ c),
    (h c _ (mem_ucH main_arg8 (by decide))).trans (Wd7_main_arg8 m ρ c),
    (h c _ (mem_ucH main_arg9 (by decide))).trans (Wd7_main_arg9 m ρ c),
    (h c _ (mem_ucH main_arg10 (by decide))).trans (Wd7_main_arg10 m ρ c)⟩) (run_all m ρ)

/-- The run at the two result arrays: each ends at the last boundary's contents of its buffer. -/
theorem run_results : θ_run defs (onTc (τ := τ) (main (F := F))) ⟨m, fun _ => 0, ρ⟩ (fun r => ∀ c : Dev nD,
      r.2.mem ((c.tc : Thread nD τ).loc main_v7) = Wd7 m ρ c (Proc.devRef .tc main_v7)
      ∧ r.2.mem ((c.tc : Thread nD τ).loc main_v12) = Wd7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_ucH main_v7 (by decide)), h c _ (mem_ucH main_v12 (by decide)),
    (h c _ (mem_ucH main_arg0 (by decide))).trans (Wd7_main_arg0 m ρ c),
    (h c _ (mem_ucH main_arg1 (by decide))).trans (Wd7_main_arg1 m ρ c),
    (h c _ (mem_ucH main_arg2 (by decide))).trans (Wd7_main_arg2 m ρ c),
    (h c _ (mem_ucH main_arg3 (by decide))).trans (Wd7_main_arg3 m ρ c),
    (h c _ (mem_ucH main_arg4 (by decide))).trans (Wd7_main_arg4 m ρ c),
    (h c _ (mem_ucH main_arg5 (by decide))).trans (Wd7_main_arg5 m ρ c),
    (h c _ (mem_ucH main_arg6 (by decide))).trans (Wd7_main_arg6 m ρ c),
    (h c _ (mem_ucH main_arg7 (by decide))).trans (Wd7_main_arg7 m ρ c),
    (h c _ (mem_ucH main_arg8 (by decide))).trans (Wd7_main_arg8 m ρ c),
    (h c _ (mem_ucH main_arg9 (by decide))).trans (Wd7_main_arg9 m ρ c),
    (h c _ (mem_ucH main_arg10 (by decide))).trans (Wd7_main_arg10 m ρ c)⟩) (run_all m ρ)

end Cert.Kernel.Hand

end
-- ==== Proof.KI.R0Runs.lean ====
/- Region 0 of the kernel program (Qᵀ·K accumulated over sixteen row tiles per half, in a scratch carried between
   grid points): the body's run in each of its three control cases — the first tile of a half (the scratch is
   cleared, then added to), an inner tile (added to), the last tile (added to, then copied to the output block). -/
import proofs.«154929_j24000277250146_2_alg».proof.Proof.Gen.KernelIdeal.Launch
import proofs.«154929_j24000277250146_2_alg».proof.Proof.Gen.KernelIdeal.Skeleton
import proofs.«154929_j24000277250146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first conditional of the body: the tile index within the half is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional: the tile index within the half is the last, fifteen. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev VO0_2 : View sig .tc .vmem S1x1024x1024 .f32 := (Memref.whole cc0_stg2_0 : Memref sig .tc .vmem S1x1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's scoped buffers other than this region's staging buffers and its accumulator, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg5_0), ((c : Thread nD τ).loc cc3_stg5_0) ↦{fullShare} f) ∗ (∃ f : Buf (Elt F) ((c : Thread nD τ).loc cc3_stg5_1), ((c : Thread nD τ).loc cc3_stg5_1) ↦{fullShare} f) ∗ (∃ f : Buf (Elt F) ((c : Thread nD τ).loc cc4_stg0_0), ((c : Thread nD τ).loc cc4_stg0_0) ↦{fullShare} f) ∗ (∃ f : Buf (Elt F) ((c : Thread nD τ).loc cc4_stg0_1), ((c : Thread nD τ).loc cc4_stg0_1) ↦{fullShare} f) ∗ (∃ f : Buf (Elt F) ((c : Thread nD τ).loc cc4_stg1_0), ((c : Thread nD τ).loc cc4_stg1_0) ↦{fullShare} f) ∗ (∃ f : Buf (Elt F) ((c : Thread nD τ).loc cc4_stg2_0), ((c : Thread nD τ).loc cc4_stg2_0) ↦{fullShare} f) ∗ (∃ f : Buf (Elt F) ((c : Thread nD τ).loc cc4_stg3_0), ((c : Thread nD τ).loc cc4_stg3_0) ↦{fullShare} f) ∗ (∃ f : Buf (Elt F) ((c : Thread nD τ).loc cc4_stg4_0), ((c : Thread nD τ).loc cc4_stg4_0) ↦{fullShare} f) ∗ (∃ f : Buf (Elt F) ((c : Thread nD τ).loc cc4_stg5_0), ((c : Thread nD τ).loc cc4_stg5_0) ↦{fullShare} f) ∗ (∃ f : Buf (Elt F) ((c : Thread nD τ).loc cc4_stg5_1), ((c : Thread nD τ).loc cc4_stg5_1) ↦{fullShare} f))

/-- The class invariant of the region with the accumulator split off as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; unfold restS0; simp only [scM0_0, owns_whole]; try rfl

/-! ## The body's run, case by case: the pieces each buffer ends with are what the run finds -/

set_option maxHeartbeats 4000000 in
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨[], ?_, fun xi2 E K => ?run⟩
  case run =>
    simp only [cc0_partial_kernel_eq_skeleton]; unfold cc0_partial_kernel_skel
    unfold owns
    iintro ⟨⟨%f0, %hf0, H0⟩, ⟨%f1, %hf1, H1⟩, ⟨%f2, %hf2, H2⟩, ⟨%dS, %fS, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) :
    Σ' (L2 : List (View.Piece (Elt F) S1x1024x1024 .f32)), { LS0 : List (View.Piece (Elt F) S1024x1024 .f32) //
      ∀ (xi2 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨[], ?_, fun xi2 E K => ?run⟩
  case run =>
    simp only [cc0_partial_kernel_eq_skeleton]; unfold cc0_partial_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) :
    Σ' (L2 : List (View.Piece (Elt F) S1x1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0_partial_kernel i arg2 harg2 arg3 harg3 arg4 harg4 arg5 harg5) K } := by
  refine ⟨?_, ?_, fun E K => ?run⟩
  case run =>
    simp only [cc0_partial_kernel_eq_skeleton]; unfold cc0_partial_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KI.R0.lean ====
/- Region 0 of the kernel program: what its output block and its accumulator hold after each grid point (by
   recursion on the point), the pipeline's proof data with the accumulator's contents in the invariant, and the body
   obligation — for any contents the region is entered with. -/
import proofs.«154929_j24000277250146_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves: the found pieces read back -/

/-- The output block's staging buffer after a point of case A (nothing is stored into it there: a placeholder nothing reads). -/
def out0_A_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) : Vec F S1x1024x1024 .f32 :=
  VO0_2.read (Elt F) (VO0_2.writes (Elt F) VO0_2.junk (kernelRun0_A c i arg2 harg2 arg3 harg3 arg4 harg4 arg5 harg5 hc0 hc1 x0 x1).1)

theorem scover0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) (y : S1024x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1024.size (by sl_kernel_rfl) y

/-- The accumulator after a point of case A. -/
def sout0_A_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) : Vec F S1024x1024 .f32 :=
  VS0_0.read (Elt F) (VS0_0.writes (Elt F) VS0_0.junk (kernelRun0_A c i arg2 harg2 arg3 harg3 arg4 harg4 arg5 harg5 hc0 hc1 x0 x1).2.1)

/-- The output block's staging buffer after a point of case B (nothing is stored into it there: a placeholder nothing reads). -/
def out0_B_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) : Vec F S1x1024x1024 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) (y : S1024x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1024.size (by sl_kernel_rfl) y

/-- The accumulator after a point of case B. -/
def sout0_B_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) (y : S1x1024x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x1024.size (by sl_kernel_rfl) y

/-- The output block's staging buffer after a point of case C. -/
def out0_C_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) : Vec F S1x1024x1024 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) (y : S1024x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1024.size (by sl_kernel_rfl) y

/-- The accumulator after a point of case C. -/
def sout0_C_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 hc0 hc1 x0 x1 xs0).2.1)

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- After the body at position `n`: the output block's staging buffer and the accumulator, by the case the position is
    in (first tile of a half, inner tile, last tile), the accumulator of an inner or last tile taken from the position before. -/
def outsAt0 (c : Dev nD) : (n : ℕ) → n < cfg0.N → Vec F S1x1024x1024 .f32 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the accumulator at anything);
    afterwards the accumulator at what the point before left in it, beside the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point: the inputs' staging buffers hold their blocks; the point's case is decided by its position
    modulo sixteen; the invariant hands the body the accumulator at what the point before left (at anything before the
    first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _)
            iexact HR
          iexact Hg
        isplitl [Ho]; · iexact Ho
        isplitl [H0]; · iexact H0
        isplitl [H1]; · iexact H1
        iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end

end Cert.KernelIdeal.Hand

end
-- ==== Proof.KI.R1.lean ====
/- Region 1 of the kernel program (the two partial score matrices summed, the diagonal rescaled, exponentiated and
   row-normalised): the body's triple and the pipeline's proof data, for any contents the region is entered with. -/
import proofs.«154929_j24000277250146_2_alg».proof.Proof.Gen.KernelIdeal.Launch
import proofs.«154929_j24000277250146_2_alg».proof.Proof.Gen.KernelIdeal.Skeleton
import proofs.«154929_j24000277250146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2x1024x1024 := Rect.unit (s := S2x1024x1024) ![0, 0, 0] S1x1024x1024.size inb_S2x1024x1024_S1x1024x1024_0_0_0
abbrev r1_1 : Rect S2x1024x1024 := Rect.unit (s := S2x1024x1024) ![1, 0, 0] S1x1024x1024.size inb_S2x1024x1024_S1x1024x1024_1_0_0
abbrev r1_2 : Rect S1024x1024 := Rect.unit (s := S1024x1024) ![0, 0] S1024x1024.size inb_S1024x1024_S1024x1024_0_0

/-- What the body leaves in the output window's staging buffer: its one whole-block store, of the payload of the loaded input blocks. -/
def out1_1 (x0 : Vec F S2x1024x1024 .f32) : Vec F S1024x1024 .bf16 :=
  View.canon [⟨r1_2, k1_pay1 (View.ld x0 r1_0) (View.ld x0 r1_1)⟩]

theorem cover1_1 (p0 : Vec F S1024x1024 .bf16) (y : S1024x1024.Idx) :
    ∃ pc ∈ ([⟨r1_2, p0⟩] : List (View.Piece (Elt F) S1024x1024 .bf16)), y ∈ pc.1.set :=
  View.cover_of_tiled [⟨r1_2, p0⟩] S1024x1024.size (by rfl) y

set_option maxHeartbeats 4000000 in
/-- The body on whole staging memrefs: the inputs at their contents and the output at anything; it ends with the inputs as they were and the output at `out1_1`. -/
theorem sound_kernel1 (c : Dev nD) (E : Set ℕ) (i : grid1.Coords) (arg1 : Memref sig .tc .vmem S2x1024x1024 .f32) (harg1 : arg1.IsWhole) (arg2 : Memref sig .tc .vmem S1024x1024 .bf16) (harg2 : arg2.IsWhole)
    (x0 : Vec F S2x1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1_epilogue_kernel i arg1 harg1 arg2 harg2) K := by
  simp only [cc1_epilogue_kernel_eq_skeleton]; unfold cc1_epilogue_kernel_skel
  unfold owns
  iintro ⟨⟨%f0, %hf0, H0⟩, ⟨%dO, %fO, -, HO⟩, Hk⟩
  subst hf0
  sl_exec
  sl_step
  iapply Hk
  isplitl [H0]
  · iexists f0; isplitr; · ipureintro; rfl
    iexact H0
  iexists _; isplitr
  swap; · iexact HO
  ipureintro
  exact View.read_writes_eq_canon _ _ _ (cover1_1 _)

/-- The region's proof data on core `c`: the arrays as the region finds them; after the body each input's buffer at its block, the output's at `out1_1` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any grid point: the inputs' staging buffers hold their blocks, so the triple applies; the invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.R2.lean ====
/- Region 2 of the kernel program (value tile times the score matrix transposed): the body's triple and the
   pipeline's proof data, for any contents the region is entered with. -/
import proofs.«154929_j24000277250146_2_alg».proof.Proof.Gen.KernelIdeal.Launch
import proofs.«154929_j24000277250146_2_alg».proof.Proof.Gen.KernelIdeal.Skeleton
import proofs.«154929_j24000277250146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0

/-- What the body leaves in the output window's staging buffer: its one whole-block store, of the payload of the loaded input blocks. -/
def out2_2 (x0 : Vec F S1024x1024 .f32) (x1 : Vec F S1024x1024 .bf16) : Vec F S1024x1024 .bf16 :=
  View.canon [⟨r2_0, k2_pay1 (View.ld x0 r2_0) (View.ld x1 r2_0)⟩]

theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 4000000 in
/-- The body on whole staging memrefs: the inputs at their contents and the output at anything; it ends with the inputs as they were and the output at `out2_2`. -/
theorem sound_kernel2 (c : Dev nD) (E : Set ℕ) (i : grid2.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%dO, %fO, -, HO⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (cover2_2 _)

/-- The region's proof data on core `c`: the arrays as the region finds them; after the body each input's buffer at its block, the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' staging buffers hold their blocks, so the triple applies; the invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.R3.lean ====
/- Region 3 of the kernel program (the first two-layer perceptron on a tile of rows): the body's triple and the
   pipeline's proof data, for any contents the region is entered with. -/
import proofs.«154929_j24000277250146_2_alg».proof.Proof.Gen.KernelIdeal.Launch
import proofs.«154929_j24000277250146_2_alg».proof.Proof.Gen.KernelIdeal.Skeleton
import proofs.«154929_j24000277250146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the pipeline fetched it there or kept it. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S512x1024 := Rect.unit (s := S512x1024) ![0, 0] S512x1024.size inb_S512x1024_S512x1024_0_0
abbrev r3_1 : Rect S1024x4096 := Rect.unit (s := S1024x4096) ![0, 0] S1024x4096.size inb_S1024x4096_S1024x4096_0_0
abbrev r3_2 : Rect S1x4096 := Rect.unit (s := S1x4096) ![0, 0] S1x4096.size inb_S1x4096_S1x4096_0_0
abbrev r3_3 : Rect S4096x1024 := Rect.unit (s := S4096x1024) ![0, 0] S4096x1024.size inb_S4096x1024_S4096x1024_0_0
abbrev r3_4 : Rect S1x1024 := Rect.unit (s := S1x1024) ![0, 0] S1x1024.size inb_S1x1024_S1x1024_0_0
abbrev r3_5 : Rect S512x1024 := Rect.unit (s := S512x1024) ![0, 0] S512x1024.size inb_S512x1024_S512x1024_0_0

/-- What the body leaves in the output window's staging buffer: its one whole-block store, of the payload of the loaded input blocks. -/
def out3_5 (x0 : Vec F S512x1024 .bf16) (x1 : Vec F S1024x4096 .bf16) (x2 : Vec F S1x4096 .f32) (x3 : Vec F S4096x1024 .bf16) (x4 : Vec F S1x1024 .f32) : Vec F S512x1024 .f32 :=
  View.canon [⟨r3_5, k3_pay1 (View.ld x0 r3_0) (View.ld x1 r3_1) (View.ld x2 r3_2) (View.ld x3 r3_3) (View.ld x4 r3_4)⟩]

theorem cover3_5 (p0 : Vec F S512x1024 .f32) (y : S512x1024.Idx) :
    ∃ pc ∈ ([⟨r3_5, p0⟩] : List (View.Piece (Elt F) S512x1024 .f32)), y ∈ pc.1.set :=
  View.cover_of_tiled [⟨r3_5, p0⟩] S512x1024.size (by rfl) y

set_option maxHeartbeats 4000000 in
/-- The body on whole staging memrefs: the inputs at their contents and the output at anything; it ends with the inputs as they were and the output at `out3_5`. -/
theorem sound_kernel3 (c : Dev nD) (E : Set ℕ) (i : grid3.Coords) (arg1 : Memref sig .tc .vmem S512x1024 .bf16) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole)
    (x0 : Vec F S512x1024 .bf16) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3_kernel i arg1 harg1 arg2 harg2 arg3 harg3 arg4 harg4 arg5 harg5 arg6 harg6) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover3_5 _)

/-- The region's proof data on core `c`: the arrays as the region finds them; after the body each input's buffer at its block, the output's at `out3_5` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any grid point: the inputs' staging buffers hold their blocks, so the triple applies; the invariant and what the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KI.R4.lean ====
/- Region 4 of the kernel program (the second two-layer perceptron on a tile of rows): the body's triple and the
   pipeline's proof data, for any contents the region is entered with. -/
import proofs.«154929_j24000277250146_2_alg».proof.Proof.Gen.KernelIdeal.Launch
import proofs.«154929_j24000277250146_2_alg».proof.Proof.Gen.KernelIdeal.Skeleton
import proofs.«154929_j24000277250146_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the windows' blocks, the body's triple, the proof data and the body obligation, at any entry contents `V` -/

section
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the pipeline fetched it there or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the pipeline fetched it there or kept it. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S512x1024 := Rect.unit (s := S512x1024) ![0, 0] S512x1024.size inb_S512x1024_S512x1024_0_0
abbrev r4_1 : Rect S1024x4096 := Rect.unit (s := S1024x4096) ![0, 0] S1024x4096.size inb_S1024x4096_S1024x4096_0_0
abbrev r4_2 : Rect S1x4096 := Rect.unit (s := S1x4096) ![0, 0] S1x4096.size inb_S1x4096_S1x4096_0_0
abbrev r4_3 : Rect S4096x1024 := Rect.unit (s := S4096x1024) ![0, 0] S4096x1024.size inb_S4096x1024_S4096x1024_0_0
abbrev r4_4 : Rect S1x1024 := Rect.unit (s := S1x1024) ![0, 0] S1x1024.size inb_S1x1024_S1x1024_0_0
abbrev r4_5 : Rect S512x1024 := Rect.unit (s := S512x1024) ![0, 0] S512x1024.size inb_S512x1024_S512x1024_0_0

/-- What the body leaves in the output window's staging buffer: its one whole-block store, of the payload of the loaded input blocks. -/
def out4_5 (x0 : Vec F S512x1024 .bf16) (x1 : Vec F S1024x4096 .bf16) (x2 : Vec F S1x4096 .f32) (x3 : Vec F S4096x1024 .bf16) (x4 : Vec F S1x1024 .f32) : Vec F S512x1024 .f32 :=
  View.canon [⟨r4_5, k4_pay1 (View.ld x0 r4_0) (View.ld x1 r4_1) (View.ld x2 r4_2) (View.ld x3 r4_3) (View.ld x4 r4_4)⟩]

theorem cover4_5 (p0 : Vec F S512x1024 .f32) (y : S512x1024.Idx) :
    ∃ pc ∈ ([⟨r4_5, p0⟩] : List (View.Piece (Elt F) S512x1024 .f32)), y ∈ pc.1.set :=
  View.cover_of_tiled [⟨r4_5, p0⟩] S512x1024.size (by rfl) y

set_option maxHeartbeats 4000000 in
/-- The body on whole staging memrefs: the inputs at their contents and the output at anything; it ends with the inputs as they were and the output at `out4_5`. -/
theorem sound_kernel4 (c : Dev nD) (E : Set ℕ) (i : grid4.Coords) (arg1 : Memref sig .tc .vmem S512x1024 .bf16) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole)
    (x0 : Vec F S512x1024 .bf16) (x1 : Vec F S1024x4096 .bf16) (x2 : Vec F S1x4096 .f32) (x3 : Vec F S4096x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4_kernel i arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover4_5 _)

/-- The region's proof data on core `c`: the arrays as the region finds them; after the body each input's buffer at its block, the output's at `out4_5` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the inputs' staging buffers hold their blocks, so the triple applies; the invariant and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.Run.lean ====
/- The kernel program's whole run: its five kernel regions and two stretches of host operations as segments, the
   buffers' contents at every segment boundary folded from the launch memory, and the launch — every weakly fair
   execution terminates with every unscoped buffer at the last boundary's contents. -/
import proofs.«154929_j24000277250146_2_alg».proof.Proof.KI.R0
import proofs.«154929_j24000277250146_2_alg».proof.Proof.KI.R1
import proofs.«154929_j24000277250146_2_alg».proof.Proof.KI.R2
import proofs.«154929_j24000277250146_2_alg».proof.Proof.KI.R3
import proofs.«154929_j24000277250146_2_alg».proof.Proof.KI.R4
import proofs.«154929_j24000277250146_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev Wd0 : Dev nD → Valuation τ sig (Elt F) := fun c b => (s₀ m ρ).mem ((c : Dev nD), b)
abbrev Ve0 : (c : Dev nD) → (b : Ref sig .tc) → Buf (Elt F) ((c : Thread nD τ).loc b) := fun c b => Wd0 m ρ c b

/-- At region 0's exit: its arrays at what its write-backs leave, every other buffer as entered. -/
def Wd1 (c : Dev nD) : Valuation τ sig (Elt F) :=
  Pipeline.withArrays spec0 c (Wd0 m ρ c) fun w => (dat0 (Ve0 m ρ) c).arrAt w cfg0.N
theorem Wd1_arr (c : Dev nD) (w : Fin cfg0.W) :
    Wd1 m ρ c (Proc.devRef .tc (Pipeline.arrRef spec0 w)) = (dat0 (Ve0 m ρ) c).arrAt w cfg0.N := by
  unfold Wd1; exact Pipeline.withArrays_arr spec0 launch0.win.arr_inj c _ _ w
theorem Wd1_of_ne (c : Dev nD) (b : Ref sig .tc) (hb : ∀ w, Pipeline.arrRef spec0 w ≠ b) :
    Wd1 m ρ c (Proc.devRef .tc b) = Wd0 m ρ c (Proc.devRef .tc b) := by
  unfold Wd1; exact Pipeline.withArrays_of_ne spec0 c _ _ b hb
abbrev Ve1 : (c : Dev nD) → (b : Ref sig .tc) → Buf (Elt F) ((c : Thread nD τ).loc b) := fun c b => Wd1 m ρ c b
theorem hF0 (c : Dev nD) (w : Fin cfg0.W) : (dat0 (Ve0 m ρ) c).arrAt w cfg0.N = Ve1 m ρ c (Pipeline.arrRef spec0 w) :=
  (Wd1_arr m ρ c w).symm
theorem hrest0 (c : Dev nD) : ∀ b, b ∉ Finset.univ.image (Pipeline.arrRef spec0) → Ve1 m ρ c b = Ve0 m ρ c b :=
  fun b hb => Wd1_of_ne m ρ c b fun w e => hb (Finset.mem_image.mpr ⟨w, Finset.mem_univ _, e⟩)

/-- At region 1's exit: its arrays at what its write-backs leave, every other buffer as entered. -/
def Wd2 (c : Dev nD) : Valuation τ sig (Elt F) :=
  Pipeline.withArrays spec1 c (Wd1 m ρ c) fun w => (dat1 (Ve1 m ρ) c).arrAt w cfg1.N
theorem Wd2_arr (c : Dev nD) (w : Fin cfg1.W) :
    Wd2 m ρ c (Proc.devRef .tc (Pipeline.arrRef spec1 w)) = (dat1 (Ve1 m ρ) c).arrAt w cfg1.N := by
  unfold Wd2; exact Pipeline.withArrays_arr spec1 launch1.win.arr_inj c _ _ w
theorem Wd2_of_ne (c : Dev nD) (b : Ref sig .tc) (hb : ∀ w, Pipeline.arrRef spec1 w ≠ b) :
    Wd2 m ρ c (Proc.devRef .tc b) = Wd1 m ρ c (Proc.devRef .tc b) := by
  unfold Wd2; exact Pipeline.withArrays_of_ne spec1 c _ _ b hb
abbrev Ve2 : (c : Dev nD) → (b : Ref sig .tc) → Buf (Elt F) ((c : Thread nD τ).loc b) := fun c b => Wd2 m ρ c b
theorem hF1 (c : Dev nD) (w : Fin cfg1.W) : (dat1 (Ve1 m ρ) c).arrAt w cfg1.N = Ve2 m ρ c (Pipeline.arrRef spec1 w) :=
  (Wd2_arr m ρ c w).symm
theorem hrest1 (c : Dev nD) : ∀ b, b ∉ Finset.univ.image (Pipeline.arrRef spec1) → Ve2 m ρ c b = Ve1 m ρ c b :=
  fun b hb => Wd2_of_ne m ρ c b fun w e => hb (Finset.mem_image.mpr ⟨w, Finset.mem_univ _, e⟩)

/-- At region 2's exit: its arrays at what its write-backs leave, every other buffer as entered. -/
def Wd3 (c : Dev nD) : Valuation τ sig (Elt F) :=
  Pipeline.withArrays spec2 c (Wd2 m ρ c) fun w => (dat2 (Ve2 m ρ) c).arrAt w cfg2.N
theorem Wd3_arr (c : Dev nD) (w : Fin cfg2.W) :
    Wd3 m ρ c (Proc.devRef .tc (Pipeline.arrRef spec2 w)) = (dat2 (Ve2 m ρ) c).arrAt w cfg2.N := by
  unfold Wd3; exact Pipeline.withArrays_arr spec2 launch2.win.arr_inj c _ _ w
theorem Wd3_of_ne (c : Dev nD) (b : Ref sig .tc) (hb : ∀ w, Pipeline.arrRef spec2 w ≠ b) :
    Wd3 m ρ c (Proc.devRef .tc b) = Wd2 m ρ c (Proc.devRef .tc b) := by
  unfold Wd3; exact Pipeline.withArrays_of_ne spec2 c _ _ b hb
abbrev Ve3 : (c : Dev nD) → (b : Ref sig .tc) → Buf (Elt F) ((c : Thread nD τ).loc b) := fun c b => Wd3 m ρ c b
theorem hF2 (c : Dev nD) (w : Fin cfg2.W) : (dat2 (Ve2 m ρ) c).arrAt w cfg2.N = Ve3 m ρ c (Pipeline.arrRef spec2 w) :=
  (Wd3_arr m ρ c w).symm
theorem hrest2 (c : Dev nD) : ∀ b, b ∉ Finset.univ.image (Pipeline.arrRef spec2) → Ve3 m ρ c b = Ve2 m ρ c b :=
  fun b hb => Wd3_of_ne m ρ c b fun w e => hb (Finset.mem_image.mpr ⟨w, Finset.mem_univ _, e⟩)

/-- After the host stretch before region 3 (the biases reshaped to rows, the weights' format changed). -/
abbrev Wd4 : Dev nD → Valuation τ sig (Elt F) := fun c => StableHlo.after hostOps3 (Wd3 m ρ c)
abbrev Ve4 : (c : Dev nD) → (b : Ref sig .tc) → Buf (Elt F) ((c : Thread nD τ).loc b) := fun c b => Wd4 m ρ c b

/-- At region 3's exit: its arrays at what its write-backs leave, every other buffer as entered. -/
def Wd5 (c : Dev nD) : Valuation τ sig (Elt F) :=
  Pipeline.withArrays spec3 c (Wd4 m ρ c) fun w => (dat3 (Ve4 m ρ) c).arrAt w cfg3.N
theorem Wd5_arr (c : Dev nD) (w : Fin cfg3.W) :
    Wd5 m ρ c (Proc.devRef .tc (Pipeline.arrRef spec3 w)) = (dat3 (Ve4 m ρ) c).arrAt w cfg3.N := by
  unfold Wd5; exact Pipeline.withArrays_arr spec3 launch3.win.arr_inj c _ _ w
theorem Wd5_of_ne (c : Dev nD) (b : Ref sig .tc) (hb : ∀ w, Pipeline.arrRef spec3 w ≠ b) :
    Wd5 m ρ c (Proc.devRef .tc b) = Wd4 m ρ c (Proc.devRef .tc b) := by
  unfold Wd5; exact Pipeline.withArrays_of_ne spec3 c _ _ b hb
abbrev Ve5 : (c : Dev nD) → (b : Ref sig .tc) → Buf (Elt F) ((c : Thread nD τ).loc b) := fun c b => Wd5 m ρ c b
theorem hF3 (c : Dev nD) (w : Fin cfg3.W) : (dat3 (Ve4 m ρ) c).arrAt w cfg3.N = Ve5 m ρ c (Pipeline.arrRef spec3 w) :=
  (Wd5_arr m ρ c w).symm
theorem hrest3 (c : Dev nD) : ∀ b, b ∉ Finset.univ.image (Pipeline.arrRef spec3) → Ve5 m ρ c b = Ve4 m ρ c b :=
  fun b hb => Wd5_of_ne m ρ c b fun w e => hb (Finset.mem_image.mpr ⟨w, Finset.mem_univ _, e⟩)

/-- After the host stretch before region 4. -/
abbrev Wd6 : Dev nD → Valuation τ sig (Elt F) := fun c => StableHlo.after hostOps4 (Wd5 m ρ c)
abbrev Ve6 : (c : Dev nD) → (b : Ref sig .tc) → Buf (Elt F) ((c : Thread nD τ).loc b) := fun c b => Wd6 m ρ c b

/-- At region 4's exit: its arrays at what its write-backs leave, every other buffer as entered. -/
def Wd7 (c : Dev nD) : Valuation τ sig (Elt F) :=
  Pipeline.withArrays spec4 c (Wd6 m ρ c) fun w => (dat4 (Ve6 m ρ) c).arrAt w cfg4.N
theorem Wd7_arr (c : Dev nD) (w : Fin cfg4.W) :
    Wd7 m ρ c (Proc.devRef .tc (Pipeline.arrRef spec4 w)) = (dat4 (Ve6 m ρ) c).arrAt w cfg4.N := by
  unfold Wd7; exact Pipeline.withArrays_arr spec4 launch4.win.arr_inj c _ _ w
theorem Wd7_of_ne (c : Dev nD) (b : Ref sig .tc) (hb : ∀ w, Pipeline.arrRef spec4 w ≠ b) :
    Wd7 m ρ c (Proc.devRef .tc b) = Wd6 m ρ c (Proc.devRef .tc b) := by
  unfold Wd7; exact Pipeline.withArrays_of_ne spec4 c _ _ b hb
abbrev Ve7 : (c : Dev nD) → (b : Ref sig .tc) → Buf (Elt F) ((c : Thread nD τ).loc b) := fun c b => Wd7 m ρ c b
theorem hF4 (c : Dev nD) (w : Fin cfg4.W) : (dat4 (Ve6 m ρ) c).arrAt w cfg4.N = Ve7 m ρ c (Pipeline.arrRef spec4 w) :=
  (Wd7_arr m ρ c w).symm
theorem hrest4 (c : Dev nD) : ∀ b, b ∉ Finset.univ.image (Pipeline.arrRef spec4) → Ve7 m ρ c b = Ve6 m ρ c b :=
  fun b hb => Wd7_of_ne m ρ c b fun w e => hb (Finset.mem_image.mpr ⟨w, Finset.mem_univ _, e⟩)

/-! ## The proof data family and the thread state -/

abbrev admH : (p : Fin 5) → (pcfgs (F := F) p).Adm := fun p => (cfgs p).toPCfg_adm
/-- Every region's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve4 m ρ) c
  | ⟨4, _⟩ => fun c => dat4 (Ve6 m ρ) c
abbrev VarH : Variants := Variants.none
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (Wd7 m ρ c) ∗ ∃ r, prngReg c r)

/-! ## The regions as segments -/

set_option backward.isDefEq.respectTransparency.types false in
/-- Region 0 over the thread state: entered from every unscoped buffer at the boundary before it, left at the one after. -/
def regH0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ LH lvH 0 fun _ _ => rfl
  pre c := iprop(StableHlo.held (c : Thread nD τ) (Pipeline.ucRefs τ sig) (Wd0 m ρ c) ∗ RH c)
  post c := iprop(StableHlo.held (c : Thread nD τ) (Pipeline.ucRefs τ sig) (Wd1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (Ve0 m ρ) c)
    unfold Pipeline.ΦA
    iintro ⟨Hp, -, Hr⟩
    isplitl [Hr]; · iexact Hr
    iexact Hp
  hout c := by
    rw [Pipeline.ownSems0_none]
    refine (hout0 (Ve0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Ve0 m ρ c) (Ve1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def regH1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ LH lvH 1 fun _ _ => rfl
  pre c := iprop(StableHlo.held (c : Thread nD τ) (Pipeline.ucRefs τ sig) (Wd1 m ρ c) ∗ RH c)
  post c := iprop(StableHlo.held (c : Thread nD τ) (Pipeline.ucRefs τ sig) (Wd2 m ρ c) ∗ RH c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Ve1 m ρ c) (Ve2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def regH2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ LH lvH 2 fun _ _ => rfl
  pre c := iprop(StableHlo.held (c : Thread nD τ) (Pipeline.ucRefs τ sig) (Wd2 m ρ c) ∗ RH c)
  post c := iprop(StableHlo.held (c : Thread nD τ) (Pipeline.ucRefs τ sig) (Wd3 m ρ c) ∗ RH c)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Ve2 m ρ c) (Ve3 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def regH3 : Pipeline.RegionSeg (pcfgs (F := F)) admH (pdatsH m ρ) () defs₀ VarH LH lvH 3 where
  win := launch3.win.to₀
  block_pos := launch3.block_pos
  stage_whole := launch3.stage_whole
  K := PEmpty
  osem k := k.elim
  ho := Pipeline.OwnSemFacts.none _
  hbody c := (body_obligation3 (Ve4 m ρ) c).loose
  hwaits := Pipeline.hwaits_of_owed_zero _ _ _ _ LH lvH 3 fun _ _ => rfl
  pre c := iprop(StableHlo.held (c : Thread nD τ) (Pipeline.ucRefs τ sig) (Wd4 m ρ c) ∗ RH c)
  post c := iprop(StableHlo.held (c : Thread nD τ) (Pipeline.ucRefs τ sig) (Wd5 m ρ c) ∗ RH c)
  X c := iprop(∃ r, prngReg c r)
  Y c := iprop(∃ r, prngReg c r)
  Z c := Pipeline.unscopedRest (Ix := Unit) (Name := ℕ) (U := UR sig nD τ) (Lvl := ℕ) spec3 c (Ve4 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Ve4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Ve4 m ρ c) (Ve5 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def regH4 : Pipeline.RegionSeg (pcfgs (F := F)) admH (pdatsH m ρ) () defs₀ VarH LH lvH 4 where
  win := launch4.win.to₀
  block_pos := launch4.block_pos
  stage_whole := launch4.stage_whole
  K := PEmpty
  osem k := k.elim
  ho := Pipeline.OwnSemFacts.none _
  hbody c := (body_obligation4 (Ve6 m ρ) c).loose
  hwaits := Pipeline.hwaits_of_owed_zero _ _ _ _ LH lvH 4 fun _ _ => rfl
  pre c := iprop(StableHlo.held (c : Thread nD τ) (Pipeline.ucRefs τ sig) (Wd6 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Ve6 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Ve6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Ve6 m ρ c) (Ve7 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ VarH LH lvH) :=
  [ .region (regH0 m ρ),
    .region (regH1 m ρ),
    .region (regH2 m ρ),
    .host (hsegH hostOps3 hostOps3_sub hostOps3_fresh (Wd3 m ρ)),
    .region (regH3 m ρ),
    .host (hsegH hostOps4 hostOps4_sub hostOps4_fresh (Wd5 m ρ)),
    .region (regH4 m ρ) ]
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd7 m ρ c b) :=
  Pipeline.θ_run_regions_kit (pcfgs (F := F)) admH (pdatsH m ρ) () cellOf_inj emb₁ defs₀ VarH LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ RH c)) (Tₙ := TnH m ρ)
    (hch := ⟨fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd7 m ρ c) s')
      isplitl [Hh] <;> iassumption)
    (hQ := fun s h c => h c)

end Cert.KernelIdeal.Hand

end
-- ==== Proof.KI.Frame.lean ====
/- The kernel program's frame: every argument array is read back through the boundaries' contents to what the
   launch memory held (no host operation writes an argument, and a region either stages it through an input window,
   which is handed back as found, or bypasses it); and the run restated at the two result arrays. -/
import proofs.«154929_j24000277250146_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wd7_main_arg0 (c : Dev nD) : Wd7 m ρ c (Proc.devRef .tc main_arg0) = m ((c : Thread nD τ).loc main_arg0) :=
  calc Wd7 m ρ c (Proc.devRef .tc main_arg0)
    _ = Wd6 m ρ c (Proc.devRef .tc main_arg0) := Wd7_of_ne m ρ c main_arg0 (by decide)
    _ = Wd5 m ρ c (Proc.devRef .tc main_arg0) := StableHlo.after_of_writes_sub hostOps4 _ hostOps4_writes (by decide : main_arg0 ∉ hostOps4_W)
    _ = Wd4 m ρ c (Proc.devRef .tc main_arg0) := Wd5_of_ne m ρ c main_arg0 (by decide)
    _ = Wd3 m ρ c (Proc.devRef .tc main_arg0) := StableHlo.after_of_writes_sub hostOps3 _ hostOps3_writes (by decide : main_arg0 ∉ hostOps3_W)
    _ = Wd2 m ρ c (Proc.devRef .tc main_arg0) := Wd3_of_ne m ρ c main_arg0 (by decide)
    _ = Wd1 m ρ c (Proc.devRef .tc main_arg0) := Wd2_of_ne m ρ c main_arg0 (by decide)
    _ = Wd0 m ρ c (Proc.devRef .tc main_arg0) := (Wd1_arr m ρ c 0).trans (((dat0 (Ve0 m ρ) c).arrAt_in 0 rfl _).trans (A_eq0 (Ve0 m ρ) c 0))
    _ = m ((c : Thread nD τ).loc main_arg0) := rfl

theorem Wd7_main_arg1 (c : Dev nD) : Wd7 m ρ c (Proc.devRef .tc main_arg1) = m ((c : Thread nD τ).loc main_arg1) :=
  calc Wd7 m ρ c (Proc.devRef .tc main_arg1)
    _ = Wd6 m ρ c (Proc.devRef .tc main_arg1) := Wd7_of_ne m ρ c main_arg1 (by decide)
    _ = Wd5 m ρ c (Proc.devRef .tc main_arg1) := StableHlo.after_of_writes_sub hostOps4 _ hostOps4_writes (by decide : main_arg1 ∉ hostOps4_W)
    _ = Wd4 m ρ c (Proc.devRef .tc main_arg1) := Wd5_of_ne m ρ c main_arg1 (by decide)
    _ = Wd3 m ρ c (Proc.devRef .tc main_arg1) := StableHlo.after_of_writes_sub hostOps3 _ hostOps3_writes (by decide : main_arg1 ∉ hostOps3_W)
    _ = Wd2 m ρ c (Proc.devRef .tc main_arg1) := Wd3_of_ne m ρ c main_arg1 (by decide)
    _ = Wd1 m ρ c (Proc.devRef .tc main_arg1) := Wd2_of_ne m ρ c main_arg1 (by decide)
    _ = Wd0 m ρ c (Proc.devRef .tc main_arg1) := (Wd1_arr m ρ c 1).trans (((dat0 (Ve0 m ρ) c).arrAt_in 1 rfl _).trans (A_eq0 (Ve0 m ρ) c 1))
    _ = m ((c : Thread nD τ).loc main_arg1) := rfl

theorem Wd7_main_arg2 (c : Dev nD) : Wd7 m ρ c (Proc.devRef .tc main_arg2) = m ((c : Thread nD τ).loc main_arg2) :=
  calc Wd7 m ρ c (Proc.devRef .tc main_arg2)
    _ = Wd6 m ρ c (Proc.devRef .tc main_arg2) := Wd7_of_ne m ρ c main_arg2 (by decide)
    _ = Wd5 m ρ c (Proc.devRef .tc main_arg2) := StableHlo.after_of_writes_sub hostOps4 _ hostOps4_writes (by decide : main_arg2 ∉ hostOps4_W)
    _ = Wd4 m ρ c (Proc.devRef .tc main_arg2) := Wd5_of_ne m ρ c main_arg2 (by decide)
    _ = Wd3 m ρ c (Proc.devRef .tc main_arg2) := StableHlo.after_of_writes_sub hostOps3 _ hostOps3_writes (by decide : main_arg2 ∉ hostOps3_W)
    _ = Wd2 m ρ c (Proc.devRef .tc main_arg2) := (Wd3_arr m ρ c 0).trans (((dat2 (Ve2 m ρ) c).arrAt_in 0 rfl _).trans (A_eq2 (Ve2 m ρ) c 0))
    _ = Wd1 m ρ c (Proc.devRef .tc main_arg2) := Wd2_of_ne m ρ c main_arg2 (by decide)
    _ = Wd0 m ρ c (Proc.devRef .tc main_arg2) := Wd1_of_ne m ρ c main_arg2 (by decide)
    _ = m ((c : Thread nD τ).loc main_arg2) := rfl

theorem Wd7_main_arg3 (c : Dev nD) : Wd7 m ρ c (Proc.devRef .tc main_arg3) = m ((c : Thread nD τ).loc main_arg3) :=
  calc Wd7 m ρ c (Proc.devRef .tc main_arg3)
    _ = Wd6 m ρ c (Proc.devRef .tc main_arg3) := Wd7_of_ne m ρ c main_arg3 (by decide)
    _ = Wd5 m ρ c (Proc.devRef .tc main_arg3) := StableHlo.after_of_writes_sub hostOps4 _ hostOps4_writes (by decide : main_arg3 ∉ hostOps4_W)
    _ = Wd4 m ρ c (Proc.devRef .tc main_arg3) := Wd5_of_ne m ρ c main_arg3 (by decide)
    _ = Wd3 m ρ c (Proc.devRef .tc main_arg3) := StableHlo.after_of_writes_sub hostOps3 _ hostOps3_writes (by decide : main_arg3 ∉ hostOps3_W)
    _ = Wd2 m ρ c (Proc.devRef .tc main_arg3) := Wd3_of_ne m ρ c main_arg3 (by decide)
    _ = Wd1 m ρ c (Proc.devRef .tc main_arg3) := Wd2_of_ne m ρ c main_arg3 (by decide)
    _ = Wd0 m ρ c (Proc.devRef .tc main_arg3) := Wd1_of_ne m ρ c main_arg3 (by decide)
    _ = m ((c : Thread nD τ).loc main_arg3) := rfl

theorem Wd7_main_arg4 (c : Dev nD) : Wd7 m ρ c (Proc.devRef .tc main_arg4) = m ((c : Thread nD τ).loc main_arg4) :=
  calc Wd7 m ρ c (Proc.devRef .tc main_arg4)
    _ = Wd6 m ρ c (Proc.devRef .tc main_arg4) := Wd7_of_ne m ρ c main_arg4 (by decide)
    _ = Wd5 m ρ c (Proc.devRef .tc main_arg4) := StableHlo.after_of_writes_sub hostOps4 _ hostOps4_writes (by decide : main_arg4 ∉ hostOps4_W)
    _ = Wd4 m ρ c (Proc.devRef .tc main_arg4) := Wd5_of_ne m ρ c main_arg4 (by decide)
    _ = Wd3 m ρ c (Proc.devRef .tc main_arg4) := StableHlo.after_of_writes_sub hostOps3 _ hostOps3_writes (by decide : main_arg4 ∉ hostOps3_W)
    _ = Wd2 m ρ c (Proc.devRef .tc main_arg4) := Wd3_of_ne m ρ c main_arg4 (by decide)
    _ = Wd1 m ρ c (Proc.devRef .tc main_arg4) := Wd2_of_ne m ρ c main_arg4 (by decide)
    _ = Wd0 m ρ c (Proc.devRef .tc main_arg4) := Wd1_of_ne m ρ c main_arg4 (by decide)
    _ = m ((c : Thread nD τ).loc main_arg4) := rfl

theorem Wd7_main_arg5 (c : Dev nD) : Wd7 m ρ c (Proc.devRef .tc main_arg5) = m ((c : Thread nD τ).loc main_arg5) :=
  calc Wd7 m ρ c (Proc.devRef .tc main_arg5)
    _ = Wd6 m ρ c (Proc.devRef .tc main_arg5) := Wd7_of_ne m ρ c main_arg5 (by decide)
    _ = Wd5 m ρ c (Proc.devRef .tc main_arg5) := StableHlo.after_of_writes_sub hostOps4 _ hostOps4_writes (by decide : main_arg5 ∉ hostOps4_W)
    _ = Wd4 m ρ c (Proc.devRef .tc main_arg5) := Wd5_of_ne m ρ c main_arg5 (by decide)
    _ = Wd3 m ρ c (Proc.devRef .tc main_arg5) := StableHlo.after_of_writes_sub hostOps3 _ hostOps3_writes (by decide : main_arg5 ∉ hostOps3_W)
    _ = Wd2 m ρ c (Proc.devRef .tc main_arg5) := Wd3_of_ne m ρ c main_arg5 (by decide)
    _ = Wd1 m ρ c (Proc.devRef .tc main_arg5) := Wd2_of_ne m ρ c main_arg5 (by decide)
    _ = Wd0 m ρ c (Proc.devRef .tc main_arg5) := Wd1_of_ne m ρ c main_arg5 (by decide)
    _ = m ((c : Thread nD τ).loc main_arg5) := rfl

theorem Wd7_main_arg6 (c : Dev nD) : Wd7 m ρ c (Proc.devRef .tc main_arg6) = m ((c : Thread nD τ).loc main_arg6) :=
  calc Wd7 m ρ c (Proc.devRef .tc main_arg6)
    _ = Wd6 m ρ c (Proc.devRef .tc main_arg6) := Wd7_of_ne m ρ c main_arg6 (by decide)
    _ = Wd5 m ρ c (Proc.devRef .tc main_arg6) := StableHlo.after_of_writes_sub hostOps4 _ hostOps4_writes (by decide : main_arg6 ∉ hostOps4_W)
    _ = Wd4 m ρ c (Proc.devRef .tc main_arg6) := Wd5_of_ne m ρ c main_arg6 (by decide)
    _ = Wd3 m ρ c (Proc.devRef .tc main_arg6) := StableHlo.after_of_writes_sub hostOps3 _ hostOps3_writes (by decide : main_arg6 ∉ hostOps3_W)
    _ = Wd2 m ρ c (Proc.devRef .tc main_arg6) := Wd3_of_ne m ρ c main_arg6 (by decide)
    _ = Wd1 m ρ c (Proc.devRef .tc main_arg6) := Wd2_of_ne m ρ c main_arg6 (by decide)
    _ = Wd0 m ρ c (Proc.devRef .tc main_arg6) := Wd1_of_ne m ρ c main_arg6 (by decide)
    _ = m ((c : Thread nD τ).loc main_arg6) := rfl

theorem Wd7_main_arg7 (c : Dev nD) : Wd7 m ρ c (Proc.devRef .tc main_arg7) = m ((c : Thread nD τ).loc main_arg7) :=
  calc Wd7 m ρ c (Proc.devRef .tc main_arg7)
    _ = Wd6 m ρ c (Proc.devRef .tc main_arg7) := Wd7_of_ne m ρ c main_arg7 (by decide)
    _ = Wd5 m ρ c (Proc.devRef .tc main_arg7) := StableHlo.after_of_writes_sub hostOps4 _ hostOps4_writes (by decide : main_arg7 ∉ hostOps4_W)
    _ = Wd4 m ρ c (Proc.devRef .tc main_arg7) := Wd5_of_ne m ρ c main_arg7 (by decide)
    _ = Wd3 m ρ c (Proc.devRef .tc main_arg7) := StableHlo.after_of_writes_sub hostOps3 _ hostOps3_writes (by decide : main_arg7 ∉ hostOps3_W)
    _ = Wd2 m ρ c (Proc.devRef .tc main_arg7) := Wd3_of_ne m ρ c main_arg7 (by decide)
    _ = Wd1 m ρ c (Proc.devRef .tc main_arg7) := Wd2_of_ne m ρ c main_arg7 (by decide)
    _ = Wd0 m ρ c (Proc.devRef .tc main_arg7) := Wd1_of_ne m ρ c main_arg7 (by decide)
    _ = m ((c : Thread nD τ).loc main_arg7) := rfl

theorem Wd7_main_arg8 (c : Dev nD) : Wd7 m ρ c (Proc.devRef .tc main_arg8) = m ((c : Thread nD τ).loc main_arg8) :=
  calc Wd7 m ρ c (Proc.devRef .tc main_arg8)
    _ = Wd6 m ρ c (Proc.devRef .tc main_arg8) := Wd7_of_ne m ρ c main_arg8 (by decide)
    _ = Wd5 m ρ c (Proc.devRef .tc main_arg8) := StableHlo.after_of_writes_sub hostOps4 _ hostOps4_writes (by decide : main_arg8 ∉ hostOps4_W)
    _ = Wd4 m ρ c (Proc.devRef .tc main_arg8) := Wd5_of_ne m ρ c main_arg8 (by decide)
    _ = Wd3 m ρ c (Proc.devRef .tc main_arg8) := StableHlo.after_of_writes_sub hostOps3 _ hostOps3_writes (by decide : main_arg8 ∉ hostOps3_W)
    _ = Wd2 m ρ c (Proc.devRef .tc main_arg8) := Wd3_of_ne m ρ c main_arg8 (by decide)
    _ = Wd1 m ρ c (Proc.devRef .tc main_arg8) := Wd2_of_ne m ρ c main_arg8 (by decide)
    _ = Wd0 m ρ c (Proc.devRef .tc main_arg8) := Wd1_of_ne m ρ c main_arg8 (by decide)
    _ = m ((c : Thread nD τ).loc main_arg8) := rfl

theorem Wd7_main_arg9 (c : Dev nD) : Wd7 m ρ c (Proc.devRef .tc main_arg9) = m ((c : Thread nD τ).loc main_arg9) :=
  calc Wd7 m ρ c (Proc.devRef .tc main_arg9)
    _ = Wd6 m ρ c (Proc.devRef .tc main_arg9) := Wd7_of_ne m ρ c main_arg9 (by decide)
    _ = Wd5 m ρ c (Proc.devRef .tc main_arg9) := StableHlo.after_of_writes_sub hostOps4 _ hostOps4_writes (by decide : main_arg9 ∉ hostOps4_W)
    _ = Wd4 m ρ c (Proc.devRef .tc main_arg9) := Wd5_of_ne m ρ c main_arg9 (by decide)
    _ = Wd3 m ρ c (Proc.devRef .tc main_arg9) := StableHlo.after_of_writes_sub hostOps3 _ hostOps3_writes (by decide : main_arg9 ∉ hostOps3_W)
    _ = Wd2 m ρ c (Proc.devRef .tc main_arg9) := Wd3_of_ne m ρ c main_arg9 (by decide)
    _ = Wd1 m ρ c (Proc.devRef .tc main_arg9) := Wd2_of_ne m ρ c main_arg9 (by decide)
    _ = Wd0 m ρ c (Proc.devRef .tc main_arg9) := Wd1_of_ne m ρ c main_arg9 (by decide)
    _ = m ((c : Thread nD τ).loc main_arg9) := rfl

theorem Wd7_main_arg10 (c : Dev nD) : Wd7 m ρ c (Proc.devRef .tc main_arg10) = m ((c : Thread nD τ).loc main_arg10) :=
  calc Wd7 m ρ c (Proc.devRef .tc main_arg10)
    _ = Wd6 m ρ c (Proc.devRef .tc main_arg10) := Wd7_of_ne m ρ c main_arg10 (by decide)
    _ = Wd5 m ρ c (Proc.devRef .tc main_arg10) := StableHlo.after_of_writes_sub hostOps4 _ hostOps4_writes (by decide : main_arg10 ∉ hostOps4_W)
    _ = Wd4 m ρ c (Proc.devRef .tc main_arg10) := Wd5_of_ne m ρ c main_arg10 (by decide)
    _ = Wd3 m ρ c (Proc.devRef .tc main_arg10) := StableHlo.after_of_writes_sub hostOps3 _ hostOps3_writes (by decide : main_arg10 ∉ hostOps3_W)
    _ = Wd2 m ρ c (Proc.devRef .tc main_arg10) := Wd3_of_ne m ρ c main_arg10 (by decide)
    _ = Wd1 m ρ c (Proc.devRef .tc main_arg10) := Wd2_of_ne m ρ c main_arg10 (by decide)
    _ = Wd0 m ρ c (Proc.devRef .tc main_arg10) := Wd1_of_ne m ρ c main_arg10 (by decide)
    _ = m ((c : Thread nD τ).loc main_arg10) := rfl

/-- THE FRAME: every weakly fair execution of @main terminates, nothing faulting, and every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_ucH main_arg0 (by decide))).trans (Wd7_main_arg0 m ρ c),
    (h c _ (mem_ucH main_arg1 (by decide))).trans (Wd7_main_arg1 m ρ c),
    (h c _ (mem_ucH main_arg2 (by decide))).trans (Wd7_main_arg2 m ρ c),
    (h c _ (mem_ucH main_arg3 (by decide))).trans (Wd7_main_arg3 m ρ c),
    (h c _ (mem_ucH main_arg4 (by decide))).trans (Wd7_main_arg4 m ρ c),
    (h c _ (mem_ucH main_arg5 (by decide))).trans (Wd7_main_arg5 m ρ c),
    (h c _ (mem_ucH main_arg6 (by decide))).trans (Wd7_main_arg6 m ρ c),
    (h c _ (mem_ucH main_arg7 (by decide))).trans (Wd7_main_arg7 m ρ c),
    (h c _ (mem_ucH main_arg8 (by decide))).trans (Wd7_main_arg8 m ρ c),
    (h c _ (mem_ucH main_arg9 (by decide))).trans (Wd7_main_arg9 m ρ c),
    (h c _ (mem_ucH main_arg10 (by decide))).trans (Wd7_main_arg10 m ρ c)⟩) (run_all m ρ)

/-- The run at the two result arrays: each ends at the last boundary's contents of its buffer. -/
theorem run_results : θ_run defs (onTc (τ := τ) (main (F := F))) ⟨m, fun _ => 0, ρ⟩ (fun r => ∀ c : Dev nD,
      r.2.mem ((c.tc : Thread nD τ).loc main_v7) = Wd7 m ρ c (Proc.devRef .tc main_v7)
      ∧ r.2.mem ((c.tc : Thread nD τ).loc main_v12) = Wd7 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_ucH main_v7 (by decide)), h c _ (mem_ucH main_v12 (by decide)),
    (h c _ (mem_ucH main_arg0 (by decide))).trans (Wd7_main_arg0 m ρ c),
    (h c _ (mem_ucH main_arg1 (by decide))).trans (Wd7_main_arg1 m ρ c),
    (h c _ (mem_ucH main_arg2 (by decide))).trans (Wd7_main_arg2 m ρ c),
    (h c _ (mem_ucH main_arg3 (by decide))).trans (Wd7_main_arg3 m ρ c),
    (h c _ (mem_ucH main_arg4 (by decide))).trans (Wd7_main_arg4 m ρ c),
    (h c _ (mem_ucH main_arg5 (by decide))).trans (Wd7_main_arg5 m ρ c),
    (h c _ (mem_ucH main_arg6 (by decide))).trans (Wd7_main_arg6 m ρ c),
    (h c _ (mem_ucH main_arg7 (by decide))).trans (Wd7_main_arg7 m ρ c),
    (h c _ (mem_ucH main_arg8 (by decide))).trans (Wd7_main_arg8 m ρ c),
    (h c _ (mem_ucH main_arg9 (by decide))).trans (Wd7_main_arg9 m ρ c),
    (h c _ (mem_ucH main_arg10 (by decide))).trans (Wd7_main_arg10 m ρ c)⟩) (run_all m ρ)

end Cert.KernelIdeal.Hand

end
-- ==== Proof.KI.V0Cases.lean ====
/- Region 0's case values: what the accumulator and the output block hold after a grid point of each case, as the
   body's payloads of what they held before — the first tile of a half leaves the tile's product added to the zero
   block, a later tile the product added to the accumulator, the last tile also copies the accumulator out. -/
import proofs.«154929_j24000277250146_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- An inner tile: the accumulator ends at the tile's payload over what it held. -/
theorem sout_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : ¬cond0_1 i)
    (x0 : Vec F S1024x1024 .f32) (x1 : Vec F S1024x1024 .f32) (xs0 : Vec F S1024x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread, View.ld_unit_zero (S := S1024x1024) hz2]

/-- The first tile of a half: the accumulator is cleared, read back, and ends at the tile's payload over the zero block. -/
theorem sout_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : cond0_0 i) (hc1 : ¬cond0_1 i)
    (x0 : Vec F S1024x1024 .f32) (x1 : Vec F S1024x1024 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, View.ld_unit_zero (S := S1024x1024) hz2]

/-- The last tile of a half: the accumulator as for an inner tile, -/
theorem sout_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1024x1024) hz2]

/-- and the output block ends at the accumulator's new contents, seen as one slab. -/
theorem out_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1024x1024 .f32) (harg5 : arg5.IsWhole) (hc0 : ¬cond0_0 i) (hc1 : cond0_1 i)
    (x0 : Vec F S1024x1024 .f32) (x1 : Vec F S1024x1024 .f32) (xs0 : Vec F S1024x1024 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1024x1024) _ hz2]
  simp only [View.readAt_eq_ld, harg2.read_unread, harg3.read_unread, harg5.read_unread, View.ld_unit_zero (S := S1024x1024) hz2]

end Cert.KernelIdeal.Hand

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.KI.V0Pay.lean ====
/- Region 0's payloads read at an index, over the extended reals: the accumulating payload at (a, b) is what the
   accumulator held there plus Σ over the tile's rows r of x₀[r, a] · x₁[r, b]; the cleared accumulator is zero; the
   copy-out reads the accumulator at the same (a, b). -/
import proofs.«154929_j24000277250146_2_alg».proof.Proof.KI.V0Cases
import proofs.«154929_j24000277250146_2_alg».proof.Proof.LibContract
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem d0_lhs0 (j : S1024x1024.Idx) (q : dot_S1024x1024_S1024x1024_S1024x1024_0_0_1_1_n_n.contr.Idx) :
    (dot_S1024x1024_S1024x1024_S1024x1024_0_0_1_1_n_n.lhsIdx j q 0).val = (q ⟨0, by decide⟩).val :=
  dot_S1024x1024_S1024x1024_S1024x1024_0_0_1_1_n_n.lhsIdx_val_of_single rfl j q
theorem d0_lhs1 (j : S1024x1024.Idx) (q : dot_S1024x1024_S1024x1024_S1024x1024_0_0_1_1_n_n.contr.Idx) :
    (dot_S1024x1024_S1024x1024_S1024x1024_0_0_1_1_n_n.lhsIdx j q 1).val = (j 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem d0_rhs0 (j : S1024x1024.Idx) (q : dot_S1024x1024_S1024x1024_S1024x1024_0_0_1_1_n_n.contr.Idx) :
    (dot_S1024x1024_S1024x1024_S1024x1024_0_0_1_1_n_n.rhsIdx j q 0).val = (q ⟨0, by decide⟩).val :=
  dot_S1024x1024_S1024x1024_S1024x1024_0_0_1_1_n_n.rhsIdx_val_of_single rfl j q
theorem d0_rhs1 (j : S1024x1024.Idx) (q : dot_S1024x1024_S1024x1024_S1024x1024_0_0_1_1_n_n.contr.Idx) :
    (dot_S1024x1024_S1024x1024_S1024x1024_0_0_1_1_n_n.rhsIdx j q 1).val = (j 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The accumulating payload at (a, b): the accumulator's entry plus the tile's product Σ_r x₀[r, a] · x₁[r, b]. -/
theorem acc_pay2_apply (x0 x1 xs : Vec Ideal S1024x1024 .f32) (a b : Fin 1024) :
    k0_pay2 (F := Ideal) x0 x1 xs (ix2 a b) = xs (ix2 a b) + ∑ r : Fin 1024, x0 (ix2 r a) * x1 (ix2 r b) := by
  unfold k0_pay2
  rw [shapeCast_self]
  show xs (ix2 a b) + matmul (F := Ideal) dot_S1024x1024_S1024x1024_S1024x1024_0_0_1_1_n_n none (truncf (F := Ideal) .bf16 x0 bitsLt_bf16_f32) (truncf (F := Ideal) .bf16 x1 bitsLt_bf16_f32) (constant (F := Ideal) S1024x1024 .f32 0x00000000#32) (ix2 a b) = _
  congr 1
  refine (Cert.Lib.Contract.matmul_zero_single dot_S1024x1024_S1024x1024_S1024x1024_0_0_1_1_n_n none 1024 rfl rfl _ _ (ix2 a b) (fun r => ix2 r a) (fun r => ix2 r b) ?_ ?_).trans rfl
  · intro k q hq
    funext ax
    apply Fin.ext
    match ax with
    | ⟨0, _⟩ => exact (d0_lhs0 _ q).trans hq
    | ⟨1, _⟩ => exact d0_lhs1 _ q
  · intro k q hq
    funext ax
    apply Fin.ext
    match ax with
    | ⟨0, _⟩ => exact (d0_rhs0 _ q).trans hq
    | ⟨1, _⟩ => exact d0_rhs1 _ q

/-- The cleared accumulator is zero everywhere. -/
theorem acc_pay1_apply (j : S1024x1024.Idx) : k0_pay1 (F := Ideal) j = 0 := by
  unfold k0_pay1
  rw [shapeCast_self]
  exact Ideal.ofBits_zero_f32

/-- The copy-out: the one-slab view of the accumulator at (0, a, b) is the accumulator at (a, b). -/
theorem acc_pay3_apply (v : Vec Ideal S1024x1024 .f32) (j : S1x1024x1024.Idx) :
    k0_pay3 (F := Ideal) v j = v (ix2 (j 1) (j 2)) := by
  unfold k0_pay3
  refine (shapeCast_addUnit_apply (![1024, 1024] : Fin 2 → Nat) v _ j).trans ?_
  congr 1
  funext ax
  match ax with
  | ⟨0, _⟩ => rfl
  | ⟨1, _⟩ => rfl

end Cert.KernelIdeal.Hand

end
-- ==== Proof.Spec.lean ====
/- The specification both programs are proved against, as functions of the argument arrays over the extended reals,
   index by index:  S = QᵀK;  logit = exp(S − S·δ·(1/32)) with δ the identity matrix;  scores = the softmax of each row
   of logit (through the row's maximum);  attn = V·scoresᵀ;  and a two-layer perceptron relu(attn·W₁ + b₁)·W₂ + b₂. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- [32768, 1024]: the query, key and value arrays, attn, and the two results. -/
abbrev Sq : Shape := ⟨2, ![32768, 1024]⟩
/-- [1024, 1024]: the score matrix. -/
abbrev Sd : Shape := ⟨2, ![1024, 1024]⟩
/-- [2, 1024, 1024]: the two half sums of QᵀK. -/
abbrev Sp : Shape := ⟨3, ![2, 1024, 1024]⟩
abbrev Sw1 : Shape := ⟨2, ![1024, 4096]⟩
abbrev Sw2 : Shape := ⟨2, ![4096, 1024]⟩
abbrev Sb1 : Shape := ⟨1, ![4096]⟩
abbrev Sb2 : Shape := ⟨1, ![1024]⟩
abbrev Sh : Shape := ⟨2, ![32768, 4096]⟩

/-- S[a, b] = Σₙ Q[n, a] · K[n, b]. -/
def qk (q k : Sq.Idx → EReal) : Sd.Idx → EReal :=
  fun i => ∑ n : Fin 32768, q (ix2 n (i 0)) * k (ix2 n (i 1))

/-- The half sums: P[h, a, b] = Σ over the sixteen row tiles j of half h and the 1024 rows r of a tile of
    Q[(16h + j)·1024 + r, a] · K[(16h + j)·1024 + r, b]. -/
def qkRow (h : Fin 2) (j : Fin 16) (r : Fin 1024) : Fin 32768 :=
  ⟨(h.val * 16 + j.val) * 1024 + r.val, by have := h.isLt; have := j.isLt; have := r.isLt; omega⟩
def qkHalf (q k : Sq.Idx → EReal) : Sp.Idx → EReal :=
  fun i => ∑ j : Fin 16, (∑ r : Fin 1024, q (ix2 (qkRow (i 0) j r) (i 1)) * k (ix2 (qkRow (i 0) j r) (i 2)))

/-- The identity matrix's entry. -/
def delta (i : Sd.Idx) : EReal := if (i 0).val = (i 1).val then 1 else 0
/-- 1/32 as the f32 word the kernel multiplies by (exactly 2⁻⁵). -/
abbrev c32 : EReal := Ideal.ofBits .f32 0x3D000000#32
abbrev negInf : EReal := Ideal.ofBits .f32 0xFF800000#32

def logit (s : Sd.Idx → EReal) : Sd.Idx → EReal := fun i => Ideal.exp (s i - s i * delta i * c32)
def rowMax (s : Sd.Idx → EReal) (r : Fin 1024) : EReal :=
  (Finset.univ : Finset (Fin 1024)).fold max negInf (fun k => logit s (ix2 r k))
def expo (s : Sd.Idx → EReal) : Sd.Idx → EReal := fun i => Ideal.exp (logit s i - rowMax s (i 0))
def denom (s : Sd.Idx → EReal) (r : Fin 1024) : EReal := ∑ k : Fin 1024, expo s (ix2 r k)
def scores (s : Sd.Idx → EReal) : Sd.Idx → EReal := fun i => Ideal.div (expo s i) (denom s (i 0))

/-- attn[n, a] = Σ_b V[n, b] · scores[a, b]. -/
def attn (v : Sq.Idx → EReal) (sc : Sd.Idx → EReal) : Sq.Idx → EReal :=
  fun i => ∑ b : Fin 1024, v (ix2 (i 0) b) * sc (ix2 (i 1) b)

abbrev zero32 : EReal := Ideal.ofBits .f32 0x00000000#32
/-- hidden[n, h] = max(Σ_j x[n, j] · W₁[j, h] + b₁[h], 0). -/
def hidden (x : Sq.Idx → EReal) (w1 : Sw1.Idx → EReal) (b1 : Sb1.Idx → EReal) : Sh.Idx → EReal :=
  fun i => max ((∑ j : Fin 1024, x (ix2 (i 0) j) * w1 (ix2 j (i 1))) + b1 (ix1 (i 1))) zero32
/-- out[n, d] = Σ_h hidden[n, h] · W₂[h, d] + b₂[d]. -/
def mlp (x : Sq.Idx → EReal) (w1 : Sw1.Idx → EReal) (b1 : Sb1.Idx → EReal) (w2 : Sw2.Idx → EReal) (b2 : Sb2.Idx → EReal) :
    Sq.Idx → EReal :=
  fun i => (∑ h : Fin 4096, hidden x w1 b1 (ix2 (i 0) h) * w2 (ix2 h (i 1))) + b2 (ix1 (i 1))

/-- The same perceptron with the biases as one-row matrices [1, 4096] and [1, 1024], as the kernel is handed them. -/
abbrev Sb1r : Shape := ⟨2, ![1, 4096]⟩
abbrev Sb2r : Shape := ⟨2, ![1, 1024]⟩
def hiddenR (x : Sq.Idx → EReal) (w1 : Sw1.Idx → EReal) (b1 : Sb1r.Idx → EReal) : Sh.Idx → EReal :=
  fun i => max ((∑ j : Fin 1024, x (ix2 (i 0) j) * w1 (ix2 j (i 1))) + b1 (ix2 (0 : Fin 1) (i 1))) zero32
def mlpR (x : Sq.Idx → EReal) (w1 : Sw1.Idx → EReal) (b1 : Sb1r.Idx → EReal) (w2 : Sw2.Idx → EReal) (b2 : Sb2r.Idx → EReal) :
    Sq.Idx → EReal :=
  fun i => (∑ h : Fin 4096, hiddenR x w1 b1 (ix2 (i 0) h) * w2 (ix2 h (i 1))) + b2 (ix2 (0 : Fin 1) (i 1))

/-- The two half sums added: S[a, b] = P[0, a, b] + P[1, a, b]. -/
def halfSum (p : Sp.Idx → EReal) : Sd.Idx → EReal := fun i => p (ix3 (0 : Fin 2) (i 0) (i 1)) + p (ix3 (1 : Fin 2) (i 0) (i 1))

/-- One result of the whole computation from the arguments. -/
def result (q k v : Sq.Idx → EReal) (w1 : Sw1.Idx → EReal) (b1 : Sb1.Idx → EReal) (w2 : Sw2.Idx → EReal) (b2 : Sb2.Idx → EReal) :
    Sq.Idx → EReal :=
  mlp (attn v (scores (qk q k))) w1 b1 w2 b2

end Cert.Spec

end
-- ==== Proof.KI.V0.lean ====
/- Region 0's value over the extended reals: after the grid point at position n the accumulator holds, at (a, b),
   the sum over the tiles of the current half up to n of Σ_r Q[tile row r, a] · K[tile row r, b] (by induction on the
   point); the last tile of each half copies it to that half's output block; so the output array is the two half sums. -/
import proofs.«154929_j24000277250146_2_alg».proof.Proof.KI.V0Pay
import proofs.«154929_j24000277250146_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)

/-- The windows' block indices over the grid: both inputs take the tile of rows at the point's position; the output takes
    the half's slab. -/
theorem idx0_facts : ∀ t : Fin cfg0.N, win0_0.index t 0 = t.val ∧ win0_0.index t 1 = 0 ∧ win0_1.index t 0 = t.val ∧ win0_1.index t 1 = 0
    ∧ win0_2.index t 0 = t.val / 16 ∧ win0_2.index t 1 = 0 ∧ win0_2.index t 2 = 0 :=
  (by decide +kernel : ∀ t : Fin grid0.N, win0_0.index t 0 = t.val ∧ win0_0.index t 1 = 0 ∧ win0_1.index t 0 = t.val ∧ win0_1.index t 1 = 0
    ∧ win0_2.index t 0 = t.val / 16 ∧ win0_2.index t 1 = 0 ∧ win0_2.index t 2 = 0)

/-- The query and key arrays as the region finds them. -/
abbrev QA : Vec Ideal S32768x1024 .f32 := V c main_arg0
abbrev KA : Vec Ideal S32768x1024 .f32 := V c main_arg1

/-- Row r of the tile at position p. -/
def rowP (p : Fin cfg0.N) (r : Fin 1024) : Fin 32768 :=
  ⟨p.val * 1024 + r.val, by have := p.isLt; have h : cfg0.N = 32 := N_0; have := r.isLt; omega⟩

theorem iblk0_0_apply (t : Fin cfg0.N) (r a : Fin 1024) :
    (iblk0 V c 0 t : Vec Ideal S1024x1024 .f32) (ix2 r a) = QA V c (ix2 (rowP t r) a) := by
  unfold iblk0
  rw [View.read_apply]
  show V c main_arg0 _ = V c main_arg0 _
  congr 1
  funext ax
  apply Fin.ext
  match ax with
  | ⟨0, _⟩ => show win0_0.index t 0 * 1024 + 1 * r.val = t.val * 1024 + r.val; rw [(idx0_facts t).1]; omega
  | ⟨1, _⟩ => show win0_0.index t 1 * 1024 + 1 * a.val = a.val; rw [(idx0_facts t).2.1]; omega

theorem iblk0_1_apply (t : Fin cfg0.N) (r a : Fin 1024) :
    (iblk0 V c 1 t : Vec Ideal S1024x1024 .f32) (ix2 r a) = KA V c (ix2 (rowP t r) a) := by
  unfold iblk0
  rw [View.read_apply]
  show V c main_arg1 _ = V c main_arg1 _
  congr 1
  funext ax
  apply Fin.ext
  match ax with
  | ⟨0, _⟩ => show win0_1.index t 0 * 1024 + 1 * r.val = t.val * 1024 + r.val; rw [(idx0_facts t).2.2.1]; omega
  | ⟨1, _⟩ => show win0_1.index t 1 * 1024 + 1 * a.val = a.val; rw [(idx0_facts t).2.2.2.1]; omega

/-- One tile's product at (a, b). -/
def tile (p : Fin cfg0.N) (a b : Fin 1024) : EReal :=
  ∑ r : Fin 1024, QA V c (ix2 (rowP p r) a) * KA V c (ix2 (rowP p r) b)
def tileN (p : ℕ) (a b : Fin 1024) : EReal := if hp : p < cfg0.N then tile V c ⟨p, hp⟩ a b else 0

/-- The two input tiles at a point, as matrices over the extended reals. -/
abbrev B0 (t : Fin cfg0.N) : Vec Ideal S1024x1024 .f32 := iblk0 V c 0 t
abbrev B1 (t : Fin cfg0.N) : Vec Ideal S1024x1024 .f32 := iblk0 V c 1 t

theorem blk_tile (t : Fin cfg0.N) (a b : Fin 1024) :
    ∑ r : Fin 1024, B0 V c t (ix2 r a) * B1 V c t (ix2 r b) = tile V c t a b := by
  unfold tile
  refine Finset.sum_congr rfl fun r _ => ?_
  rw [show B0 V c t (ix2 r a) = QA V c (ix2 (rowP t r) a) from iblk0_0_apply V c t r a,
    show B1 V c t (ix2 r b) = KA V c (ix2 (rowP t r) b) from iblk0_1_apply V c t r b]

/-- THE ACCUMULATOR after position n: the tiles of the current half up to n, summed in order. -/
theorem acc_eq : ∀ (n : ℕ) (hn : n < cfg0.N) (a b : Fin 1024),
    (outsAt0 V c n hn).2 (ix2 a b) = ∑ j ∈ Finset.range (n % 16 + 1), tileN V c (n - n % 16 + j) a b
  | 0, hn, a, b => by
    have e : (outsAt0 V c 0 hn).2 = _ := congrArg Prod.snd (outsAt0_A V c ⟨0, hn⟩ rfl (by show ¬ 0 % 16 = 15; decide))
    rw [e]
    dsimp only
    rw [sout_A]
    refine (acc_pay2_apply (B0 V c _) (B1 V c _) _ a b).trans ?_
    rw [acc_pay1_apply, zero_add, blk_tile]
    simp only [Nat.zero_mod, Nat.sub_zero, Nat.zero_add, Finset.sum_range_one]
    unfold tileN
    rw [dif_pos hn]
  | n + 1, hn, a, b => by
    have hN : cfg0.N = 32 := N_0
    by_cases h0 : (n + 1) % 16 = 0
    · have h1 : ¬ (n + 1) % 16 = 15 := by omega
      have e : (outsAt0 V c (n + 1) hn).2 = _ := congrArg Prod.snd (outsAt0_A V c ⟨n + 1, hn⟩ h0 h1)
      rw [e]
      dsimp only
      rw [sout_A]
      refine (acc_pay2_apply (B0 V c _) (B1 V c _) _ a b).trans ?_
      rw [acc_pay1_apply, zero_add, blk_tile, h0]
      simp only [Nat.sub_zero, Nat.zero_add, Finset.sum_range_one, Nat.add_zero]
      unfold tileN
      rw [dif_pos hn]
    · have ih := acc_eq n (Nat.lt_of_succ_lt hn) a b
      have hm : (n + 1) % 16 = n % 16 + 1 := by omega
      have hb : n + 1 - (n + 1) % 16 = n - n % 16 := by omega
      have step : ∀ xs : Vec Ideal S1024x1024 .f32, xs = (outsAt0 V c n (Nat.lt_of_succ_lt hn)).2 →
          k0_pay2 (F := Ideal) (iblk0 V c 0 ⟨n + 1, hn⟩) (iblk0 V c 1 ⟨n + 1, hn⟩) xs (ix2 a b)
            = ∑ j ∈ Finset.range ((n + 1) % 16 + 1), tileN V c (n + 1 - (n + 1) % 16 + j) a b := by
        intro xs hxs
        refine (acc_pay2_apply (B0 V c _) (B1 V c _) _ a b).trans ?_
        rw [blk_tile, hxs, ih, hb, hm, Finset.sum_range_succ (n := n % 16 + 1)]
        congr 1
        unfold tileN
        rw [dif_pos (show n - n % 16 + (n % 16 + 1) < cfg0.N by omega)]
        congr 1
        apply Fin.ext
        show n + 1 = n - n % 16 + (n % 16 + 1)
        omega
      by_cases h1 : (n + 1) % 16 = 15
      · have e : (outsAt0 V c (n + 1) hn).2 = _ := congrArg Prod.snd (outsAt0_C V c ⟨n + 1, hn⟩ h0 h1)
        rw [e]
        dsimp only
        rw [sout_C]
        exact step _ rfl
      · have e : (outsAt0 V c (n + 1) hn).2 = _ := congrArg Prod.snd (outsAt0_B V c ⟨n + 1, hn⟩ h0 h1)
        rw [e]
        dsimp only
        rw [sout_B]
        exact step _ rfl

/-! ## The output array -/

/-- The two half sums of QᵀK, as contents of the region's output array. -/
abbrev P0 : Vec Ideal S2x1024x1024 .f32 := Cert.Spec.qkHalf (QA V c) (KA V c)

/-- What a flushing point (the last tile of a half) writes back is its half's slab of the half sums. -/
theorem flushed0_eq (t : Fin cfg0.N) (hf : (cfg0.win 2).flush t = true) :
    (dat0 V c).flushed 2 t = ((cfg0.win 2).blk t).view.read (Elt Ideal) (P0 V c) := by
  have hN : cfg0.N = 32 := N_0
  have h15 : t.val % 16 = 15 := (flush0_2 t).mp hf
  have h0 : ¬ t.val % 16 = 0 := by omega
  show (cfg0.win 2).cut (grid0.coords t) ((dat0 V c).after 2 t) = _
  rw [after0_2]
  have e : (outsAt0 V c t.val t.isLt).1 = _ := congrArg Prod.fst (outsAt0_C V c t h0 h15)
  have es : (outsAt0 V c t.val t.isLt).2 = _ := congrArg Prod.snd (outsAt0_C V c t h0 h15)
  dsimp only at es
  have es' := es.trans (sout_C _ _ _ _ _ _ _ _ _ _ _ _ _ _ _)
  rw [e]
  dsimp only
  rw [out_C, ← es']
  funext j
  show k0_pay3 (F := Ideal) (outsAt0 V c t.val t.isLt).2 j = P0 V c (((cfg0.win 2).blk t).view.emb j)
  rw [acc_pay3_apply, acc_eq V c t.val t.isLt (j 1) (j 2), h15, Finset.sum_range]
  show _ = ∑ j' : Fin 16, ∑ r : Fin 1024, _
  refine Finset.sum_congr rfl fun j' _ => ?_
  unfold tileN
  rw [dif_pos (show t.val - 15 + j'.val < cfg0.N by have := j'.isLt; have := t.isLt; omega)]
  unfold tile
  refine Finset.sum_congr rfl fun r _ => ?_
  have i0 : ((((cfg0.win 2).blk t).view.emb j) 0).val = t.val / 16 := by
    show win0_2.index t 0 * 1 + 1 * (j 0).val = t.val / 16
    have hj0 : (j 0).val < 1 := (j 0).isLt
    rw [(idx0_facts t).2.2.2.2.1]; omega
  have i1 : ((((cfg0.win 2).blk t).view.emb j) 1).val = (j 1).val := by
    show win0_2.index t 1 * 1024 + 1 * (j 1).val = (j 1).val
    rw [(idx0_facts t).2.2.2.2.2.1]; omega
  have i2 : ((((cfg0.win 2).blk t).view.emb j) 2).val = (j 2).val := by
    show win0_2.index t 2 * 1024 + 1 * (j 2).val = (j 2).val
    rw [(idx0_facts t).2.2.2.2.2.2]; omega
  have er : ∀ x : Fin 1024, ∀ y : Fin 1024, x.val = y.val →
      (ix2 (rowP ⟨t.val - 15 + j'.val, by have := j'.isLt; have := t.isLt; omega⟩ r) x : S32768x1024.Idx)
        = ix2 (Cert.Spec.qkRow ((((cfg0.win 2).blk t).view.emb j) 0) j' r) y := by
    intro x y hxy
    funext ax
    apply Fin.ext
    match ax with
    | ⟨0, _⟩ =>
      show (t.val - 15 + j'.val) * 1024 + r.val = (((((cfg0.win 2).blk t).view.emb j) 0).val * 16 + j'.val) * 1024 + r.val
      rw [i0]; have := j'.isLt; omega
    | ⟨1, _⟩ => exact hxy
  rw [er (j 1) ((((cfg0.win 2).blk t).view.emb j) 1) i1.symm, er (j 2) ((((cfg0.win 2).blk t).view.emb j) 2) i2.symm]

/-- REGION 0's OUTPUT ARRAY after the run: the two half sums of QᵀK — the two flushing points' blocks (one slab each)
    cover the array. -/
theorem final0 : (dat0 V c).arrAt 2 cfg0.N = P0 V c :=
  (dat0 V c).arrAt_eq_of_cover 2 (P0 V c) (flushed0_eq V c) fun i => by
    have hN : cfg0.N = 32 := N_0
    have hN' : grid0.N = 32 := N_0
    have hi0 : (i 0).val < 2 := (i 0).isLt
    have hi1 : (i 1).val < 1024 := (i 1).isLt
    have hi2 : (i 2).val < 1024 := (i 2).isLt
    have hlt : 16 * (i 0).val + 15 < cfg0.N := by omega
    refine ⟨⟨16 * (i 0).val + 15, hlt⟩, (flush0_2 _).mpr (by show (16 * (i 0).val + 15) % 16 = 15; omega), ?_⟩
    show i ∈ ((View.whole main_v0).slice (win0_2.rect ⟨16 * (i 0).val + 15, hlt⟩)).set
    rw [View.set_slice_whole, Rect.mem_set_unit]
    intro a
    obtain ⟨-, -, -, -, f0, f1, f2⟩ := idx0_facts ⟨16 * (i 0).val + 15, hlt⟩
    match a with
    | ⟨0, _⟩ =>
      show win0_2.index ⟨16 * (i 0).val + 15, hlt⟩ 0 * 1 ≤ (i 0).val ∧ (i 0).val < win0_2.index ⟨16 * (i 0).val + 15, hlt⟩ 0 * 1 + 1
      rw [f0]; show (16 * (i 0).val + 15) / 16 * 1 ≤ (i 0).val ∧ (i 0).val < (16 * (i 0).val + 15) / 16 * 1 + 1; omega
    | ⟨1, _⟩ =>
      show win0_2.index ⟨16 * (i 0).val + 15, hlt⟩ 1 * 1024 ≤ (i 1).val ∧ (i 1).val < win0_2.index ⟨16 * (i 0).val + 15, hlt⟩ 1 * 1024 + 1024
      rw [f1]; omega
    | ⟨2, _⟩ =>
      show win0_2.index ⟨16 * (i 0).val + 15, hlt⟩ 2 * 1024 ≤ (i 2).val ∧ (i 2).val < win0_2.index ⟨16 * (i 0).val + 15, hlt⟩ 2 * 1024 + 1024
      rw [f2]; omega

end Cert.KernelIdeal.Hand

end
-- ==== Proof.Algebra.lean ====
/- Two facts about the specification's functions over the extended reals: the two half sums of QᵀK add up to QᵀK (a
   finite sum over the 32768 rows split as 2 halves × 16 tiles × 1024 rows: addition of extended reals is commutative
   and associative, so no finiteness is needed); and the perceptron with its biases as one-row matrices is the perceptron. -/
import proofs.«154929_j24000277250146_2_alg».proof.Proof.Spec
import Mathlib.Algebra.BigOperators.Fin
import Mathlib.Logic.Equiv.Fin.Basic

noncomputable section

namespace Cert.Spec

open Idealize.ShloMosaic Idealize.ShloMosaic.ValueIdx

/-- A sum over Fin m re-indexed along an equality of the bounds. -/
theorem sum_fin_cast {M : Type} [AddCommMonoid M] {n m : ℕ} (h : n = m) (F : Fin m → M) :
    ∑ x : Fin m, F x = ∑ y : Fin n, F (Fin.cast h y) := by
  subst h
  rfl

/-- A sum over the 32768 rows is the sum over halves, tiles and rows within a tile. -/
theorem sum_rows_split (F : Fin 32768 → EReal) :
    ∑ n : Fin 32768, F n = ∑ h : Fin 2, ∑ j : Fin 16, ∑ r : Fin 1024, F (qkRow h j r) := by
  rw [sum_fin_cast (by norm_num : 32 * 1024 = 32768) F, ← Equiv.sum_comp finProdFinEquiv, Fintype.sum_prod_type,
    sum_fin_cast (by norm_num : 2 * 16 = 32), ← Equiv.sum_comp finProdFinEquiv, Fintype.sum_prod_type]
  refine Finset.sum_congr rfl fun h _ => Finset.sum_congr rfl fun j _ => Finset.sum_congr rfl fun r _ => ?_
  congr 1
  apply Fin.ext
  show r.val + 1024 * (j.val + 16 * h.val) = (h.val * 16 + j.val) * 1024 + r.val
  ring

/-- The two half sums add up to QᵀK. -/
theorem halfSum_qkHalf (q k : Sq.Idx → EReal) : halfSum (qkHalf q k) = qk q k := by
  funext i
  unfold halfSum qkHalf qk
  rw [sum_rows_split, Fin.sum_univ_two]

/-- The perceptron with one-row bias matrices that hold the bias vectors is the perceptron. -/
theorem mlpR_eq (x : Sq.Idx → EReal) (w1 : Sw1.Idx → EReal) (b1 : Sb1.Idx → EReal) (w2 : Sw2.Idx → EReal) (b2 : Sb2.Idx → EReal)
    (b1r : Sb1r.Idx → EReal) (b2r : Sb2r.Idx → EReal)
    (h1 : ∀ h : Fin 4096, b1r (ix2 (0 : Fin 1) h) = b1 (ix1 h)) (h2 : ∀ d : Fin 1024, b2r (ix2 (0 : Fin 1) d) = b2 (ix1 d)) :
    mlpR x w1 b1r w2 b2r = mlp x w1 b1 w2 b2 := by
  funext i
  obtain ⟨n, d, rfl⟩ : ∃ (n : Fin 32768) (d : Fin 1024), i = ix2 n d := ⟨i 0, i 1, eq_ix2 i⟩
  show (∑ h : Fin 4096, max ((∑ j : Fin 1024, x (ix2 n j) * w1 (ix2 j h)) + b1r (ix2 (0 : Fin 1) h)) zero32 * w2 (ix2 h d)) + b2r (ix2 (0 : Fin 1) d)
     = (∑ h : Fin 4096, max ((∑ j : Fin 1024, x (ix2 n j) * w1 (ix2 j h)) + b1 (ix1 h)) zero32 * w2 (ix2 h d)) + b2 (ix1 d)
  rw [h2]
  congr 1
  exact Finset.sum_congr rfl fun h _ => by rw [h1]

end Cert.Spec

end
-- ==== Proof.KI.ChainA.lean ====
/- The contents of the buffers the later regions read, at the boundaries where they read them, over the extended
   reals: an argument array is what the launch memory held; the host stretches reshape a bias vector to a one-row
   matrix and change a weight matrix's format (the identity on extended reals); region 0 leaves the two half sums. -/
import proofs.«154929_j24000277250146_2_alg».proof.Proof.KI.Frame
import proofs.«154929_j24000277250146_2_alg».proof.Proof.KI.V0
import proofs.«154929_j24000277250146_2_alg».proof.Proof.Algebra
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg) (c : Dev nD)

theorem Wd2_main_arg2 : Wd2 m ρ c (Proc.devRef .tc main_arg2) = m ((c : Thread nD τ).loc main_arg2) :=
  calc Wd2 m ρ c (Proc.devRef .tc main_arg2)
    _ = Wd1 m ρ c (Proc.devRef .tc main_arg2) := Wd2_of_ne m ρ c main_arg2 (by decide)
    _ = Wd0 m ρ c (Proc.devRef .tc main_arg2) := Wd1_of_ne m ρ c main_arg2 (by decide)
    _ = m ((c : Thread nD τ).loc main_arg2) := rfl

theorem Wd3_main_arg3 : Wd3 m ρ c (Proc.devRef .tc main_arg3) = m ((c : Thread nD τ).loc main_arg3) :=
  calc Wd3 m ρ c (Proc.devRef .tc main_arg3)
    _ = Wd2 m ρ c (Proc.devRef .tc main_arg3) := Wd3_of_ne m ρ c main_arg3 (by decide)
    _ = Wd1 m ρ c (Proc.devRef .tc main_arg3) := Wd2_of_ne m ρ c main_arg3 (by decide)
    _ = Wd0 m ρ c (Proc.devRef .tc main_arg3) := Wd1_of_ne m ρ c main_arg3 (by decide)
    _ = m ((c : Thread nD τ).loc main_arg3) := rfl

theorem Wd3_main_arg4 : Wd3 m ρ c (Proc.devRef .tc main_arg4) = m ((c : Thread nD τ).loc main_arg4) :=
  calc Wd3 m ρ c (Proc.devRef .tc main_arg4)
    _ = Wd2 m ρ c (Proc.devRef .tc main_arg4) := Wd3_of_ne m ρ c main_arg4 (by decide)
    _ = Wd1 m ρ c (Proc.devRef .tc main_arg4) := Wd2_of_ne m ρ c main_arg4 (by decide)
    _ = Wd0 m ρ c (Proc.devRef .tc main_arg4) := Wd1_of_ne m ρ c main_arg4 (by decide)
    _ = m ((c : Thread nD τ).loc main_arg4) := rfl

theorem Wd3_main_arg5 : Wd3 m ρ c (Proc.devRef .tc main_arg5) = m ((c : Thread nD τ).loc main_arg5) :=
  calc Wd3 m ρ c (Proc.devRef .tc main_arg5)
    _ = Wd2 m ρ c (Proc.devRef .tc main_arg5) := Wd3_of_ne m ρ c main_arg5 (by decide)
    _ = Wd1 m ρ c (Proc.devRef .tc main_arg5) := Wd2_of_ne m ρ c main_arg5 (by decide)
    _ = Wd0 m ρ c (Proc.devRef .tc main_arg5) := Wd1_of_ne m ρ c main_arg5 (by decide)
    _ = m ((c : Thread nD τ).loc main_arg5) := rfl

theorem Wd3_main_arg6 : Wd3 m ρ c (Proc.devRef .tc main_arg6) = m ((c : Thread nD τ).loc main_arg6) :=
  calc Wd3 m ρ c (Proc.devRef .tc main_arg6)
    _ = Wd2 m ρ c (Proc.devRef .tc main_arg6) := Wd3_of_ne m ρ c main_arg6 (by decide)
    _ = Wd1 m ρ c (Proc.devRef .tc main_arg6) := Wd2_of_ne m ρ c main_arg6 (by decide)
    _ = Wd0 m ρ c (Proc.devRef .tc main_arg6) := Wd1_of_ne m ρ c main_arg6 (by decide)
    _ = m ((c : Thread nD τ).loc main_arg6) := rfl

theorem Wd5_main_arg7 : Wd5 m ρ c (Proc.devRef .tc main_arg7) = m ((c : Thread nD τ).loc main_arg7) :=
  calc Wd5 m ρ c (Proc.devRef .tc main_arg7)
    _ = Wd4 m ρ c (Proc.devRef .tc main_arg7) := Wd5_of_ne m ρ c main_arg7 (by decide)
    _ = Wd3 m ρ c (Proc.devRef .tc main_arg7) := StableHlo.after_of_writes_sub hostOps3 _ hostOps3_writes (by decide : main_arg7 ∉ hostOps3_W)
    _ = Wd2 m ρ c (Proc.devRef .tc main_arg7) := Wd3_of_ne m ρ c main_arg7 (by decide)
    _ = Wd1 m ρ c (Proc.devRef .tc main_arg7) := Wd2_of_ne m ρ c main_arg7 (by decide)
    _ = Wd0 m ρ c (Proc.devRef .tc main_arg7) := Wd1_of_ne m ρ c main_arg7 (by decide)
    _ = m ((c : Thread nD τ).loc main_arg7) := rfl

theorem Wd5_main_arg8 : Wd5 m ρ c (Proc.devRef .tc main_arg8) = m ((c : Thread nD τ).loc main_arg8) :=
  calc Wd5 m ρ c (Proc.devRef .tc main_arg8)
    _ = Wd4 m ρ c (Proc.devRef .tc main_arg8) := Wd5_of_ne m ρ c main_arg8 (by decide)
    _ = Wd3 m ρ c (Proc.devRef .tc main_arg8) := StableHlo.after_of_writes_sub hostOps3 _ hostOps3_writes (by decide : main_arg8 ∉ hostOps3_W)
    _ = Wd2 m ρ c (Proc.devRef .tc main_arg8) := Wd3_of_ne m ρ c main_arg8 (by decide)
    _ = Wd1 m ρ c (Proc.devRef .tc main_arg8) := Wd2_of_ne m ρ c main_arg8 (by decide)
    _ = Wd0 m ρ c (Proc.devRef .tc main_arg8) := Wd1_of_ne m ρ c main_arg8 (by decide)
    _ = m ((c : Thread nD τ).loc main_arg8) := rfl

theorem Wd5_main_arg9 : Wd5 m ρ c (Proc.devRef .tc main_arg9) = m ((c : Thread nD τ).loc main_arg9) :=
  calc Wd5 m ρ c (Proc.devRef .tc main_arg9)
    _ = Wd4 m ρ c (Proc.devRef .tc main_arg9) := Wd5_of_ne m ρ c main_arg9 (by decide)
    _ = Wd3 m ρ c (Proc.devRef .tc main_arg9) := StableHlo.after_of_writes_sub hostOps3 _ hostOps3_writes (by decide : main_arg9 ∉ hostOps3_W)
    _ = Wd2 m ρ c (Proc.devRef .tc main_arg9) := Wd3_of_ne m ρ c main_arg9 (by decide)
    _ = Wd1 m ρ c (Proc.devRef .tc main_arg9) := Wd2_of_ne m ρ c main_arg9 (by decide)
    _ = Wd0 m ρ c (Proc.devRef .tc main_arg9) := Wd1_of_ne m ρ c main_arg9 (by decide)
    _ = m ((c : Thread nD τ).loc main_arg9) := rfl

theorem Wd5_main_arg10 : Wd5 m ρ c (Proc.devRef .tc main_arg10) = m ((c : Thread nD τ).loc main_arg10) :=
  calc Wd5 m ρ c (Proc.devRef .tc main_arg10)
    _ = Wd4 m ρ c (Proc.devRef .tc main_arg10) := Wd5_of_ne m ρ c main_arg10 (by decide)
    _ = Wd3 m ρ c (Proc.devRef .tc main_arg10) := StableHlo.after_of_writes_sub hostOps3 _ hostOps3_writes (by decide : main_arg10 ∉ hostOps3_W)
    _ = Wd2 m ρ c (Proc.devRef .tc main_arg10) := Wd3_of_ne m ρ c main_arg10 (by decide)
    _ = Wd1 m ρ c (Proc.devRef .tc main_arg10) := Wd2_of_ne m ρ c main_arg10 (by decide)
    _ = Wd0 m ρ c (Proc.devRef .tc main_arg10) := Wd1_of_ne m ρ c main_arg10 (by decide)
    _ = m ((c : Thread nD τ).loc main_arg10) := rfl

/-- The argument arrays as arrays over the extended reals. -/
abbrev aQ : Vec Ideal S32768x1024 .f32 := m ((c : Thread nD τ).loc main_arg0)
abbrev aK : Vec Ideal S32768x1024 .f32 := m ((c : Thread nD τ).loc main_arg1)
abbrev aV : Vec Ideal S32768x1024 .f32 := m ((c : Thread nD τ).loc main_arg2)

/-- Region 0 leaves the two half sums of QᵀK in its output array. -/
theorem Wd1_v0 : Wd1 m ρ c (Proc.devRef .tc main_v0) = Cert.Spec.qkHalf (aQ m c) (aK m c) :=
  (Wd1_arr m ρ c 2).trans (final0 (Ve0 m ρ) c)

/-! ## The host stretches -/

theorem Wd4_v2 : Wd4 m ρ c (Proc.devRef .tc main_v2) = Wd3 m ρ c (Proc.devRef .tc main_v2) :=
  StableHlo.after_of_writes_sub hostOps3 _ hostOps3_writes (by decide : main_v2 ∉ hostOps3_W)
theorem Wd6_v2 : Wd6 m ρ c (Proc.devRef .tc main_v2) = Wd5 m ρ c (Proc.devRef .tc main_v2) :=
  StableHlo.after_of_writes_sub hostOps4 _ hostOps4_writes (by decide : main_v2 ∉ hostOps4_W)
theorem Wd6_v7 : Wd6 m ρ c (Proc.devRef .tc main_v7) = Wd5 m ρ c (Proc.devRef .tc main_v7) :=
  StableHlo.after_of_writes_sub hostOps4 _ hostOps4_writes (by decide : main_v7 ∉ hostOps4_W)
/-- Region 3 hands its row-tile input back as found. -/
theorem Wd5_v2 : Wd5 m ρ c (Proc.devRef .tc main_v2) = Wd4 m ρ c (Proc.devRef .tc main_v2) :=
  (Wd5_arr m ρ c 0).trans (((dat3 (Ve4 m ρ) c).arrAt_in 0 rfl _).trans (A_eq3 (Ve4 m ρ) c 0))

theorem Wd4_v3 : Wd4 m ρ c (Proc.devRef .tc main_v3) = shapeCast S1x4096 (Wd3 m ρ c (Proc.devRef .tc main_arg4)) shapeCasts_S4096_S1x4096 := by
  show StableHlo.after hostOps3 (Wd3 m ρ c) (Proc.devRef .tc main_v3) = _
  after_results
  rfl
theorem Wd4_v4 : Wd4 m ρ c (Proc.devRef .tc main_v4) = shapeCast S1x1024 (Wd3 m ρ c (Proc.devRef .tc main_arg6)) shapeCasts_S1024_S1x1024 := by
  show StableHlo.after hostOps3 (Wd3 m ρ c) (Proc.devRef .tc main_v4) = _
  after_results
  rfl
theorem Wd4_v5 : Wd4 m ρ c (Proc.devRef .tc main_v5) = truncf (F := Ideal) .bf16 (Wd3 m ρ c (Proc.devRef .tc main_arg3)) bitsLt_bf16_f32 := by
  show StableHlo.after hostOps3 (Wd3 m ρ c) (Proc.devRef .tc main_v5) = _
  after_results
theorem Wd4_v6 : Wd4 m ρ c (Proc.devRef .tc main_v6) = truncf (F := Ideal) .bf16 (Wd3 m ρ c (Proc.devRef .tc main_arg5)) bitsLt_bf16_f32 := by
  show StableHlo.after hostOps3 (Wd3 m ρ c) (Proc.devRef .tc main_v6) = _
  after_results
theorem Wd6_v8 : Wd6 m ρ c (Proc.devRef .tc main_v8) = shapeCast S1x4096 (Wd5 m ρ c (Proc.devRef .tc main_arg8)) shapeCasts_S4096_S1x4096 := by
  show StableHlo.after hostOps4 (Wd5 m ρ c) (Proc.devRef .tc main_v8) = _
  after_results
  rfl
theorem Wd6_v9 : Wd6 m ρ c (Proc.devRef .tc main_v9) = shapeCast S1x1024 (Wd5 m ρ c (Proc.devRef .tc main_arg10)) shapeCasts_S1024_S1x1024 := by
  show StableHlo.after hostOps4 (Wd5 m ρ c) (Proc.devRef .tc main_v9) = _
  after_results
  rfl
theorem Wd6_v10 : Wd6 m ρ c (Proc.devRef .tc main_v10) = truncf (F := Ideal) .bf16 (Wd5 m ρ c (Proc.devRef .tc main_arg7)) bitsLt_bf16_f32 := by
  show StableHlo.after hostOps4 (Wd5 m ρ c) (Proc.devRef .tc main_v10) = _
  after_results
theorem Wd6_v11 : Wd6 m ρ c (Proc.devRef .tc main_v11) = truncf (F := Ideal) .bf16 (Wd5 m ρ c (Proc.devRef .tc main_arg9)) bitsLt_bf16_f32 := by
  show StableHlo.after hostOps4 (Wd5 m ρ c) (Proc.devRef .tc main_v11) = _
  after_results

/-- A bias vector reshaped to a one-row matrix, read in its row. -/
theorem row4096 (x : Vec Ideal S4096 .f32) (h : Fin 4096) :
    shapeCast S1x4096 x shapeCasts_S4096_S1x4096 (ix2 (0 : Fin 1) h) = x (ix1 h) := by
  refine (shapeCast_addUnit_apply (![4096] : Fin 1 → Nat) x _ (ix2 (0 : Fin 1) h)).trans ?_
  congr 1
  funext ax
  match ax with
  | ⟨0, _⟩ => rfl
theorem row1024 (x : Vec Ideal S1024 .f32) (d : Fin 1024) :
    shapeCast S1x1024 x shapeCasts_S1024_S1x1024 (ix2 (0 : Fin 1) d) = x (ix1 d) := by
  refine (shapeCast_addUnit_apply (![1024] : Fin 1 → Nat) x _ (ix2 (0 : Fin 1) d)).trans ?_
  congr 1
  funext ax
  match ax with
  | ⟨0, _⟩ => rfl

end Cert.KernelIdeal.Hand

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KI.V1.lean ====
/- The value of region 1: its one grid point adds the two half sums, S, forms exp(S − S·δ·c) with δ the identity matrix,
   and takes the softmax of each row through the row's maximum, so the region's result array ends holding the scores
   of the two half sums added at every index. -/
import proofs.«154929_j24000277250146_2_alg».proof.Proof.KI.R1
import proofs.«154929_j24000277250146_2_alg».proof.Proof.Spec
import proofs.«154929_j24000277250146_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The identity matrix as the body computes it -/

/-- Two coordinates below 1024, as 32-bit words, compare equal exactly when they are equal. -/
theorem cmpi_eq_coord1 (p q : Fin 1024) :
    IntOp.cmpi .eq (BitVec.ofNat 32 p.val) (BitVec.ofNat 32 q.val) = if p.val = q.val then 1#1 else 0#1 := by
  unfold IntOp.cmpi
  have hp := p.isLt
  have hq := q.isLt
  by_cases h : p.val = q.val
  · rw [if_pos h, h]; simp
  · rw [if_neg h]
    have hne : BitVec.ofNat 32 p.val ≠ BitVec.ofNat 32 q.val := by
      intro e
      apply h
      have e' := congrArg BitVec.toNat e
      simp only [BitVec.toNat_ofNat] at e'
      omega
    rw [beq_eq_false_iff_ne.mpr hne]
    rfl

/-- The comparison bit, widened to a word and converted, is 1 on the diagonal and 0 off it. -/
theorem delta1_apply (p q : Fin 1024) :
    ((sitofp .f32 (extui 32 (cmpi .eq (iota .tc S1024x1024 32 [0] iota_S1024x1024_d0_w32) (iota .tc S1024x1024 32 [1] iota_S1024x1024_d1_w32)) natLt_1_32) : FVec Ideal S1024x1024 .f32) (ix2 p q) : EReal)
      = Cert.Spec.delta (ix2 p q) := by
  rw [sitofp_apply, extui_apply]
  show FloatOps.sitofp (F := Ideal) .f32 ((IntOp.cmpi .eq (iota .tc S1024x1024 32 [0] iota_S1024x1024_d0_w32 (ix2 p q)) (iota .tc S1024x1024 32 [1] iota_S1024x1024_d1_w32 (ix2 p q))).setWidth 32) = _
  rw [iota_single_apply, iota_single_apply]
  show ((((IntOp.cmpi .eq (BitVec.ofNat 32 p.val) (BitVec.ofNat 32 q.val)).setWidth 32).toInt : ℝ) : EReal) = if p.val = q.val then 1 else 0
  rw [cmpi_eq_coord1]
  by_cases h : p.val = q.val
  · rw [if_pos h, if_pos h]; norm_num
  · rw [if_neg h, if_neg h]; norm_num

/-! ## The body's payload in two stages -/

/-- The first stage: the two slabs added, s, then exp(s − s·δ·c). -/
def lg1 (v0 v2 : Vec Ideal S1x1024x1024 .f32) : FVec Ideal S1024x1024 .f32 :=
  have v1 : FVec Ideal S1024x1024 .f32 := shapeCast S1024x1024 v0 shapeCasts_S1x1024x1024_S1024x1024
  have v3 : FVec Ideal S1024x1024 .f32 := shapeCast S1024x1024 v2 shapeCasts_S1x1024x1024_S1024x1024
  have v4 : FVec Ideal S1024x1024 .f32 := addf v1 v3
  have v5 : IVec S1024x1024 32 := iota .tc S1024x1024 32 [0] iota_S1024x1024_d0_w32
  have v6 : IVec S1024x1024 32 := iota .tc S1024x1024 32 [1] iota_S1024x1024_d1_w32
  have v7 : IVec S1024x1024 1 := cmpi .eq v5 v6
  have v8 : IVec S1024x1024 32 := extui 32 v7 natLt_1_32
  have v9 : FVec Ideal S1024x1024 .f32 := sitofp .f32 v8
  have v10 : FVec Ideal S1024x1024 .f32 := mulf v4 v9
  have cst : Ideal .f32 := Scalar.ofBits .f32 0x3D000000#32
  have v11 : FVec Ideal S1024x1024 .f32 := broadcast S1024x1024 cst
  have v12 : FVec Ideal S1024x1024 .f32 := mulf v10 v11
  have v13 : FVec Ideal S1024x1024 .f32 := subf v4 v12
  exp v13

/-- The second stage: each row less its maximum, exponentiated. -/
def ex1 (L : FVec Ideal S1024x1024 .f32) : FVec Ideal S1024x1024 .f32 :=
  have v15 : FVec Ideal S1024 .f32 := multiReduction .maximumf [1] S1024 L 0xFF800000#32 reduces_S1024x1024_S1024 (.inl rfl) rfl
  have v16 : FVec Ideal S1024x1 .f32 := shapeCast S1024x1 v15 shapeCasts_S1024_S1024x1
  have v17 : FVec Ideal S1024x1024 .f32 := broadcastTo S1024x1024 v16 broadcasts_S1024x1_S1024x1024
  have v18 : FVec Ideal S1024x1024 .f32 := subf L v17
  exp v18

/-- The third stage: each row divided by its sum. -/
def nm1 (E : FVec Ideal S1024x1024 .f32) : FVec Ideal S1024x1024 .bf16 :=
  have v20 : FVec Ideal S1024 .f32 := multiReduction .add [1] S1024 E 0x00000000#32 reduces_S1024x1024_S1024 (.inl rfl) rfl
  have v21 : FVec Ideal S1024x1 .f32 := shapeCast S1024x1 v20 shapeCasts_S1024_S1024x1
  have v22 : FVec Ideal S1024x1024 .f32 := broadcastTo S1024x1024 v21 broadcasts_S1024x1_S1024x1024
  have v23 : FVec Ideal S1024x1024 .f32 := divf E v22
  truncf .bf16 v23 bitsLt_bf16_f32

/-- The payload is the three stages in turn. -/
theorem k1_pay1_eq (v0 v2 : Vec Ideal S1x1024x1024 .f32) : k1_pay1 (F := Ideal) v0 v2 = nm1 (ex1 (lg1 v0 v2)) := rfl

/-- The source index of a row reduction of a [1024, 1024] array: row r, column k. -/
theorem lift_row1 (r k : Fin 1024) : reduces_S1024x1024_S1024.lift (ix1 r) k = ix2 r k :=
  funext fun a => Fin.ext (match a with | ⟨0, _⟩ => rfl | ⟨1, _⟩ => rfl)

/-- The first stage at (p, q) is the specification's logit of the added slabs. -/
theorem lg1_apply (v0 v2 : Vec Ideal S1x1024x1024 .f32) (s : Cert.Spec.Sd.Idx → EReal)
    (hs : ∀ p q : Fin 1024, s (ix2 p q) = (v0 (ix3 (0 : Fin 1) p q) : EReal) + (v2 (ix3 (0 : Fin 1) p q) : EReal)) (p q : Fin 1024) :
    (lg1 v0 v2 (ix2 p q) : EReal) = Cert.Spec.logit s (ix2 p q) := by
  unfold lg1 Cert.Spec.logit
  show Ideal.exp (((shapeCast S1024x1024 v0 shapeCasts_S1x1024x1024_S1024x1024 (ix2 p q) : EReal) + (shapeCast S1024x1024 v2 shapeCasts_S1x1024x1024_S1024x1024 (ix2 p q) : EReal))
      - ((shapeCast S1024x1024 v0 shapeCasts_S1x1024x1024_S1024x1024 (ix2 p q) : EReal) + (shapeCast S1024x1024 v2 shapeCasts_S1x1024x1024_S1024x1024 (ix2 p q) : EReal))
        * ((sitofp .f32 (extui 32 (cmpi .eq (iota .tc S1024x1024 32 [0] iota_S1024x1024_d0_w32) (iota .tc S1024x1024 32 [1] iota_S1024x1024_d1_w32)) natLt_1_32) : FVec Ideal S1024x1024 .f32) (ix2 p q) : EReal)
        * Ideal.ofBits .f32 0x3D000000#32) = _
  rw [delta1_apply, shapeCast_1ab_ab_apply, shapeCast_1ab_ab_apply, ← hs p q]

/-- The row maximum of an array that is the specification's logit is the specification's row maximum. -/
theorem rowMax1_apply (L : FVec Ideal S1024x1024 .f32) (s : Cert.Spec.Sd.Idx → EReal)
    (hL : ∀ p q : Fin 1024, (L (ix2 p q) : EReal) = Cert.Spec.logit s (ix2 p q)) (r : Fin 1024) :
    ((multiReduction (F := Ideal) .maximumf [1] S1024 L 0xFF800000#32 reduces_S1024x1024_S1024 (.inl rfl) rfl : FVec Ideal S1024 .f32) (ix1 r) : EReal)
      = Cert.Spec.rowMax s r := by
  refine (Ideal.multiReduction_maximumf_single L _ reduces_S1024x1024_S1024 _ _ (ix1 r)).trans ?_
  have hf : (L ∘ reduces_S1024x1024_S1024.lift (ix1 r) : Fin 1024 → EReal) = fun k => Cert.Spec.logit s (ix2 r k) :=
    funext fun k => by show (L (reduces_S1024x1024_S1024.lift (ix1 r) k) : EReal) = _; rw [lift_row1, hL]
  show (Finset.univ : Finset (Fin 1024)).fold max (Ideal.ofBits .f32 0xFF800000#32) (L ∘ reduces_S1024x1024_S1024.lift (ix1 r) : Fin 1024 → EReal) = _
  rw [hf]; rfl

/-- The second stage at (r, k), of an array that is the specification's logit, is the specification's expo. -/
theorem ex1_apply (L : FVec Ideal S1024x1024 .f32) (s : Cert.Spec.Sd.Idx → EReal)
    (hL : ∀ p q : Fin 1024, (L (ix2 p q) : EReal) = Cert.Spec.logit s (ix2 p q)) (r k : Fin 1024) :
    (ex1 L (ix2 r k) : EReal) = Cert.Spec.expo s (ix2 r k) := by
  unfold ex1
  show Ideal.exp ((L (ix2 r k) : EReal) - ((broadcastTo S1024x1024 (shapeCast S1024x1 (multiReduction (F := Ideal) .maximumf [1] S1024 L 0xFF800000#32 reduces_S1024x1024_S1024 (.inl rfl) rfl : FVec Ideal S1024 .f32) shapeCasts_S1024_S1024x1) broadcasts_S1024x1_S1024x1024 : FVec Ideal S1024x1024 .f32) (ix2 r k) : EReal)) = _
  rw [Cert.LibKeepdims.broadcastTo_a1_ab_apply, Cert.LibKeepdims.shapeCast_a_a1_apply, rowMax1_apply L s hL, hL]
  rfl

/-- The row sum of an array that is the specification's expo is the specification's denominator. -/
theorem rowSum1_apply (E : FVec Ideal S1024x1024 .f32) (s : Cert.Spec.Sd.Idx → EReal)
    (hE : ∀ r k : Fin 1024, (E (ix2 r k) : EReal) = Cert.Spec.expo s (ix2 r k)) (r : Fin 1024) :
    ((multiReduction (F := Ideal) .add [1] S1024 E 0x00000000#32 reduces_S1024x1024_S1024 (.inl rfl) rfl : FVec Ideal S1024 .f32) (ix1 r) : EReal)
      = Cert.Spec.denom s r := by
  refine (Ideal.multiReduction_add_single E _ reduces_S1024x1024_S1024 _ _ (ix1 r)).trans ?_
  show ∑ k : Fin 1024, (E (reduces_S1024x1024_S1024.lift (ix1 r) k) : EReal) = ∑ k : Fin 1024, Cert.Spec.expo s (ix2 r k)
  exact Finset.sum_congr rfl fun k _ => by rw [lift_row1, hE]

/-- The third stage at (p, q), of an array that is the specification's expo, is the specification's scores. -/
theorem nm1_apply (E : FVec Ideal S1024x1024 .f32) (s : Cert.Spec.Sd.Idx → EReal)
    (hE : ∀ r k : Fin 1024, (E (ix2 r k) : EReal) = Cert.Spec.expo s (ix2 r k)) (p q : Fin 1024) :
    (nm1 E (ix2 p q) : EReal) = Cert.Spec.scores s (ix2 p q) := by
  unfold nm1
  show Ideal.div (E (ix2 p q) : EReal) ((broadcastTo S1024x1024 (shapeCast S1024x1 (multiReduction (F := Ideal) .add [1] S1024 E 0x00000000#32 reduces_S1024x1024_S1024 (.inl rfl) rfl : FVec Ideal S1024 .f32) shapeCasts_S1024_S1024x1) broadcasts_S1024x1_S1024x1024 : FVec Ideal S1024x1024 .f32) (ix2 p q) : EReal) = _
  rw [Cert.LibKeepdims.broadcastTo_a1_ab_apply, Cert.LibKeepdims.shapeCast_a_a1_apply, rowSum1_apply E s hE, hE]
  rfl

/-- The payload at (p, q) is the specification's scores of the two slabs added. -/
theorem pay1_apply (v0 v2 : Vec Ideal S1x1024x1024 .f32) (s : Cert.Spec.Sd.Idx → EReal)
    (hs : ∀ p q : Fin 1024, s (ix2 p q) = (v0 (ix3 (0 : Fin 1) p q) : EReal) + (v2 (ix3 (0 : Fin 1) p q) : EReal)) (p q : Fin 1024) :
    (k1_pay1 (F := Ideal) v0 v2 (ix2 p q) : EReal) = Cert.Spec.scores s (ix2 p q) := by
  rw [k1_pay1_eq]
  exact nm1_apply _ s (ex1_apply _ s (lg1_apply v0 v2 s hs)) p q

/-! ## From the one block to the array -/

section
variable (V : (c : Dev nD) → (b : Ref sig .tc) → Buf (Elt Ideal) ((c : Thread nD τ).loc b))

theorem zeros_v1 : (![0, 0] : Fin 2 → Nat) = fun _ => 0 := funext fun a => by fin_cases a <;> rfl

/-- The index maps at the one grid point: both windows' blocks are their whole arrays. -/
theorem idx_facts1 : ∀ t : Fin cfg1.N, win1_0.index t (0 : Fin 3) = 0 ∧ win1_0.index t (1 : Fin 3) = 0 ∧ win1_0.index t (2 : Fin 3) = 0
    ∧ win1_1.index t (0 : Fin 2) = 0 ∧ win1_1.index t (1 : Fin 2) = 0 :=
  (by decide +kernel : ∀ t : Fin grid1.N, _)

/-- Slab h of the input block, read at (0, p, q), is the half-sum array at (h, p, q). -/
theorem slab1_0 (c : Dev nD) (t : Fin cfg1.N) (p q : Fin 1024) :
    (View.ld (iblk1 V c 0 t) r1_0 (ix3 (0 : Fin 1) p q) : EReal) = V c main_v0 (ix3 (0 : Fin 2) p q) := by
  obtain ⟨a0, a1, a2, -, -⟩ := idx_facts1 t
  show V c main_v0 (((cfg1.win 0).blk t).view.emb (r1_0.idx (ix3 (0 : Fin 1) p q))) = V c main_v0 (ix3 (0 : Fin 2) p q)
  congr 1; funext a; apply Fin.ext
  match a with
  | ⟨0, _⟩ => show win1_0.index t (0 : Fin 3) * 2 + 1 * (0 + 1 * 0) = 0; omega
  | ⟨1, _⟩ => show win1_0.index t (1 : Fin 3) * 1024 + 1 * (0 + 1 * p.val) = p.val; omega
  | ⟨2, _⟩ => show win1_0.index t (2 : Fin 3) * 1024 + 1 * (0 + 1 * q.val) = q.val; omega

theorem slab1_1 (c : Dev nD) (t : Fin cfg1.N) (p q : Fin 1024) :
    (View.ld (iblk1 V c 0 t) r1_1 (ix3 (0 : Fin 1) p q) : EReal) = V c main_v0 (ix3 (1 : Fin 2) p q) := by
  obtain ⟨a0, a1, a2, -, -⟩ := idx_facts1 t
  show V c main_v0 (((cfg1.win 0).blk t).view.emb (r1_1.idx (ix3 (0 : Fin 1) p q))) = V c main_v0 (ix3 (1 : Fin 2) p q)
  congr 1; funext a; apply Fin.ext
  match a with
  | ⟨0, _⟩ => show win1_0.index t (0 : Fin 3) * 2 + 1 * (1 + 1 * 0) = 1; omega
  | ⟨1, _⟩ => show win1_0.index t (1 : Fin 3) * 1024 + 1 * (0 + 1 * p.val) = p.val; omega
  | ⟨2, _⟩ => show win1_0.index t (2 : Fin 3) * 1024 + 1 * (0 + 1 * q.val) = q.val; omega

/-- What the one point writes back is the whole of scores of the two half sums added, as the region finds them. -/
theorem flushed1_eq (c : Dev nD) (t : Fin cfg1.N) :
    (dat1 V c).flushed 1 t = ((cfg1.win 1).blk t).view.read (Elt Ideal) (Cert.Spec.scores (Cert.Spec.halfSum (V c main_v0))) := by
  show (cfg1.win 1).cut (grid1.coords t) ((dat1 V c).after 1 t) = _
  rw [after1_1]
  unfold out1_1
  rw [View.canon_unit_zero zeros_v1]
  obtain ⟨-, -, -, b0, b1⟩ := idx_facts1 t
  funext j
  have hj0 : (j 0).val < 1024 := (j 0).isLt
  have hj1 : (j 1).val < 1024 := (j 1).isLt
  have hx : (cfg1.win 1).xinj (grid1.coords t) j = ix2 (⟨(j 0).val, hj0⟩ : Fin 1024) (⟨(j 1).val, hj1⟩ : Fin 1024) :=
    funext fun a => match a with | ⟨0, _⟩ => rfl | ⟨1, _⟩ => rfl
  have he : (((cfg1.win 1).blk t).view.emb j : Cert.Spec.Sd.Idx) = ix2 (⟨(j 0).val, hj0⟩ : Fin 1024) (⟨(j 1).val, hj1⟩ : Fin 1024) := by
    funext a; apply Fin.ext
    match a with
    | ⟨0, _⟩ => show win1_1.index t (0 : Fin 2) * 1024 + 1 * (j 0).val = (j 0).val; omega
    | ⟨1, _⟩ => show win1_1.index t (1 : Fin 2) * 1024 + 1 * (j 1).val = (j 1).val; omega
  show (k1_pay1 (F := Ideal) (View.ld (iblk1 V c 0 t) r1_0) (View.ld (iblk1 V c 0 t) r1_1) ((cfg1.win 1).xinj (grid1.coords t) j) : EReal)
      = Cert.Spec.scores (Cert.Spec.halfSum (V c main_v0)) (((cfg1.win 1).blk t).view.emb j : Cert.Spec.Sd.Idx)
  rw [he]
  refine (congrArg (k1_pay1 (F := Ideal) (View.ld (iblk1 V c 0 t) r1_0) (View.ld (iblk1 V c 0 t) r1_1)) hx).trans
    (pay1_apply _ _ (Cert.Spec.halfSum (V c main_v0)) (fun p q => ?_) _ _)
  rw [slab1_0, slab1_1]
  rfl

/-- An index of the score matrix is in the point's block iff each coordinate is in the block's range on its axis. -/
theorem mem_blk1 (t : Fin cfg1.N) (i : S1024x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1).slice (win1_1.rect t)).set ↔ _
  rw [View.set_slice_whole, Rect.mem_set_unit]
  exact Iff.rfl

/-- The one block is the whole score matrix. -/
theorem cover1 (i : S1024x1024.Idx) : ∃ t : Fin cfg1.N, (cfg1.win 1).flush t = true ∧ i ∈ ((cfg1.win 1).blk t).view.set := by
  have hi0 : (i 0).val < 1024 := (i 0).isLt
  have hi1 : (i 1).val < 1024 := (i 1).isLt
  obtain ⟨-, -, -, b0, b1⟩ := idx_facts1 t1_0
  refine ⟨t1_0, flush1_1 t1_0, ?_⟩
  rw [mem_blk1]
  intro a
  match a with
  | ⟨0, _⟩ => show win1_1.index t1_0 (0 : Fin 2) * 1024 ≤ (i 0).val ∧ (i 0).val < win1_1.index t1_0 (0 : Fin 2) * 1024 + 1024; omega
  | ⟨1, _⟩ => show win1_1.index t1_0 (1 : Fin 2) * 1024 ≤ (i 1).val ∧ (i 1).val < win1_1.index t1_0 (1 : Fin 2) * 1024 + 1024; omega

/-- Region 1 leaves scores of the two half sums added in its result array. -/
theorem final1 (c : Dev nD) :
    (dat1 V c).arrAt 1 cfg1.N = Cert.Spec.scores (Cert.Spec.halfSum (V c main_v0)) :=
  (dat1 V c).arrAt_eq_of_cover 1 (Cert.Spec.scores (Cert.Spec.halfSum (V c main_v0))) (fun t _ => flushed1_eq V c t) cover1

end

end Cert.KernelIdeal.Hand

end
-- ==== Proof.KI.V2.lean ====
/- The value of region 2: every grid point multiplies its 1024 rows of the value array by the transposed score matrix,
   so the region's result array ends holding  attn[n, a] = Σ_b V[n, b] · scores[a, b]  at every index. -/
import proofs.«154929_j24000277250146_2_alg».proof.Proof.KI.R2
import proofs.«154929_j24000277250146_2_alg».proof.Proof.Spec
import proofs.«154929_j24000277250146_2_alg».proof.Proof.LibContract
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- The product v0·v2ᵀ: both operands contract their axis 1, the result's axes are the operands' axes 0. -/
abbrev dot2 : DotDims S1024x1024 S1024x1024 S1024x1024 := dot_S1024x1024_S1024x1024_S1024x1024_1_1_0_0_n_n

theorem dot2_lhs0 (j : S1024x1024.Idx) (q : dot2.contr.Idx) : (dot2.lhsIdx j q 0).val = (j 0).val := by
  unfold DotDims.lhsIdx
  rw [dif_neg (show ¬(0 : Fin S1024x1024.rank) ∈ dot2.lhsBatch by decide), dif_pos (show (0 : Fin S1024x1024.rank) ∈ dot2.lhsNonContracting by decide)]
  rfl
theorem dot2_lhs1 (j : S1024x1024.Idx) (q : dot2.contr.Idx) : (dot2.lhsIdx j q 1).val = (q ⟨0, by decide⟩).val :=
  dot2.lhsIdx_val_of_single rfl j q
theorem dot2_rhs0 (j : S1024x1024.Idx) (q : dot2.contr.Idx) : (dot2.rhsIdx j q 0).val = (j 1).val := by
  unfold DotDims.rhsIdx
  rw [dif_neg (show ¬(0 : Fin S1024x1024.rank) ∈ dot2.rhsBatch by decide), dif_pos (show (0 : Fin S1024x1024.rank) ∈ dot2.rhsNonContracting by decide)]
  rfl
theorem dot2_rhs1 (j : S1024x1024.Idx) (q : dot2.contr.Idx) : (dot2.rhsIdx j q 1).val = (q ⟨0, by decide⟩).val :=
  dot2.rhsIdx_val_of_single rfl j q

/-- The body's payload at (p, q): row p of the value block against row q of the score matrix. -/
theorem pay2_apply (x0 : Vec Ideal S1024x1024 .f32) (x1 : Vec Ideal S1024x1024 .bf16) (p q : Fin 1024) :
    (k2_pay1 (F := Ideal) x0 x1 (ix2 p q) : EReal) = ∑ k : Fin 1024, (x0 (ix2 p k) : EReal) * (x1 (ix2 q k) : EReal) := by
  unfold k2_pay1
  rw [truncf_apply, shapeCast_self]
  refine (Cert.Lib.Contract.matmul_zero_single (φ₁ := .bf16) (φ₂ := .bf16) dot2 none 1024 rfl rfl _ _ (ix2 p q) (fun k => ix2 p k) (fun k => ix2 q k) ?_ ?_).trans ?_
  · intro k q' hq
    funext a; apply Fin.ext
    match a with
    | ⟨0, _⟩ => exact dot2_lhs0 _ _
    | ⟨1, _⟩ => exact (dot2_lhs1 _ _).trans hq
  · intro k q' hq
    funext a; apply Fin.ext
    match a with
    | ⟨0, _⟩ => exact dot2_rhs0 _ _
    | ⟨1, _⟩ => exact (dot2_rhs1 _ _).trans hq
  · rfl

/-! ## From the blocks to the array -/

section
variable (V : (c : Dev nD) → (b : Ref sig .tc) → Buf (Elt Ideal) ((c : Thread nD τ).loc b))

theorem zeros_v2 : (![0, 0] : Fin 2 → Nat) = fun _ => 0 := funext fun a => by fin_cases a <;> rfl

/-- The index maps over the grid: point t takes row block t of the value array and of the result, and the whole score matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of attn of the value array and the score matrix as the region finds them. -/
theorem flushed2_eq (c : Dev nD) (t : Fin cfg2.N) :
    (dat2 V c).flushed 2 t = ((cfg2.win 2).blk t).view.read (Elt Ideal) (Cert.Spec.attn (V c main_arg2) (V c main_v1)) := by
  show (cfg2.win 2).cut (grid2.coords t) ((dat2 V c).after 2 t) = _
  rw [after2_2]
  unfold out2_2
  rw [View.canon_unit_zero zeros_v2]
  simp only [View.ld_unit_zero (S := S1024x1024) zeros_v2]
  obtain ⟨e00, e01, e10, e11, e20, e21⟩ := idx_facts2 t
  funext j
  have hj0 : (j 0).val < 1024 := (j 0).isLt
  have hj1 : (j 1).val < 1024 := (j 1).isLt
  have hx : (cfg2.win 2).xinj (grid2.coords t) j = ix2 (⟨(j 0).val, hj0⟩ : Fin 1024) (⟨(j 1).val, hj1⟩ : Fin 1024) :=
    funext fun a => match a with | ⟨0, _⟩ => rfl | ⟨1, _⟩ => rfl
  show (k2_pay1 (F := Ideal) (iblk2 V c 0 t) (iblk2 V c 1 t) ((cfg2.win 2).xinj (grid2.coords t) j) : EReal)
      = Cert.Spec.attn (V c main_arg2) (V c main_v1) (((cfg2.win 2).blk t).view.emb j)
  refine ((congrArg (k2_pay1 (F := Ideal) (iblk2 V c 0 t) (iblk2 V c 1 t)) hx).trans (pay2_apply _ _ _ _)).trans ?_
  unfold Cert.Spec.attn
  refine Finset.sum_congr rfl fun k _ => ?_
  congr 1
  · show V c main_arg2 (((cfg2.win 0).blk t).view.emb (ix2 (⟨(j 0).val, hj0⟩ : Fin 1024) k)) = V c main_arg2 (ix2 ((((cfg2.win 2).blk t).view.emb j) 0) k)
    congr 1; funext a; apply Fin.ext
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 1024 + 1 * k.val = k.val; omega
  · show V c main_v1 (((cfg2.win 1).blk t).view.emb (ix2 (⟨(j 1).val, hj1⟩ : Fin 1024) k)) = V c main_v1 (ix2 ((((cfg2.win 2).blk t).view.emb j) 1) k)
    congr 1; funext a; apply Fin.ext
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 1024 + 1 * k.val = k.val; omega

/-- An index of the result is in point t's block iff each coordinate is in the block's range on its axis. -/
theorem mem_blk2 (t : Fin cfg2.N) (i : S32768x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

/-- Row r of the result lies in the block of point r / 1024. -/
theorem cover2 (i : S32768x1024.Idx) : ∃ t : Fin cfg2.N, (cfg2.win 2).flush t = true ∧ i ∈ ((cfg2.win 2).blk t).view.set := by
  have hi0 : (i 0).val < 32768 := (i 0).isLt
  have hi1 : (i 1).val < 1024 := (i 1).isLt
  have hN : cfg2.N = 32 := N_2
  let t : Fin cfg2.N := ⟨(i 0).val / 1024, by rw [hN]; omega⟩
  obtain ⟨-, -, -, -, e20, e21⟩ := idx_facts2 t
  have ht : t.val = (i 0).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- Region 2 leaves attn of the value array and the score matrix in its result array. -/
theorem final2 (c : Dev nD) :
    (dat2 V c).arrAt 2 cfg2.N = Cert.Spec.attn (V c main_arg2) (V c main_v1) :=
  (dat2 V c).arrAt_eq_of_cover 2 (Cert.Spec.attn (V c main_arg2) (V c main_v1)) (fun t _ => flushed2_eq V c t) cover2

end

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.KI.V3.lean ====
/- The value of region 3 of the kernel program (the first two-layer perceptron): the output array after the region is,
   index by index, relu(x·W₁ + b₁)·W₂ + b₂ of the arrays the region is entered with, the biases being one-row matrices.
   Grid point t holds rows 512t … 512t + 511 of x and the whole of W₁, b₁, W₂, b₂, and writes rows 512t … 512t + 511 of
   the output; the sixty-four row blocks tile the output's 32768 rows. -/
import proofs.«154929_j24000277250146_2_alg».proof.Proof.KI.R3
import proofs.«154929_j24000277250146_2_alg».proof.Proof.Spec
import proofs.«154929_j24000277250146_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! # The body's stored value at an index of its block -/

/-- The first product's dimension numbers are the plain product's, [512, 1024] · [1024, 4096] → [512, 4096]. -/
theorem mlp3_dotA_plain : dot_S512x1024_S1024x4096_S512x4096_1_0_0_1_n_n = DotDims.plain 512 1024 4096 :=
  Cert.Lib.PlainDot.eq_plain _ rfl rfl rfl rfl rfl rfl
/-- The second product's dimension numbers are the plain product's, [512, 4096] · [4096, 1024] → [512, 1024]. -/
theorem mlp3_dotB_plain : dot_S512x4096_S4096x1024_S512x1024_1_0_0_1_n_n = DotDims.plain 512 4096 1024 :=
  Cert.Lib.PlainDot.eq_plain _ rfl rfl rfl rfl rfl rfl

/-- The stored value at (p, q) of the block: Σ_h max(Σ_k x0[p, k] · x1[k, h] + x2[0, h], 0) · x3[h, q] + x4[0, q].
    Both products start from the zero accumulator, each bias row is broadcast over the 512 rows, and the narrowing of
    the hidden layer before the second product is the identity on extended reals. -/
theorem mlp3_pay_apply (x0 : FVec Ideal S512x1024 .bf16) (x1 : FVec Ideal S1024x4096 .bf16) (x2 : FVec Ideal S1x4096 .f32)
    (x3 : FVec Ideal S4096x1024 .bf16) (x4 : FVec Ideal S1x1024 .f32) (p : Fin 512) (q : Fin 1024) :
    k3_pay1 (F := Ideal) x0 x1 x2 x3 x4 (ix2 p q)
      = (∑ h : Fin 4096, max ((∑ k : Fin 1024, x0 (ix2 p k) * x1 (ix2 k h)) + x2 (ix2 (0 : Fin 1) h)) Cert.Spec.zero32 * x3 (ix2 h q))
        + x4 (ix2 (0 : Fin 1) q) := by
  unfold k3_pay1
  simp only [shapeCast_self]
  rw [mlp3_dotA_plain, mlp3_dotB_plain, addf_apply, Cert.Lib.PlainDot.matmul_zero_plain_apply, broadcastTo_1b_ab_apply]
  refine congrArg (· + x4 (ix2 (0 : Fin 1) q)) (Finset.sum_congr rfl fun h _ => ?_)
  refine congrArg (· * x3 (ix2 h q)) ?_
  show (truncf FTy.bf16 _ bitsLt_bf16_f32 : FVec Ideal S512x4096 .bf16) (ix2 p h) = _
  rw [truncf_apply, maximumf_apply, addf_apply, Cert.Lib.PlainDot.matmul_zero_plain_apply, broadcastTo_1b_ab_apply, broadcast_apply]
  rfl

/-! # The windows' blocks as entries of their arrays, and the output array -/

section
variable (V : (c : Dev nD) → (b : Ref sig .tc) → Buf (Elt Ideal) ((c : Thread nD τ).loc b))

theorem mlp3_hz : (![0, 0] : Fin 2 → Nat) = fun _ => 0 := funext fun a => by fin_cases a <;> rfl

/-- The block indices over the grid: at point t the row-tiled windows (the input x and the output) are at block (t, 0),
    every other window at block (0, 0). -/
theorem mlp3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t is row 512t + p of the array, below 32768 = 64 · 512. -/
theorem mlp3_row_lt (t : Fin cfg3.N) (p : Fin 512) : 512 * t.val + p.val < 32768 := by
  have hN : grid3.N = 64 := N_3
  have ht : t.val < grid3.N := t.isLt
  have hp := p.isLt
  omega

/-- The input's block at point t, at (p, k), is the input at (512t + p, k). -/
theorem mlp3_blk0_apply (c : Dev nD) (t : Fin cfg3.N) (p : Fin 512) (k : Fin 1024) :
    iblk3 V c 0 t (ix2 p k) = (V c main_v2 : S32768x1024.Idx → EReal) (ix2 ⟨512 * t.val + p.val, mlp3_row_lt t p⟩ k) := by
  obtain ⟨e0, e1, -⟩ := mlp3_idx_facts t
  unfold iblk3
  rw [View.read_apply]
  show V c main_v2 (((cfg3.win 0).blk t).view.emb (ix2 p k)) = V c main_v2 _
  refine congrArg _ (funext fun a => Fin.ext ?_)
  match a with
  | ⟨0, _⟩ => show win3_0.index t (0 : Fin 2) * 512 + 1 * p.val = 512 * t.val + p.val; rw [e0]; omega
  | ⟨1, _⟩ => show win3_0.index t (1 : Fin 2) * 1024 + 1 * k.val = k.val; rw [e1]; omega

/-- The first weight matrix's block at every point is the whole matrix. -/
theorem mlp3_blk1_apply (c : Dev nD) (t : Fin cfg3.N) (k : Fin 1024) (h : Fin 4096) :
    iblk3 V c 1 t (ix2 k h) = (V c main_v5 : S1024x4096.Idx → EReal) (ix2 k h) := by
  obtain ⟨-, -, e0, e1, -⟩ := mlp3_idx_facts t
  unfold iblk3
  rw [View.read_apply]
  show V c main_v5 (((cfg3.win 1).blk t).view.emb (ix2 k h)) = V c main_v5 _
  refine congrArg _ (funext fun a => Fin.ext ?_)
  match a with
  | ⟨0, _⟩ => show win3_1.index t (0 : Fin 2) * 1024 + 1 * k.val = k.val; rw [e0]; omega
  | ⟨1, _⟩ => show win3_1.index t (1 : Fin 2) * 4096 + 1 * h.val = h.val; rw [e1]; omega

/-- The first bias row's block at every point is the whole row. -/
theorem mlp3_blk2_apply (c : Dev nD) (t : Fin cfg3.N) (u : Fin 1) (h : Fin 4096) :
    iblk3 V c 2 t (ix2 u h) = (V c main_v3 : S1x4096.Idx → EReal) (ix2 u h) := by
  obtain ⟨-, -, -, -, e0, e1, -⟩ := mlp3_idx_facts t
  unfold iblk3
  rw [View.read_apply]
  show V c main_v3 (((cfg3.win 2).blk t).view.emb (ix2 u h)) = V c main_v3 _
  refine congrArg _ (funext fun a => Fin.ext ?_)
  match a with
  | ⟨0, _⟩ => show win3_2.index t (0 : Fin 2) * 1 + 1 * u.val = u.val; rw [e0]; omega
  | ⟨1, _⟩ => show win3_2.index t (1 : Fin 2) * 4096 + 1 * h.val = h.val; rw [e1]; omega

/-- The second weight matrix's block at every point is the whole matrix. -/
theorem mlp3_blk3_apply (c : Dev nD) (t : Fin cfg3.N) (h : Fin 4096) (q : Fin 1024) :
    iblk3 V c 3 t (ix2 h q) = (V c main_v6 : S4096x1024.Idx → EReal) (ix2 h q) := by
  obtain ⟨-, -, -, -, -, -, e0, e1, -⟩ := mlp3_idx_facts t
  unfold iblk3
  rw [View.read_apply]
  show V c main_v6 (((cfg3.win 3).blk t).view.emb (ix2 h q)) = V c main_v6 _
  refine congrArg _ (funext fun a => Fin.ext ?_)
  match a with
  | ⟨0, _⟩ => show win3_3.index t (0 : Fin 2) * 4096 + 1 * h.val = h.val; rw [e0]; omega
  | ⟨1, _⟩ => show win3_3.index t (1 : Fin 2) * 1024 + 1 * q.val = q.val; rw [e1]; omega

/-- The second bias row's block at every point is the whole row. -/
theorem mlp3_blk4_apply (c : Dev nD) (t : Fin cfg3.N) (u : Fin 1) (q : Fin 1024) :
    iblk3 V c 4 t (ix2 u q) = (V c main_v4 : S1x1024.Idx → EReal) (ix2 u q) := by
  obtain ⟨-, -, -, -, -, -, -, -, e0, e1, -⟩ := mlp3_idx_facts t
  unfold iblk3
  rw [View.read_apply]
  show V c main_v4 (((cfg3.win 4).blk t).view.emb (ix2 u q)) = V c main_v4 _
  refine congrArg _ (funext fun a => Fin.ext ?_)
  match a with
  | ⟨0, _⟩ => show win3_4.index t (0 : Fin 2) * 1 + 1 * u.val = u.val; rw [e0]; omega
  | ⟨1, _⟩ => show win3_4.index t (1 : Fin 2) * 1024 + 1 * q.val = q.val; rw [e1]; omega

/-- What point t leaves at (p, q) of its output block: the perceptron of row 512t + p of the input, at column q. -/
theorem mlp3_point (c : Dev nD) (t : Fin cfg3.N) (p : Fin 512) (q : Fin 1024) :
    k3_pay1 (F := Ideal) (iblk3 V c 0 t) (iblk3 V c 1 t) (iblk3 V c 2 t) (iblk3 V c 3 t) (iblk3 V c 4 t) (ix2 p q)
      = Cert.Spec.mlpR (V c main_v2) (V c main_v5) (V c main_v3) (V c main_v6) (V c main_v4) (ix2 ⟨512 * t.val + p.val, mlp3_row_lt t p⟩ q) := by
  refine (mlp3_pay_apply _ _ _ _ _ p q).trans ?_
  simp only [mlp3_blk0_apply, mlp3_blk1_apply, mlp3_blk2_apply, mlp3_blk3_apply, mlp3_blk4_apply]
  rfl

/-- What point t writes back is block t of the perceptron of the arrays as the region finds them. -/
theorem mlp3_flushed_eq (c : Dev nD) (t : Fin cfg3.N) :
    (dat3 V c).flushed 5 t = ((cfg3.win 5).blk t).view.read (Elt Ideal)
      (Cert.Spec.mlpR (V c main_v2) (V c main_v5) (V c main_v3) (V c main_v6) (V c main_v4)) := by
  show (cfg3.win 5).cut (grid3.coords t) ((dat3 V c).after 5 t) = _
  rw [after3_5]
  unfold out3_5
  rw [View.canon_unit_zero mlp3_hz]
  simp only [View.ld_unit_zero (S := S512x1024) mlp3_hz, View.ld_unit_zero (S := S1024x4096) mlp3_hz, View.ld_unit_zero (S := S1x4096) mlp3_hz,
    View.ld_unit_zero (S := S4096x1024) mlp3_hz, View.ld_unit_zero (S := S1x1024) mlp3_hz]
  obtain ⟨-, -, -, -, -, -, -, -, -, -, e0, e1⟩ := mlp3_idx_facts t
  funext j
  obtain ⟨p, q, rfl⟩ : ∃ (p : Fin 512) (q : Fin 1024), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = Cert.Spec.mlpR (V c main_v2) (V c main_v5) (V c main_v3) (V c main_v6) (V c main_v4) (((cfg3.win 5).blk t).view.emb (ix2 p q))
  rw [mlp3_point]
  refine congrArg _ (funext fun a => Fin.ext ?_)
  match a with
  | ⟨0, _⟩ => show 512 * t.val + p.val = win3_5.index t (0 : Fin 2) * 512 + 1 * p.val; rw [e0]; omega
  | ⟨1, _⟩ => show q.val = win3_5.index t (1 : Fin 2) * 1024 + 1 * q.val; rw [e1]; omega

/-- An index of the output array is in point t's block iff each coordinate is in the block's range on its axis. -/
theorem mlp3_mem_blk (t : Fin cfg3.N) (i : S32768x1024.Idx) :
    i ∈ ((cfg3.win 5).blk t).view.set ↔ ∀ a : Fin 2, win3_5.index t a * S512x1024.size a ≤ (i a).val ∧ (i a).val < win3_5.index t a * S512x1024.size a + S512x1024.size a := by
  show i ∈ ((View.whole main_v7).slice (win3_5.rect t)).set ↔ _
  rw [View.set_slice_whole, Rect.mem_set_unit]
  exact Iff.rfl

/-- Row r of the output is in the block of point r / 512, and every point writes its block back. -/
theorem mlp3_cover (i : S32768x1024.Idx) : ∃ t : Fin cfg3.N, (cfg3.win 5).flush t = true ∧ i ∈ ((cfg3.win 5).blk t).view.set := by
  have hN : grid3.N = 64 := N_3
  have hi0 : (i 0).val < 32768 := (i 0).isLt
  have hi1 : (i 1).val < 1024 := (i 1).isLt
  let t : Fin cfg3.N := ⟨(i 0).val / 512, by show (i 0).val / 512 < grid3.N; omega⟩
  have ht : t.val = (i 0).val / 512 := rfl
  obtain ⟨-, -, -, -, -, -, -, -, -, -, e0, e1⟩ := mlp3_idx_facts t
  refine ⟨t, flush3_5 t, ?_⟩
  rw [mlp3_mem_blk]
  intro a
  match a with
  | ⟨0, _⟩ => show win3_5.index t (0 : Fin 2) * 512 ≤ (i 0).val ∧ (i 0).val < win3_5.index t (0 : Fin 2) * 512 + 512; rw [e0, ht]; omega
  | ⟨1, _⟩ => show win3_5.index t (1 : Fin 2) * 1024 ≤ (i 1).val ∧ (i 1).val < win3_5.index t (1 : Fin 2) * 1024 + 1024; rw [e1]; omega

/-- The output array after the region: the perceptron, index by index, of the arrays the region is entered with. -/
theorem final3 (c : Dev nD) :
    (dat3 V c).arrAt 5 cfg3.N = Cert.Spec.mlpR (V c main_v2) (V c main_v5) (V c main_v3) (V c main_v6) (V c main_v4) :=
  (dat3 V c).arrAt_eq_of_cover 5 _ (fun t _ => mlp3_flushed_eq V c t) (mlp3_cover)

end

end Cert.KernelIdeal.Hand

end
-- ==== Proof.KI.V4.lean ====
/- The value of region 4 of the kernel program (the second two-layer perceptron): the output array after the region is,
   index by index, relu(x·W₁ + b₁)·W₂ + b₂ of the arrays the region is entered with, the biases being one-row matrices.
   Grid point t holds rows 512t … 512t + 511 of x and the whole of W₁, b₁, W₂, b₂, and writes rows 512t … 512t + 511 of
   the output; the sixty-four row blocks tile the output's 32768 rows. -/
import proofs.«154929_j24000277250146_2_alg».proof.Proof.KI.R4
import proofs.«154929_j24000277250146_2_alg».proof.Proof.Spec
import proofs.«154929_j24000277250146_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! # The body's stored value at an index of its block -/

/-- The first product's dimension numbers are the plain product's, [512, 1024] · [1024, 4096] → [512, 4096]. -/
theorem mlp4_dotA_plain : dot_S512x1024_S1024x4096_S512x4096_1_0_0_1_n_n = DotDims.plain 512 1024 4096 :=
  Cert.Lib.PlainDot.eq_plain _ rfl rfl rfl rfl rfl rfl
/-- The second product's dimension numbers are the plain product's, [512, 4096] · [4096, 1024] → [512, 1024]. -/
theorem mlp4_dotB_plain : dot_S512x4096_S4096x1024_S512x1024_1_0_0_1_n_n = DotDims.plain 512 4096 1024 :=
  Cert.Lib.PlainDot.eq_plain _ rfl rfl rfl rfl rfl rfl

/-- The stored value at (p, q) of the block: Σ_h max(Σ_k x0[p, k] · x1[k, h] + x2[0, h], 0) · x3[h, q] + x4[0, q].
    Both products start from the zero accumulator, each bias row is broadcast over the 512 rows, and the narrowing of
    the hidden layer before the second product is the identity on extended reals. -/
theorem mlp4_pay_apply (x0 : FVec Ideal S512x1024 .bf16) (x1 : FVec Ideal S1024x4096 .bf16) (x2 : FVec Ideal S1x4096 .f32)
    (x3 : FVec Ideal S4096x1024 .bf16) (x4 : FVec Ideal S1x1024 .f32) (p : Fin 512) (q : Fin 1024) :
    k4_pay1 (F := Ideal) x0 x1 x2 x3 x4 (ix2 p q)
      = (∑ h : Fin 4096, max ((∑ k : Fin 1024, x0 (ix2 p k) * x1 (ix2 k h)) + x2 (ix2 (0 : Fin 1) h)) Cert.Spec.zero32 * x3 (ix2 h q))
        + x4 (ix2 (0 : Fin 1) q) := by
  unfold k4_pay1
  simp only [shapeCast_self]
  rw [mlp4_dotA_plain, mlp4_dotB_plain, addf_apply, Cert.Lib.PlainDot.matmul_zero_plain_apply, broadcastTo_1b_ab_apply]
  refine congrArg (· + x4 (ix2 (0 : Fin 1) q)) (Finset.sum_congr rfl fun h _ => ?_)
  refine congrArg (· * x3 (ix2 h q)) ?_
  show (truncf FTy.bf16 _ bitsLt_bf16_f32 : FVec Ideal S512x4096 .bf16) (ix2 p h) = _
  rw [truncf_apply, maximumf_apply, addf_apply, Cert.Lib.PlainDot.matmul_zero_plain_apply, broadcastTo_1b_ab_apply, broadcast_apply]
  rfl

/-! # The windows' blocks as entries of their arrays, and the output array -/

section
variable (V : (c : Dev nD) → (b : Ref sig .tc) → Buf (Elt Ideal) ((c : Thread nD τ).loc b))

theorem mlp4_hz : (![0, 0] : Fin 2 → Nat) = fun _ => 0 := funext fun a => by fin_cases a <;> rfl

/-- The block indices over the grid: at point t the row-tiled windows (the input x and the output) are at block (t, 0),
    every other window at block (0, 0). -/
theorem mlp4_idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of block t is row 512t + p of the array, below 32768 = 64 · 512. -/
theorem mlp4_row_lt (t : Fin cfg4.N) (p : Fin 512) : 512 * t.val + p.val < 32768 := by
  have hN : grid4.N = 64 := N_4
  have ht : t.val < grid4.N := t.isLt
  have hp := p.isLt
  omega

/-- The input's block at point t, at (p, k), is the input at (512t + p, k). -/
theorem mlp4_blk0_apply (c : Dev nD) (t : Fin cfg4.N) (p : Fin 512) (k : Fin 1024) :
    iblk4 V c 0 t (ix2 p k) = (V c main_v2 : S32768x1024.Idx → EReal) (ix2 ⟨512 * t.val + p.val, mlp4_row_lt t p⟩ k) := by
  obtain ⟨e0, e1, -⟩ := mlp4_idx_facts t
  unfold iblk4
  rw [View.read_apply]
  show V c main_v2 (((cfg4.win 0).blk t).view.emb (ix2 p k)) = V c main_v2 _
  refine congrArg _ (funext fun a => Fin.ext ?_)
  match a with
  | ⟨0, _⟩ => show win4_0.index t (0 : Fin 2) * 512 + 1 * p.val = 512 * t.val + p.val; rw [e0]; omega
  | ⟨1, _⟩ => show win4_0.index t (1 : Fin 2) * 1024 + 1 * k.val = k.val; rw [e1]; omega

/-- The first weight matrix's block at every point is the whole matrix. -/
theorem mlp4_blk1_apply (c : Dev nD) (t : Fin cfg4.N) (k : Fin 1024) (h : Fin 4096) :
    iblk4 V c 1 t (ix2 k h) = (V c main_v10 : S1024x4096.Idx → EReal) (ix2 k h) := by
  obtain ⟨-, -, e0, e1, -⟩ := mlp4_idx_facts t
  unfold iblk4
  rw [View.read_apply]
  show V c main_v10 (((cfg4.win 1).blk t).view.emb (ix2 k h)) = V c main_v10 _
  refine congrArg _ (funext fun a => Fin.ext ?_)
  match a with
  | ⟨0, _⟩ => show win4_1.index t (0 : Fin 2) * 1024 + 1 * k.val = k.val; rw [e0]; omega
  | ⟨1, _⟩ => show win4_1.index t (1 : Fin 2) * 4096 + 1 * h.val = h.val; rw [e1]; omega

/-- The first bias row's block at every point is the whole row. -/
theorem mlp4_blk2_apply (c : Dev nD) (t : Fin cfg4.N) (u : Fin 1) (h : Fin 4096) :
    iblk4 V c 2 t (ix2 u h) = (V c main_v8 : S1x4096.Idx → EReal) (ix2 u h) := by
  obtain ⟨-, -, -, -, e0, e1, -⟩ := mlp4_idx_facts t
  unfold iblk4
  rw [View.read_apply]
  show V c main_v8 (((cfg4.win 2).blk t).view.emb (ix2 u h)) = V c main_v8 _
  refine congrArg _ (funext fun a => Fin.ext ?_)
  match a with
  | ⟨0, _⟩ => show win4_2.index t (0 : Fin 2) * 1 + 1 * u.val = u.val; rw [e0]; omega
  | ⟨1, _⟩ => show win4_2.index t (1 : Fin 2) * 4096 + 1 * h.val = h.val; rw [e1]; omega

/-- The second weight matrix's block at every point is the whole matrix. -/
theorem mlp4_blk3_apply (c : Dev nD) (t : Fin cfg4.N) (h : Fin 4096) (q : Fin 1024) :
    iblk4 V c 3 t (ix2 h q) = (V c main_v11 : S4096x1024.Idx → EReal) (ix2 h q) := by
  obtain ⟨-, -, -, -, -, -, e0, e1, -⟩ := mlp4_idx_facts t
  unfold iblk4
  rw [View.read_apply]
  show V c main_v11 (((cfg4.win 3).blk t).view.emb (ix2 h q)) = V c main_v11 _
  refine congrArg _ (funext fun a => Fin.ext ?_)
  match a with
  | ⟨0, _⟩ => show win4_3.index t (0 : Fin 2) * 4096 + 1 * h.val = h.val; rw [e0]; omega
  | ⟨1, _⟩ => show win4_3.index t (1 : Fin 2) * 1024 + 1 * q.val = q.val; rw [e1]; omega

/-- The second bias row's block at every point is the whole row. -/
theorem mlp4_blk4_apply (c : Dev nD) (t : Fin cfg4.N) (u : Fin 1) (q : Fin 1024) :
    iblk4 V c 4 t (ix2 u q) = (V c main_v9 : S1x1024.Idx → EReal) (ix2 u q) := by
  obtain ⟨-, -, -, -, -, -, -, -, e0, e1, -⟩ := mlp4_idx_facts t
  unfold iblk4
  rw [View.read_apply]
  show V c main_v9 (((cfg4.win 4).blk t).view.emb (ix2 u q)) = V c main_v9 _
  refine congrArg _ (funext fun a => Fin.ext ?_)
  match a with
  | ⟨0, _⟩ => show win4_4.index t (0 : Fin 2) * 1 + 1 * u.val = u.val; rw [e0]; omega
  | ⟨1, _⟩ => show win4_4.index t (1 : Fin 2) * 1024 + 1 * q.val = q.val; rw [e1]; omega

/-- What point t leaves at (p, q) of its output block: the perceptron of row 512t + p of the input, at column q. -/
theorem mlp4_point (c : Dev nD) (t : Fin cfg4.N) (p : Fin 512) (q : Fin 1024) :
    k4_pay1 (F := Ideal) (iblk4 V c 0 t) (iblk4 V c 1 t) (iblk4 V c 2 t) (iblk4 V c 3 t) (iblk4 V c 4 t) (ix2 p q)
      = Cert.Spec.mlpR (V c main_v2) (V c main_v10) (V c main_v8) (V c main_v11) (V c main_v9) (ix2 ⟨512 * t.val + p.val, mlp4_row_lt t p⟩ q) := by
  refine (mlp4_pay_apply _ _ _ _ _ p q).trans ?_
  simp only [mlp4_blk0_apply, mlp4_blk1_apply, mlp4_blk2_apply, mlp4_blk3_apply, mlp4_blk4_apply]
  rfl

/-- What point t writes back is block t of the perceptron of the arrays as the region finds them. -/
theorem mlp4_flushed_eq (c : Dev nD) (t : Fin cfg4.N) :
    (dat4 V c).flushed 5 t = ((cfg4.win 5).blk t).view.read (Elt Ideal)
      (Cert.Spec.mlpR (V c main_v2) (V c main_v10) (V c main_v8) (V c main_v11) (V c main_v9)) := by
  show (cfg4.win 5).cut (grid4.coords t) ((dat4 V c).after 5 t) = _
  rw [after4_5]
  unfold out4_5
  rw [View.canon_unit_zero mlp4_hz]
  simp only [View.ld_unit_zero (S := S512x1024) mlp4_hz, View.ld_unit_zero (S := S1024x4096) mlp4_hz, View.ld_unit_zero (S := S1x4096) mlp4_hz,
    View.ld_unit_zero (S := S4096x1024) mlp4_hz, View.ld_unit_zero (S := S1x1024) mlp4_hz]
  obtain ⟨-, -, -, -, -, -, -, -, -, -, e0, e1⟩ := mlp4_idx_facts t
  funext j
  obtain ⟨p, q, rfl⟩ : ∃ (p : Fin 512) (q : Fin 1024), j = ix2 p q := ⟨j 0, j 1, eq_ix2 j⟩
  show k4_pay1 (F := Ideal) (iblk4 V c 0 t) (iblk4 V c 1 t) (iblk4 V c 2 t) (iblk4 V c 3 t) (iblk4 V c 4 t) (ix2 p q)
    = Cert.Spec.mlpR (V c main_v2) (V c main_v10) (V c main_v8) (V c main_v11) (V c main_v9) (((cfg4.win 5).blk t).view.emb (ix2 p q))
  rw [mlp4_point]
  refine congrArg _ (funext fun a => Fin.ext ?_)
  match a with
  | ⟨0, _⟩ => show 512 * t.val + p.val = win4_5.index t (0 : Fin 2) * 512 + 1 * p.val; rw [e0]; omega
  | ⟨1, _⟩ => show q.val = win4_5.index t (1 : Fin 2) * 1024 + 1 * q.val; rw [e1]; omega

/-- An index of the output array is in point t's block iff each coordinate is in the block's range on its axis. -/
theorem mlp4_mem_blk (t : Fin cfg4.N) (i : S32768x1024.Idx) :
    i ∈ ((cfg4.win 5).blk t).view.set ↔ ∀ a : Fin 2, win4_5.index t a * S512x1024.size a ≤ (i a).val ∧ (i a).val < win4_5.index t a * S512x1024.size a + S512x1024.size a := by
  show i ∈ ((View.whole main_v12).slice (win4_5.rect t)).set ↔ _
  rw [View.set_slice_whole, Rect.mem_set_unit]
  exact Iff.rfl

/-- Row r of the output is in the block of point r / 512, and every point writes its block back. -/
theorem mlp4_cover (i : S32768x1024.Idx) : ∃ t : Fin cfg4.N, (cfg4.win 5).flush t = true ∧ i ∈ ((cfg4.win 5).blk t).view.set := by
  have hN : grid4.N = 64 := N_4
  have hi0 : (i 0).val < 32768 := (i 0).isLt
  have hi1 : (i 1).val < 1024 := (i 1).isLt
  let t : Fin cfg4.N := ⟨(i 0).val / 512, by show (i 0).val / 512 < grid4.N; omega⟩
  have ht : t.val = (i 0).val / 512 := rfl
  obtain ⟨-, -, -, -, -, -, -, -, -, -, e0, e1⟩ := mlp4_idx_facts t
  refine ⟨t, flush4_5 t, ?_⟩
  rw [mlp4_mem_blk]
  intro a
  match a with
  | ⟨0, _⟩ => show win4_5.index t (0 : Fin 2) * 512 ≤ (i 0).val ∧ (i 0).val < win4_5.index t (0 : Fin 2) * 512 + 512; rw [e0, ht]; omega
  | ⟨1, _⟩ => show win4_5.index t (1 : Fin 2) * 1024 ≤ (i 1).val ∧ (i 1).val < win4_5.index t (1 : Fin 2) * 1024 + 1024; rw [e1]; omega

/-- The output array after the region: the perceptron, index by index, of the arrays the region is entered with. -/
theorem final4 (c : Dev nD) :
    (dat4 V c).arrAt 5 cfg4.N = Cert.Spec.mlpR (V c main_v2) (V c main_v10) (V c main_v8) (V c main_v11) (V c main_v9) :=
  (dat4 V c).arrAt_eq_of_cover 5 _ (fun t _ => mlp4_flushed_eq V c t) (mlp4_cover)

end

end Cert.KernelIdeal.Hand

end
-- ==== Proof.KI.Chain.lean ====
/- The kernel program's two results as the specification's function of the argument arrays: the regions' output
   arrays chained through the boundaries — the half sums, the scores, attn, and the two perceptrons. -/
import proofs.«154929_j24000277250146_2_alg».proof.Proof.KI.ChainA
import proofs.«154929_j24000277250146_2_alg».proof.Proof.KI.V1
import proofs.«154929_j24000277250146_2_alg».proof.Proof.KI.V2
import proofs.«154929_j24000277250146_2_alg».proof.Proof.KI.V3
import proofs.«154929_j24000277250146_2_alg».proof.Proof.KI.V4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg) (c : Dev nD)

/-- The perceptron over one-row bias matrices, with every operand named by what it equals. -/
theorem mlpR_of (x x' : Cert.Spec.Sq.Idx → EReal) (w1 w1' : Cert.Spec.Sw1.Idx → EReal) (w2 w2' : Cert.Spec.Sw2.Idx → EReal)
    (b1 : Cert.Spec.Sb1.Idx → EReal) (b2 : Cert.Spec.Sb2.Idx → EReal) (b1r : Cert.Spec.Sb1r.Idx → EReal) (b2r : Cert.Spec.Sb2r.Idx → EReal)
    (hx : x' = x) (hw1 : w1' = w1) (hw2 : w2' = w2)
    (h1 : ∀ h : Fin 4096, b1r (ix2 (0 : Fin 1) h) = b1 (ix1 h)) (h2 : ∀ d : Fin 1024, b2r (ix2 (0 : Fin 1) d) = b2 (ix1 d)) :
    Cert.Spec.mlpR x' w1' b1r w2' b2r = Cert.Spec.mlp x w1 b1 w2 b2 := by
  subst hx hw1 hw2
  exact Cert.Spec.mlpR_eq _ _ _ _ _ _ _ h1 h2

/-- The scores, after region 1. -/
abbrev sS : Cert.Spec.Sd.Idx → EReal := Cert.Spec.scores (Cert.Spec.qk (aQ m c) (aK m c))
/-- attn, after region 2. -/
abbrev sA : Cert.Spec.Sq.Idx → EReal := Cert.Spec.attn (aV m c) (sS m c)

theorem Wd2_v1 : Wd2 m ρ c (Proc.devRef .tc main_v1) = sS m c :=
  (Wd2_arr m ρ c 1).trans ((final1 (Ve1 m ρ) c).trans
    ((congrArg (fun p => Cert.Spec.scores (Cert.Spec.halfSum p)) (Wd1_v0 m ρ c)).trans
      (congrArg Cert.Spec.scores (Cert.Spec.halfSum_qkHalf _ _))))

theorem Wd3_v2 : Wd3 m ρ c (Proc.devRef .tc main_v2) = sA m c :=
  (Wd3_arr m ρ c 2).trans ((final2 (Ve2 m ρ) c).trans
    (congrArg₂ Cert.Spec.attn (Wd2_main_arg2 m ρ c) (Wd2_v1 m ρ c)))

theorem Wd4_v2' : Wd4 m ρ c (Proc.devRef .tc main_v2) = sA m c := (Wd4_v2 m ρ c).trans (Wd3_v2 m ρ c)
theorem Wd6_v2' : Wd6 m ρ c (Proc.devRef .tc main_v2) = sA m c :=
  (Wd6_v2 m ρ c).trans ((Wd5_v2 m ρ c).trans (Wd4_v2' m ρ c))

/-- The first result, after region 3. -/
theorem Wd7_v7 : Wd7 m ρ c (Proc.devRef .tc main_v7)
    = Cert.Spec.result (aQ m c) (aK m c) (aV m c) (m ((c : Thread nD τ).loc main_arg3)) (m ((c : Thread nD τ).loc main_arg4))
        (m ((c : Thread nD τ).loc main_arg5)) (m ((c : Thread nD τ).loc main_arg6)) :=
  (Wd7_of_ne m ρ c main_v7 (by decide)).trans ((Wd6_v7 m ρ c).trans ((Wd5_arr m ρ c 5).trans ((final3 (Ve4 m ρ) c).trans
    (mlpR_of _ _ _ _ _ _ _ _ _ _ (Wd4_v2' m ρ c)
      ((Wd4_v5 m ρ c).trans (Wd3_main_arg3 m ρ c))
      ((Wd4_v6 m ρ c).trans (Wd3_main_arg5 m ρ c))
      (fun h => (congrFun (Wd4_v3 m ρ c) _).trans ((row4096 _ h).trans (congrFun (Wd3_main_arg4 m ρ c) _)))
      (fun d => (congrFun (Wd4_v4 m ρ c) _).trans ((row1024 _ d).trans (congrFun (Wd3_main_arg6 m ρ c) _)))))))

/-- The second result, after region 4. -/
theorem Wd7_v12 : Wd7 m ρ c (Proc.devRef .tc main_v12)
    = Cert.Spec.result (aQ m c) (aK m c) (aV m c) (m ((c : Thread nD τ).loc main_arg7)) (m ((c : Thread nD τ).loc main_arg8))
        (m ((c : Thread nD τ).loc main_arg9)) (m ((c : Thread nD τ).loc main_arg10)) :=
  (Wd7_arr m ρ c 5).trans ((final4 (Ve6 m ρ) c).trans
    (mlpR_of _ _ _ _ _ _ _ _ _ _ (Wd6_v2' m ρ c)
      ((Wd6_v10 m ρ c).trans (Wd5_main_arg7 m ρ c))
      ((Wd6_v11 m ρ c).trans (Wd5_main_arg9 m ρ c))
      (fun h => (congrFun (Wd6_v8 m ρ c) _).trans ((row4096 _ h).trans (congrFun (Wd5_main_arg8 m ρ c) _)))
      (fun d => (congrFun (Wd6_v9 m ρ c) _).trans ((row1024 _ d).trans (congrFun (Wd5_main_arg10 m ρ c) _)))))

/-- THE RUN, READ: every weakly fair execution of the kernel program terminates with its two results at the specification's
    function of the argument arrays, the arguments unchanged. -/
theorem run_spec : θ_run defs (onTc (τ := τ) (main (F := Ideal))) ⟨m, fun _ => 0, ρ⟩ (fun r => ∀ c : Dev nD,
      r.2.mem ((c.tc : Thread nD τ).loc main_v7)
        = Cert.Spec.result (aQ m c) (aK m c) (aV m c) (m ((c : Thread nD τ).loc main_arg3)) (m ((c : Thread nD τ).loc main_arg4))
            (m ((c : Thread nD τ).loc main_arg5)) (m ((c : Thread nD τ).loc main_arg6))
      ∧ r.2.mem ((c.tc : Thread nD τ).loc main_v12)
        = Cert.Spec.result (aQ m c) (aK m c) (aV m c) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (Wd7_v7 m ρ c), (h c).2.1.trans (Wd7_v12 m ρ c), (h c).2.2⟩) (run_results m ρ)

end Cert.KernelIdeal.Hand

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibRowFold.lean ====
/-
  A HOST REDUCTION ALONG THE LAST AXIS OF A MATRIX, READ AT A ROW — generic in the two extents.

  A one-operand `stablehlo.reduce` of an [A, B] array along axis 1 whose body is commutative and associative (a maximum,
  a minimum) computes, at row j, the fold of the body from the initial value over the B entries of row j — in any order,
  since the body is commutative and associative:

  * `reduce_row_fold`  — Host.reduce f x init … j = (Finset.univ : Finset (Fin B)).fold f (init ·) (fun k => x (ix2 (j 0) k));
  * `fold_maximumf`    — over the extended reals the fold by the float maximum is the fold by `max`.

  Nothing here depends on a program.
-/
import Idealize.ShloMosaic.PureOps.Ideal
import Idealize.ShloMosaic.PureOps.Ideal.Laws
import Idealize.ShloMosaic.PureOps.Reduce
import Idealize.ShloMosaic.Lib.ValueIdx

noncomputable section

namespace Cert.Lib.RowFold

open Idealize.ShloMosaic Idealize.ShloMosaic.ValueIdx

/-- A one-operand reduce of an [A, B] array along axis 1 with a commutative associative body is, at row j, the fold
    from the initial value over the row's entries. -/
theorem reduce_row_fold {A B : Nat} (f : EReal → EReal → EReal) [Std.Commutative f] [Std.Associative f]
    (h' : (⟨2, ![A, B]⟩ : Shape).ReducesTo [1] ⟨1, ![A]⟩) (h : (⟨2, ![A, B]⟩ : Shape).Reduces [1] ⟨1, ![A]⟩)
    (x : (⟨2, ![A, B]⟩ : Shape).Idx → EReal) (init : (⟨0, ![]⟩ : Shape).Idx → EReal)
    (hu : 0 < (⟨0, ![]⟩ : Shape).numel) (j : (⟨1, ![A]⟩ : Shape).Idx) :
    Host.reduce f x init h' hu j
      = (Finset.univ : Finset (Fin B)).fold f (init (Shape.Idx.first hu)) (fun k => x (ix2 (j 0) k)) := by
  rw [Host.reduce_eq_fold_single f x init h' h hu j]
  show (Finset.univ : Finset (Fin B)).fold f (init (Shape.Idx.first hu)) (x ∘ h.lift j) = _
  refine congrArg (fun g => (Finset.univ : Finset (Fin B)).fold f _ g) (funext fun k => congrArg x ?_)
  exact funext fun a => Fin.ext (by match a with | ⟨0, _⟩ => rfl | ⟨1, _⟩ => rfl)

/-- At the ideal values the fold by the float maximum is the fold by max. -/
theorem fold_maximumf {ι : Type} (s : Finset ι) (b : EReal) (g : ι → EReal) :
    s.fold (FloatOps.maximumf (F := Ideal) (φ := .f32)) b g = s.fold max b g := rfl

end Cert.Lib.RowFold

end
-- ==== Proof.Ref.lean ====
/- The reference program's results as the specification's function of its arguments, stage by stage:
   S = QᵀK; the identity matrix from two iotas, and division by 32 as multiplication by 1/32; the row maximum as a fold of
   max from −∞ over the row; the row sum from the zero word; the softmax; attn through the two transposes; and the two-layer
   perceptron, proved once over any input array and parameters and used for both results. -/
import proofs.«154929_j24000277250146_2_alg».proof.Defs
import proofs.«154929_j24000277250146_2_alg».proof.Proof.Gen.ReferenceIdeal.Read
import proofs.«154929_j24000277250146_2_alg».proof.Proof.Spec
import proofs.«154929_j24000277250146_2_alg».proof.Proof.LibPlainDot
import proofs.«154929_j24000277250146_2_alg».proof.Proof.LibSegSum
import proofs.«154929_j24000277250146_2_alg».proof.Proof.LibRowFold

noncomputable section

namespace Cert.ReferenceIdeal.RefValue

open Cert.ReferenceIdeal Cert.ReferenceIdeal.Gen Cert.ReferenceIdeal.Read Idealize.ShloMosaic Idealize.ShloMosaic.ValueIdx Cert.Lib.RowFold

/-- S = QᵀK: the reference's first product, its left operand the transposed query array. -/
theorem qk_eq (x0 x1 : (⟨S32768x1024, .f32⟩ : BufTy).Contents (Elt Ideal)) :
    val_main_v1 (F := Ideal) x0 x1 = Spec.qk x0 x1 := by
  funext i
  rw [val_main_v1_apply]
  refine Finset.sum_congr rfl fun k _ => ?_
  rw [val_main_v0_apply]
  have e1 : idx_main_v0 (lidx_main_v1 i k) = (ix2 k (i 0) : Spec.Sq.Idx) :=
    funext fun a => Fin.ext (by match a with | ⟨0, _⟩ => rfl | ⟨1, _⟩ => rfl)
  have e2 : ridx_main_v1 i k = (ix2 k (i 1) : Spec.Sq.Idx) :=
    funext fun a => Fin.ext (by match a with | ⟨0, _⟩ => rfl | ⟨1, _⟩ => rfl)
  exact congrArg₂ (fun a b => x0 a * x1 b) e1 e2

/-- Two numbers below 1024 are equal as 32-bit words exactly when they are equal. -/
theorem ofNat_beq (p q : Nat) (hp : p < 1024) (hq : q < 1024) :
    (BitVec.ofNat 32 p == BitVec.ofNat 32 q) = decide (p = q) := by
  by_cases h : p = q
  · subst h; simp
  · have hne : BitVec.ofNat 32 p ≠ BitVec.ofNat 32 q := fun e => h (by
      have e' := congrArg BitVec.toNat e
      rw [BitVec.toNat_ofNat, BitVec.toNat_ofNat, Nat.mod_eq_of_lt (by omega), Nat.mod_eq_of_lt (by omega)] at e'
      exact e')
    simp [h, hne]

/-- The row number plus zero compared with the column number, as a float: the identity matrix's entry. -/
theorem delta_eq (i : S1024x1024.Idx) : val_main_v7 (F := Ideal) i = Spec.delta i := by
  rw [val_main_v7_apply, val_main_v6_apply, val_main_v5_apply, val_main_v2_apply, val_main_v3_apply, val_main_v4_apply,
    val_main_c_apply]
  have h0 := idx2_lt0 i
  have h1 := idx2_lt1 i
  unfold Spec.delta
  generalize (i 0).val = p at h0 ⊢
  generalize (i 1).val = q at h1 ⊢
  show (((IntOp.cmpi .eq (IntOp.addi (BitVec.ofNat 32 p) 0#32) (BitVec.ofNat 32 q)).toNat : ℝ) : EReal) = _
  unfold IntOp.cmpi IntOp.addi
  rw [BitVec.add_zero]
  show (((BitVec.ofBool (BitVec.ofNat 32 p == BitVec.ofNat 32 q)).toNat : ℝ) : EReal) = _
  rw [ofNat_beq p q h0 h1]
  by_cases h : p = q
  · rw [if_pos h, decide_eq_true h]; simp
  · rw [if_neg h, decide_eq_false h]; simp

/-- The word 0x42000000 is 32. -/
theorem ofBits_32 : Ideal.ofBits .f32 0x42000000#32 = ((32 : ℝ) : EReal) := by
  simp [Ideal.ofBits, Ideal.ieee, -EReal.coe_mul]; norm_num

/-- The word 0x3D000000 is 1/32. -/
theorem ofBits_inv32 : Ideal.ofBits .f32 0x3D000000#32 = ((1 / 32 : ℝ) : EReal) := by
  simp [Ideal.ofBits, Ideal.ieee, -EReal.coe_mul]; norm_num

/-- Dividing by 32 is multiplying by 1/32, at the infinities too. -/
theorem div_32 (x : EReal) : Ideal.div x (Ideal.ofBits .f32 0x42000000#32) = x * Spec.c32 := by
  rw [ofBits_32, Ideal.div_coe (by norm_num)]
  exact congrArg (x * ·) ofBits_inv32.symm

/-- exp(S − S·δ/32). -/
theorem logit_eq (x0 x1 : (⟨S32768x1024, .f32⟩ : BufTy).Contents (Elt Ideal)) :
    val_main_v12 (F := Ideal) x0 x1 = Spec.logit (Spec.qk x0 x1) := by
  funext i
  rw [val_main_v12_apply, val_main_v11_apply, val_main_v10_apply, val_main_v8_apply, val_main_v9_apply, val_main_cst_apply,
    delta_eq, qk_eq]
  simp only [Ideal.hostUnary_exp_def, Ideal.subf_def, Ideal.hostDivf_def, Ideal.mulf_def, Ideal.ofBits_def]
  rw [div_32]
  rfl

/-- The shape fact that names a row's entries: [1024, 1024] reduced along axis 1 is [1024]. -/
theorem red_d1 : S1024x1024.Reduces [1] S1024 := by decide

/-- The row maximum, taken from −∞ over the row's entries in any order; taking the maximum with −∞ once more changes nothing. -/
theorem rowMax_eq (x0 x1 : (⟨S32768x1024, .f32⟩ : BufTy).Contents (Elt Ideal)) (j : S1024.Idx) :
    val_main_v15 (F := Ideal) x0 x1 j = Spec.rowMax (Spec.qk x0 x1) (j 0) := by
  rw [val_main_v15_apply, val_main_v14_apply, val_main_cst_1_apply]
  unfold val_main_v13
  rw [logit_eq, reduce_row_fold (FloatOps.maximumf (F := Ideal) (φ := .f32)) reducesTo_S1024x1024_S1024_d1 red_d1 _ _ h_S_ j,
    fold_maximumf, val_main_cst_0_apply]
  simp only [Ideal.ofBits_def, Ideal.maximumf_def]
  unfold Spec.rowMax
  exact max_eq_right ((Finset.le_fold_max _).mpr (Or.inl le_rfl))

/-- exp(logit − the row's maximum), the maximum copied along its row. -/
theorem expo_eq (x0 x1 : (⟨S32768x1024, .f32⟩ : BufTy).Contents (Elt Ideal)) :
    val_main_v19 (F := Ideal) x0 x1 = Spec.expo (Spec.qk x0 x1) := by
  funext i
  rw [val_main_v19_apply, val_main_v18_apply, val_main_v17_apply, val_main_v16_apply, rowMax_eq, logit_eq]
  simp only [Ideal.hostUnary_exp_def, Ideal.subf_def]
  rfl

/-- The row sum: the zero word plus the sum over the row. -/
theorem denom_eq (x0 x1 : (⟨S32768x1024, .f32⟩ : BufTy).Contents (Elt Ideal)) (j : S1024.Idx) :
    val_main_v20 (F := Ideal) x0 x1 j = Spec.denom (Spec.qk x0 x1) (j 0) := by
  rw [val_main_v20_apply, val_main_cst_2_apply, expo_eq]
  simp only [Ideal.ofBits_def, Ideal.ofBits_zero_f32, zero_add]
  unfold Spec.denom
  refine Finset.sum_congr rfl fun k _ => congrArg (Spec.expo (Spec.qk x0 x1)) ?_
  exact funext fun a => Fin.ext (by match a with | ⟨0, _⟩ => rfl | ⟨1, _⟩ => rfl)

/-- The softmax of each row. -/
theorem scores_eq (x0 x1 : (⟨S32768x1024, .f32⟩ : BufTy).Contents (Elt Ideal)) :
    val_main_v23 (F := Ideal) x0 x1 = Spec.scores (Spec.qk x0 x1) := by
  funext i
  rw [val_main_v23_apply, val_main_v22_apply, val_main_v21_apply, denom_eq, expo_eq]
  simp only [Ideal.hostDivf_def]
  rfl

/-- attn = V·scoresᵀ: the reference forms scores·Vᵀ and transposes the product. -/
theorem attn_eq (x0 x1 x2 : (⟨S32768x1024, .f32⟩ : BufTy).Contents (Elt Ideal)) :
    val_main_v26 (F := Ideal) x0 x1 x2 = Spec.attn x2 (Spec.scores (Spec.qk x0 x1)) := by
  funext i
  rw [val_main_v26_apply, val_main_v25_apply, scores_eq]
  unfold Spec.attn
  refine Finset.sum_congr rfl fun k _ => ?_
  rw [val_main_v24_apply, mul_comm]
  have e1 : idx_main_v24 (ridx_main_v25 (idx_main_v26 i) k) = (ix2 (i 0) k : Spec.Sq.Idx) :=
    funext fun a => Fin.ext (by match a with | ⟨0, _⟩ => rfl | ⟨1, _⟩ => rfl)
  have e2 : lidx_main_v25 (idx_main_v26 i) k = (ix2 (i 1) k : Spec.Sd.Idx) :=
    funext fun a => Fin.ext (by match a with | ⟨0, _⟩ => rfl | ⟨1, _⟩ => rfl)
  exact congrArg₂ (fun a b => x2 a * Spec.scores (Spec.qk x0 x1) b) e1 e2

/-- The perceptron's two products are plain matrix products. -/
theorem dot1_plain : dot_S32768x1024_S1024x4096_S32768x4096_1_0_0_1_n_n = DotDims.plain 32768 1024 4096 :=
  Cert.Lib.PlainDot.eq_plain _ rfl rfl rfl rfl rfl rfl
theorem dot2_plain : dot_S32768x4096_S4096x1024_S32768x1024_1_0_0_1_n_n = DotDims.plain 32768 4096 1024 :=
  Cert.Lib.PlainDot.eq_plain _ rfl rfl rfl rfl rfl rfl

/-- The hidden layer at (n, h): relu of the row of x against column h of W₁ plus the bias; relu's zero stays the zero word. -/
theorem hidden_eq (a : FVec Ideal S32768x1024 .f32) (w1 : FVec Ideal S1024x4096 .f32)
    (b1 : FVec Ideal S4096 .f32) (n : Fin 32768) (h : Fin 4096) :
    maximumf (addf (Host.dotGeneral dot_S32768x1024_S1024x4096_S32768x4096_1_0_0_1_n_n none a w1)
        (broadcastInDim S32768x4096 ![0, 1] bcast_S1x4096_S32768x4096_0_1 (broadcastInDim S1x4096 ![1] bcast_S4096_S1x4096_1 b1)))
      (broadcastInDim S32768x4096 ![] bcast_S_S32768x4096 (constant (F := Ideal) S_ .f32 0x00000000#32)) (ix2 n h)
    = Spec.hidden a w1 b1 (ix2 n h) := by
  rw [maximumf_apply, addf_apply, Cert.LibSegSum.bcast_row_apply, dot1_plain, Cert.Lib.PlainDot.dotGeneral_plain_apply,
    broadcastInDim_apply _ bcast_S_S32768x4096 _ (ix2 n h) ix0 (fun a => a.elim0)]
  rfl

/-- The two-layer perceptron, over any input array and parameters. -/
theorem perceptron_eq (a : FVec Ideal S32768x1024 .f32) (w1 : FVec Ideal S1024x4096 .f32)
    (b1 : FVec Ideal S4096 .f32) (w2 : FVec Ideal S4096x1024 .f32)
    (b2 : FVec Ideal S1024 .f32) :
    addf (Host.dotGeneral dot_S32768x4096_S4096x1024_S32768x1024_1_0_0_1_n_n none
        (maximumf (addf (Host.dotGeneral dot_S32768x1024_S1024x4096_S32768x4096_1_0_0_1_n_n none a w1)
            (broadcastInDim S32768x4096 ![0, 1] bcast_S1x4096_S32768x4096_0_1 (broadcastInDim S1x4096 ![1] bcast_S4096_S1x4096_1 b1)))
          (broadcastInDim S32768x4096 ![] bcast_S_S32768x4096 (constant (F := Ideal) S_ .f32 0x00000000#32))) w2)
      (broadcastInDim S32768x1024 ![0, 1] bcast_S1x1024_S32768x1024_0_1 (broadcastInDim S1x1024 ![1] bcast_S1024_S1x1024_1 b2))
    = Spec.mlp a w1 b1 w2 b2 := by
  funext i
  obtain ⟨n, d, rfl⟩ : ∃ (n : Fin 32768) (d : Fin 1024), i = ix2 n d := ⟨i 0, i 1, eq_ix2 i⟩
  rw [addf_apply, Cert.LibSegSum.bcast_row_apply, dot2_plain, Cert.Lib.PlainDot.dotGeneral_plain_apply]
  unfold Spec.mlp
  refine congrArg (· + b2 (ix1 d)) (Finset.sum_congr rfl fun h _ => congrArg (· * w2 (ix2 h d)) ?_)
  exact hidden_eq a w1 b1 n h

/-- The first result is the specification's function of its seven arguments. -/
theorem out0_eq (x0 x1 x2 : (⟨S32768x1024, .f32⟩ : BufTy).Contents (Elt Ideal)) (x3 : (⟨S1024x4096, .f32⟩ : BufTy).Contents (Elt Ideal))
    (x4 : (⟨S4096, .f32⟩ : BufTy).Contents (Elt Ideal)) (x5 : (⟨S4096x1024, .f32⟩ : BufTy).Contents (Elt Ideal))
    (x6 : (⟨S1024, .f32⟩ : BufTy).Contents (Elt Ideal)) :
    Cert.ReferenceIdeal.Read.val_main_v36 (F := Ideal) x0 x1 x2 x3 x4 x5 x6 = Cert.Spec.result x0 x1 x2 x3 x4 x5 x6 := by
  unfold val_main_v36 val_main_v33 val_main_v32 val_main_v30 val_main_v27 val_main_v29 val_main_v28 val_main_v31 val_main_cst_3
    val_main_v35 val_main_v34
  rw [attn_eq]
  exact perceptron_eq _ x3 x4 x5 x6

/-- The second result is the same function of the second set of parameters. -/
theorem out1_eq (x0 x1 x2 : (⟨S32768x1024, .f32⟩ : BufTy).Contents (Elt Ideal)) (x7 : (⟨S1024x4096, .f32⟩ : BufTy).Contents (Elt Ideal))
    (x8 : (⟨S4096, .f32⟩ : BufTy).Contents (Elt Ideal)) (x9 : (⟨S4096x1024, .f32⟩ : BufTy).Contents (Elt Ideal))
    (x10 : (⟨S1024, .f32⟩ : BufTy).Contents (Elt Ideal)) :
    Cert.ReferenceIdeal.Read.val_main_v46 (F := Ideal) x0 x1 x2 x7 x8 x9 x10 = Cert.Spec.result x0 x1 x2 x7 x8 x9 x10 := by
  unfold val_main_v46 val_main_v43 val_main_v42 val_main_v40 val_main_v37 val_main_v39 val_main_v38 val_main_v41 val_main_cst_4
    val_main_v45 val_main_v44
  rw [attn_eq]
  exact perceptron_eq _ x7 x8 x9 x10

open Idealize.ShloMosaic.TcCoe Idealize.SL.Sem Idealize.ShloMosaic.StableHlo in
/-- Every weakly fair execution of the reference terminates with both results at the specification's function of the
    arguments' launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = Cert.Spec.result (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_v46) = Cert.Spec.result (m ((c.tc : Thread nD τ).loc main_arg0))
          (m ((c.tc : Thread nD τ).loc main_arg1)) (m ((c.tc : Thread nD τ).loc main_arg2)) (m ((c.tc : Thread nD τ).loc main_arg7))
          (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c).1.trans ((val_main_v36_eq m c).trans (out0_eq _ _ _ _ _ _ _)),
       (h c).2.1.trans ((val_main_v46_eq m c).trans (out1_eq _ _ _ _ _ _ _)),
       (h c).2.2⟩)
    (Cert.ReferenceIdeal.Value.run (F := Ideal) m ρ)

end Cert.ReferenceIdeal.RefValue

end
-- ==== Proof.lean ====
/- The proof of `Cert.Claim`: the kernel program, its idealization and the jnp reference compute, over the extended reals,
   one function of the argument arrays Q, K, V [32768, 1024] and the two perceptrons' weights and biases:

     S = QᵀK  [1024, 1024];   logit = exp(S − S·δ/32) with δ the identity matrix;   scores = the softmax of each row of logit;
     attn = V·scoresᵀ  [32768, 1024];   result = relu(attn·W₁ + b₁)·W₂ + b₂, once per weight set.

   The kernel program computes S as two half sums, each accumulated over sixteen tiles of 1024 rows in a scratch buffer carried
   between grid points (addition of extended reals is commutative and associative, so the regrouping needs no finiteness);
   it multiplies by the exact binary fraction 1/32 where the reference divides by 32 (equal on every extended real); every
   change of float format is the identity on extended reals; and V·scoresᵀ against (scores·Vᵀ)ᵀ is commutativity of the
   product. The perceptrons are the same sums on both sides.

   The frames: each of the kernel program's five kernel regions is run point by point — the first with its accumulator's
   contents in the invariant — between host stretches, every argument array handed back as found; the reference is a
   straight line of host operations. The ideal pass rewrote nothing, so the idealization claim is trivial. -/
import proofs.«154929_j24000277250146_2_alg».proof.Defs
import proofs.«154929_j24000277250146_2_alg».proof.Proof.Gen.Kernel
import proofs.«154929_j24000277250146_2_alg».proof.Proof.Gen.KernelIdeal
import proofs.«154929_j24000277250146_2_alg».proof.Proof.Gen.ReferenceIdeal
import proofs.«154929_j24000277250146_2_alg».proof.Proof.Gen.Pre_finite_inputs
import proofs.«154929_j24000277250146_2_alg».proof.Proof.K.Frame
import proofs.«154929_j24000277250146_2_alg».proof.Proof.KI.Chain
import proofs.«154929_j24000277250146_2_alg».proof.Proof.Ref
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frameH (F := Bits) m ρ

/-- The same for its idealization. -/
theorem frame_ki : Cert.frame_KernelIdeal := fun m ρ _ => Cert.KernelIdeal.Hand.frameH (F := Ideal) m ρ

/-- The reference is a straight line of host operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Over the extended reals both programs end with their two results at the specification's function of the argument
    arrays, which agree. -/
theorem algebraic : Cert.algebraic_KernelIdeal_ReferenceIdeal := by
  intro m ρ m' ρ' _ hagree
  refine ⟨_, _, Cert.KernelIdeal.Hand.run_spec m ρ, ?_⟩
  refine (θ_run Cert.ReferenceIdeal.defs _ _).mono (fun r h c => ?_) (Cert.ReferenceIdeal.RefValue.run_spec m' ρ')
  obtain ⟨a0, a1, a2, a3, a4, a5, a6, a7, a8, a9, a10⟩ := hagree c
  refine ⟨(h c).1.trans ?_, (h c).2.1.trans ?_, (h c).2.2⟩
  · rw [a0, a1, a2, a3, a4, a5, a6]
  · rw [a0, a1, a2, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
